-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_arg14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg14) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x256 : Shape := ⟨2, ![20000, 256]⟩
abbrev S256x256 : Shape := ⟨2, ![256, 256]⟩
abbrev S256 : Shape := ⟨1, ![256]⟩
abbrev S256x512 : Shape := ⟨2, ![256, 512]⟩
abbrev S512 : Shape := ⟨1, ![512]⟩
abbrev S2x320000 : Shape := ⟨2, ![2, 320000]⟩
abbrev S20000 : Shape := ⟨1, ![20000]⟩
abbrev S320000 : Shape := ⟨1, ![320000]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_arg11 : FVec F S512 .f32) (main_v48 : IVec S_ 1) (main_v49 : FVec F S256x512 .f32) (main_v50 : FVec F S256x512 .f32) : IVec S_ 1 :=
  let main_v51 : IVec S256x512 1 := cmpf .olt main_v49 main_v50
  let main_c_19 : IVec S_ 1 := constantI S_ 1 1#1
  let main_v52 : IVec S_ 1 := (fun x v => Host.reduce IntOp.andi x v reducesTo_S256x512_S_d0_1 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  main_v58

def fn_part2 {F : FTy → Type} [FloatOps F] (main_arg7 : FVec F S256 .f32) (main_arg8 : FVec F S256x256 .f32) (main_arg9 : FVec F S256 .f32) (main_arg10 : FVec F S256x512 .f32) (main_arg11 : FVec F S512 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x512 .f32 := Host.absf main_arg10
  let main_cst_18 : FVec F S_ .f32 := constant S_ .f32 0x7F800000#32
  let main_v50 : FVec F S256x512 .f32 := broadcastInDim S256x512 ![] bcast_S_S256x512 main_cst_18
  fn_part3 (F := F) main_arg11 main_v48 main_v49 main_v50

def fn_part1 {F : FTy → Type} [FloatOps F] (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256x512 .f32) (main_arg11 : FVec F S512 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S20000x256 .f32) (main_arg1 : FVec F S20000x256 .f32) (main_arg2 : FVec F S256x256 .f32) (main_arg3 : FVec F S256 .f32) (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256x512 .f32) (main_arg11 : FVec F S512 .f32) (main_arg12 : IVec S2x320000 32) (main_arg13 : IVec S20000 32) (main_arg14 : IVec S320000 32) (main_arg15 : IVec S320000 32) : IVec S_ 1 :=
  let main_v0 : FVec F S20000x256 .f32 := Host.absf main_arg0
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S20000x256 .f32 := Host.absf main_arg1
  let main_cst_0 : FVec F S_ .f32 := constant S_ .f32 0x7F800000#32
  let main_v5 : FVec F S20000x256 .f32 := broadcastInDim S20000x256 ![] bcast_S_S20000x256 main_cst_0
  let main_v6 : IVec S20000x256 1 := cmpf .olt main_v4 main_v5
  let main_c_1 : IVec S_ 1 := constantI S_ 1 1#1
  let main_v7 : IVec S_ 1 := (fun x v => Host.reduce IntOp.andi x v reducesTo_S20000x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_v13 main_v16
-- ==== Kernel.lean ====
abbrev S20000x256 : Shape := ⟨2, ![20000, 256]⟩
abbrev S256x256 : Shape := ⟨2, ![256, 256]⟩
abbrev S256 : Shape := ⟨1, ![256]⟩
abbrev S256x512 : Shape := ⟨2, ![256, 512]⟩
abbrev S512 : Shape := ⟨1, ![512]⟩
abbrev S2x320000 : Shape := ⟨2, ![2, 320000]⟩
abbrev S20000 : Shape := ⟨1, ![20000]⟩
abbrev S320000 : Shape := ⟨1, ![320000]⟩
abbrev S1x320000 : Shape := ⟨2, ![1, 320000]⟩
abbrev S1x256 : Shape := ⟨2, ![1, 256]⟩
abbrev S_ : Shape := ⟨0, ![]⟩
abbrev S320000x1 : Shape := ⟨2, ![320000, 1]⟩
abbrev S1 : Shape := ⟨1, ![1]⟩
abbrev S1x1 : Shape := ⟨2, ![1, 1]⟩
abbrev S320000x256 : Shape := ⟨2, ![320000, 256]⟩
abbrev S1x512 : Shape := ⟨2, ![1, 512]⟩
abbrev S320000x512 : Shape := ⟨2, ![320000, 512]⟩
abbrev S1280x256 : Shape := ⟨2, ![1280, 256]⟩
abbrev S1280x512 : Shape := ⟨2, ![1280, 512]⟩
abbrev S1280 : Shape := ⟨1, ![1280]⟩
abbrev S1280x1 : Shape := ⟨2, ![1280, 1]⟩

abbrev nBuf : Space → Nat
  | .hbm => 166
  | .vmem => 16
  | .smem => 0
  | _ => 0

abbrev hbmTy0_0 (i : Nat) : BufTy := match i % 128 with
  | 0 => ⟨S20000x256, .f32⟩
  | 1 => ⟨S20000x256, .f32⟩
  | 2 => ⟨S256x256, .f32⟩
  | 3 => ⟨S256, .f32⟩
  | 4 => ⟨S256x256, .f32⟩
  | 5 => ⟨S256, .f32⟩
  | 6 => ⟨S256x256, .f32⟩
  | 7 => ⟨S256, .f32⟩
  | 8 => ⟨S256x256, .f32⟩
  | 9 => ⟨S256, .f32⟩
  | 10 => ⟨S256x512, .f32⟩
  | 11 => ⟨S512, .f32⟩
  | 12 => ⟨S2x320000, .i32⟩
  | 13 => ⟨S20000, .i32⟩
  | 14 => ⟨S320000, .i32⟩
  | 15 => ⟨S320000, .i32⟩
  | 16 => ⟨S1x320000, .i32⟩
  | 17 => ⟨S320000, .i32⟩
  | 18 => ⟨S20000x256, .f32⟩
  | 19 => ⟨S1x256, .f32⟩
  | 20 => ⟨S20000x256, .f32⟩
  | 21 => ⟨S20000x256, .f32⟩
  | 22 => ⟨S20000x256, .f32⟩
  | 23 => ⟨S1x256, .f32⟩
  | 24 => ⟨S20000x256, .f32⟩
  | 25 => ⟨S20000x256, .f32⟩
  | 26 => ⟨S_, .i32⟩
  | 27 => ⟨S320000, .i32⟩
  | 28 => ⟨S320000, .i1⟩
  | 29 => ⟨S_, .i32⟩
  | 30 => ⟨S320000, .i32⟩
  | 31 => ⟨S320000, .i32⟩
  | 32 => ⟨S320000, .i32⟩
  | 33 => ⟨S320000x1, .i32⟩
  | 34 => ⟨S1, .i32⟩
  | 35 => ⟨S_, .i32⟩
  | 36 => ⟨S320000x1, .i32⟩
  | 37 => ⟨S320000x1, .i1⟩
  | 38 => ⟨S1x1, .i32⟩
  | 39 => ⟨S320000x1, .i32⟩
  | 40 => ⟨S320000x1, .i1⟩
  | 41 => ⟨S320000x1, .i1⟩
  | 42 => ⟨S_, .i1⟩
  | 43 => ⟨S320000, .i1⟩
  | 44 => ⟨S320000, .i32⟩
  | 45 => ⟨S_, .i32⟩
  | 46 => ⟨S320000, .i32⟩
  | 47 => ⟨S320000, .i32⟩
  | 48 => ⟨S_, .i32⟩
  | 49 => ⟨S320000, .i32⟩
  | 50 => ⟨S320000, .i1⟩
  | 51 => ⟨S_, .i32⟩
  | 52 => ⟨S320000, .i32⟩
  | 53 => ⟨S320000, .i32⟩
  | 54 => ⟨S320000, .i32⟩
  | 55 => ⟨S320000x1, .i32⟩
  | 56 => ⟨S1, .i32⟩
  | 57 => ⟨S_, .i32⟩
  | 58 => ⟨S320000x1, .i32⟩
  | 59 => ⟨S320000x1, .i1⟩
  | 60 => ⟨S1x1, .i32⟩
  | 61 => ⟨S320000x1, .i32⟩
  | 62 => ⟨S320000x1, .i1⟩
  | 63 => ⟨S320000x1, .i1⟩
  | 64 => ⟨S_, .i1⟩
  | 65 => ⟨S320000, .i1⟩
  | 66 => ⟨S320000, .i32⟩
  | 67 => ⟨S_, .i32⟩
  | 68 => ⟨S320000, .i32⟩
  | 69 => ⟨S320000, .i32⟩
  | 70 => ⟨S_, .i32⟩
  | 71 => ⟨S320000, .i32⟩
  | 72 => ⟨S320000, .i1⟩
  | 73 => ⟨S_, .i32⟩
  | 74 => ⟨S320000, .i32⟩
  | 75 => ⟨S320000, .i32⟩
  | 76 => ⟨S320000, .i32⟩
  | 77 => ⟨S320000x1, .i32⟩
  | 78 => ⟨S1, .i32⟩
  | 79 => ⟨S_, .i32⟩
  | 80 => ⟨S320000x1, .i32⟩
  | 81 => ⟨S320000x1, .i1⟩
  | 82 => ⟨S1x1, .i32⟩
  | 83 => ⟨S320000x1, .i32⟩
  | 84 => ⟨S320000x1, .i1⟩
  | 85 => ⟨S320000x1, .i1⟩
  | 86 => ⟨S_, .i1⟩
  | 87 => ⟨S320000, .i1⟩
  | 88 => ⟨S320000x256, .f32⟩
  | 89 => ⟨S320000x256, .i1⟩
  | 90 => ⟨S_, .f32⟩
  | 91 => ⟨S320000x256, .f32⟩
  | 92 => ⟨S320000x256, .f32⟩
  | 93 => ⟨S_, .i32⟩
  | 94 => ⟨S320000, .i32⟩
  | 95 => ⟨S320000, .i1⟩
  | 96 => ⟨S_, .i32⟩
  | 97 => ⟨S320000, .i32⟩
  | 98 => ⟨S320000, .i32⟩
  | 99 => ⟨S320000, .i32⟩
  | 100 => ⟨S320000x1, .i32⟩
  | 101 => ⟨S1, .i32⟩
  | 102 => ⟨S_, .i32⟩
  | 103 => ⟨S320000x1, .i32⟩
  | 104 => ⟨S320000x1, .i1⟩
  | 105 => ⟨S1x1, .i32⟩
  | 106 => ⟨S320000x1, .i32⟩
  | 107 => ⟨S320000x1, .i1⟩
  | 108 => ⟨S320000x1, .i1⟩
  | 109 => ⟨S_, .i1⟩
  | 110 => ⟨S320000, .i1⟩
  | 111 => ⟨S320000x256, .f32⟩
  | 112 => ⟨S320000x256, .i1⟩
  | 113 => ⟨S_, .f32⟩
  | 114 => ⟨S320000x256, .f32⟩
  | 115 => ⟨S320000x256, .f32⟩
  | 116 => ⟨S_, .i32⟩
  | 117 => ⟨S320000, .i32⟩
  | 118 => ⟨S320000, .i1⟩
  | 119 => ⟨S_, .i32⟩
  | 120 => ⟨S320000, .i32⟩
  | 121 => ⟨S320000, .i32⟩
  | 122 => ⟨S320000, .i32⟩
  | 123 => ⟨S320000x1, .i32⟩
  | 124 => ⟨S1, .i32⟩
  | 125 => ⟨S_, .i32⟩
  | 126 => ⟨S320000x1, .i32⟩
  | 127 => ⟨S320000x1, .i1⟩
  | _ => ⟨S20000x256, .f32⟩

abbrev hbmTy0_1 (i : Nat) : BufTy := match i % 128 with
  | 0 => ⟨S1x1, .i32⟩
  | 1 => ⟨S320000x1, .i32⟩
  | 2 => ⟨S320000x1, .i1⟩
  | 3 => ⟨S320000x1, .i1⟩
  | 4 => ⟨S_, .i1⟩
  | 5 => ⟨S320000, .i1⟩
  | 6 => ⟨S320000x256, .f32⟩
  | 7 => ⟨S320000x256, .i1⟩
  | 8 => ⟨S_, .f32⟩
  | 9 => ⟨S320000x256, .f32⟩
  | 10 => ⟨S320000x256, .f32⟩
  | 11 => ⟨S_, .i32⟩
  | 12 => ⟨S320000, .i32⟩
  | 13 => ⟨S320000, .i1⟩
  | 14 => ⟨S_, .i32⟩
  | 15 => ⟨S320000, .i32⟩
  | 16 => ⟨S320000, .i32⟩
  | 17 => ⟨S320000, .i32⟩
  | 18 => ⟨S320000x1, .i32⟩
  | 19 => ⟨S1, .i32⟩
  | 20 => ⟨S_, .i32⟩
  | 21 => ⟨S320000x1, .i32⟩
  | 22 => ⟨S320000x1, .i1⟩
  | 23 => ⟨S1x1, .i32⟩
  | 24 => ⟨S320000x1, .i32⟩
  | 25 => ⟨S320000x1, .i1⟩
  | 26 => ⟨S320000x1, .i1⟩
  | 27 => ⟨S_, .i1⟩
  | 28 => ⟨S320000, .i1⟩
  | 29 => ⟨S320000x256, .f32⟩
  | 30 => ⟨S320000x256, .i1⟩
  | 31 => ⟨S_, .f32⟩
  | 32 => ⟨S320000x256, .f32⟩
  | 33 => ⟨S320000x256, .f32⟩
  | 34 => ⟨S1x256, .f32⟩
  | 35 => ⟨S1x256, .f32⟩
  | 36 => ⟨S1x512, .f32⟩
  | 37 => ⟨S320000x512, .f32⟩
  | _ => ⟨S20000x256, .f32⟩

abbrev hbmTy (i : Nat) : BufTy := match i / 128 with
  | 0 => hbmTy0_0 i
  | 1 => hbmTy0_1 i
  | _ => ⟨S20000x256, .f32⟩

abbrev bufTy : (tb : Table) → Fin (tcTables nBuf tb) → BufTy
  | .hbm, ⟨i, _⟩ => hbmTy i
  | .local _ .vmem, ⟨0, _⟩ => ⟨S1280x256, .f32⟩
  | .local _ .vmem, ⟨1, _⟩ => ⟨S1280x256, .f32⟩
  | .local _ .vmem, ⟨2, _⟩ => ⟨S1280x256, .f32⟩
  | .local _ .vmem, ⟨3, _⟩ => ⟨S1280x256, .f32⟩
  | .local _ .vmem, ⟨4, _⟩ => ⟨S1280x256, .f32⟩
  | .local _ .vmem, ⟨5, _⟩ => ⟨S1280x256, .f32⟩
  | .local _ .vmem, ⟨6, _⟩ => ⟨S1280x256, .f32⟩
  | .local _ .vmem, ⟨7, _⟩ => ⟨S1280x256, .f32⟩
  | .local _ .vmem, ⟨8, _⟩ => ⟨S256x256, .f32⟩
  | .local _ .vmem, ⟨9, _⟩ => ⟨S1x256, .f32⟩
  | .local _ .vmem, ⟨10, _⟩ => ⟨S256x256, .f32⟩
  | .local _ .vmem, ⟨11, _⟩ => ⟨S1x256, .f32⟩
  | .local _ .vmem, ⟨12, _⟩ => ⟨S256x512, .f32⟩
  | .local _ .vmem, ⟨13, _⟩ => ⟨S1x512, .f32⟩
  | .local _ .vmem, ⟨14, _⟩ => ⟨S1280x512, .f32⟩
  | .local _ .vmem, ⟨15, _⟩ => ⟨S1280x512, .f32⟩
  | _, _ => ⟨S20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call0_c : Ref sig .tc := ⟨.hbm, 26, rfl⟩
abbrev main_call0_v0 : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_c_1 : Ref sig .tc := ⟨.hbm, 34, rfl⟩
abbrev main_call0_c_2 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_3 : Ref sig .tc := ⟨.hbm, 42, rfl⟩
abbrev main_call0_v12 : Ref sig .tc := ⟨.hbm, 43, rfl⟩
abbrev main_call0_v13 : Ref sig .tc := ⟨.hbm, 44, rfl⟩
abbrev main_call0_c_4 : Ref sig .tc := ⟨.hbm, 45, rfl⟩
abbrev main_call0_v14 : Ref sig .tc := ⟨.hbm, 46, rfl⟩
abbrev main_v10 : Ref sig .tc := ⟨.hbm, 47, rfl⟩
abbrev main_call1_c : Ref sig .tc := ⟨.hbm, 48, rfl⟩
abbrev main_call1_v0 : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_c_1 : Ref sig .tc := ⟨.hbm, 56, rfl⟩
abbrev main_call1_c_2 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_3 : Ref sig .tc := ⟨.hbm, 64, rfl⟩
abbrev main_call1_v12 : Ref sig .tc := ⟨.hbm, 65, rfl⟩
abbrev main_call1_v13 : Ref sig .tc := ⟨.hbm, 66, rfl⟩
abbrev main_call1_c_4 : Ref sig .tc := ⟨.hbm, 67, rfl⟩
abbrev main_call1_v14 : Ref sig .tc := ⟨.hbm, 68, rfl⟩
abbrev main_v11 : Ref sig .tc := ⟨.hbm, 69, rfl⟩
abbrev main_call2_c : Ref sig .tc := ⟨.hbm, 70, rfl⟩
abbrev main_call2_v0 : Ref sig .tc := ⟨.hbm, 71, rfl⟩
abbrev main_call2_v1 : Ref sig .tc := ⟨.hbm, 72, rfl⟩
abbrev main_call2_c_0 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_call2_v5 : Ref sig .tc := ⟨.hbm, 77, rfl⟩
abbrev main_call2_c_1 : Ref sig .tc := ⟨.hbm, 78, rfl⟩
abbrev main_call2_c_2 : Ref sig .tc := ⟨.hbm, 79, rfl⟩
abbrev main_call2_v6 : Ref sig .tc := ⟨.hbm, 80, rfl⟩
abbrev main_call2_v7 : Ref sig .tc := ⟨.hbm, 81, rfl⟩
abbrev main_call2_v8 : Ref sig .tc := ⟨.hbm, 82, rfl⟩
abbrev main_call2_v9 : Ref sig .tc := ⟨.hbm, 83, rfl⟩
abbrev main_call2_v10 : Ref sig .tc := ⟨.hbm, 84, rfl⟩
abbrev main_call2_v11 : Ref sig .tc := ⟨.hbm, 85, rfl⟩
abbrev main_call2_c_3 : Ref sig .tc := ⟨.hbm, 86, rfl⟩
abbrev main_call2_v12 : Ref sig .tc := ⟨.hbm, 87, rfl⟩
abbrev main_call2_v13 : Ref sig .tc := ⟨.hbm, 88, rfl⟩
abbrev main_call2_v14 : Ref sig .tc := ⟨.hbm, 89, rfl⟩
abbrev main_call2_cst : Ref sig .tc := ⟨.hbm, 90, rfl⟩
abbrev main_call2_v15 : Ref sig .tc := ⟨.hbm, 91, rfl⟩
abbrev main_v12 : Ref sig .tc := ⟨.hbm, 92, rfl⟩
abbrev main_call3_c : Ref sig .tc := ⟨.hbm, 93, rfl⟩
abbrev main_call3_v0 : Ref sig .tc := ⟨.hbm, 94, rfl⟩
abbrev main_call3_v1 : Ref sig .tc := ⟨.hbm, 95, rfl⟩
abbrev main_call3_c_0 : Ref sig .tc := ⟨.hbm, 96, rfl⟩
abbrev main_call3_v2 : Ref sig .tc := ⟨.hbm, 97, rfl⟩
abbrev main_call3_v3 : Ref sig .tc := ⟨.hbm, 98, rfl⟩
abbrev main_call3_v4 : Ref sig .tc := ⟨.hbm, 99, rfl⟩
abbrev main_call3_v5 : Ref sig .tc := ⟨.hbm, 100, rfl⟩
abbrev main_call3_c_1 : Ref sig .tc := ⟨.hbm, 101, rfl⟩
abbrev main_call3_c_2 : Ref sig .tc := ⟨.hbm, 102, rfl⟩
abbrev main_call3_v6 : Ref sig .tc := ⟨.hbm, 103, rfl⟩
abbrev main_call3_v7 : Ref sig .tc := ⟨.hbm, 104, rfl⟩
abbrev main_call3_v8 : Ref sig .tc := ⟨.hbm, 105, rfl⟩
abbrev main_call3_v9 : Ref sig .tc := ⟨.hbm, 106, rfl⟩
abbrev main_call3_v10 : Ref sig .tc := ⟨.hbm, 107, rfl⟩
abbrev main_call3_v11 : Ref sig .tc := ⟨.hbm, 108, rfl⟩
abbrev main_call3_c_3 : Ref sig .tc := ⟨.hbm, 109, rfl⟩
abbrev main_call3_v12 : Ref sig .tc := ⟨.hbm, 110, rfl⟩
abbrev main_call3_v13 : Ref sig .tc := ⟨.hbm, 111, rfl⟩
abbrev main_call3_v14 : Ref sig .tc := ⟨.hbm, 112, rfl⟩
abbrev main_call3_cst : Ref sig .tc := ⟨.hbm, 113, rfl⟩
abbrev main_call3_v15 : Ref sig .tc := ⟨.hbm, 114, rfl⟩
abbrev main_v13 : Ref sig .tc := ⟨.hbm, 115, rfl⟩
abbrev main_call4_c : Ref sig .tc := ⟨.hbm, 116, rfl⟩
abbrev main_call4_v0 : Ref sig .tc := ⟨.hbm, 117, rfl⟩
abbrev main_call4_v1 : Ref sig .tc := ⟨.hbm, 118, rfl⟩
abbrev main_call4_c_0 : Ref sig .tc := ⟨.hbm, 119, rfl⟩
abbrev main_call4_v2 : Ref sig .tc := ⟨.hbm, 120, rfl⟩
abbrev main_call4_v3 : Ref sig .tc := ⟨.hbm, 121, rfl⟩
abbrev main_call4_v4 : Ref sig .tc := ⟨.hbm, 122, rfl⟩
abbrev main_call4_v5 : Ref sig .tc := ⟨.hbm, 123, rfl⟩
abbrev main_call4_c_1 : Ref sig .tc := ⟨.hbm, 124, rfl⟩
abbrev main_call4_c_2 : Ref sig .tc := ⟨.hbm, 125, rfl⟩
abbrev main_call4_v6 : Ref sig .tc := ⟨.hbm, 126, rfl⟩
abbrev main_call4_v7 : Ref sig .tc := ⟨.hbm, 127, rfl⟩
abbrev main_call4_v8 : Ref sig .tc := ⟨.hbm, 128, rfl⟩
abbrev main_call4_v9 : Ref sig .tc := ⟨.hbm, 129, rfl⟩
abbrev main_call4_v10 : Ref sig .tc := ⟨.hbm, 130, rfl⟩
abbrev main_call4_v11 : Ref sig .tc := ⟨.hbm, 131, rfl⟩
abbrev main_call4_c_3 : Ref sig .tc := ⟨.hbm, 132, rfl⟩
abbrev main_call4_v12 : Ref sig .tc := ⟨.hbm, 133, rfl⟩
abbrev main_call4_v13 : Ref sig .tc := ⟨.hbm, 134, rfl⟩
abbrev main_call4_v14 : Ref sig .tc := ⟨.hbm, 135, rfl⟩
abbrev main_call4_cst : Ref sig .tc := ⟨.hbm, 136, rfl⟩
abbrev main_call4_v15 : Ref sig .tc := ⟨.hbm, 137, rfl⟩
abbrev main_v14 : Ref sig .tc := ⟨.hbm, 138, rfl⟩
abbrev main_call5_c : Ref sig .tc := ⟨.hbm, 139, rfl⟩
abbrev main_call5_v0 : Ref sig .tc := ⟨.hbm, 140, rfl⟩
abbrev main_call5_v1 : Ref sig .tc := ⟨.hbm, 141, rfl⟩
abbrev main_call5_c_0 : Ref sig .tc := ⟨.hbm, 142, rfl⟩
abbrev main_call5_v2 : Ref sig .tc := ⟨.hbm, 143, rfl⟩
abbrev main_call5_v3 : Ref sig .tc := ⟨.hbm, 144, rfl⟩
abbrev main_call5_v4 : Ref sig .tc := ⟨.hbm, 145, rfl⟩
abbrev main_call5_v5 : Ref sig .tc := ⟨.hbm, 146, rfl⟩
abbrev main_call5_c_1 : Ref sig .tc := ⟨.hbm, 147, rfl⟩
abbrev main_call5_c_2 : Ref sig .tc := ⟨.hbm, 148, rfl⟩
abbrev main_call5_v6 : Ref sig .tc := ⟨.hbm, 149, rfl⟩
abbrev main_call5_v7 : Ref sig .tc := ⟨.hbm, 150, rfl⟩
abbrev main_call5_v8 : Ref sig .tc := ⟨.hbm, 151, rfl⟩
abbrev main_call5_v9 : Ref sig .tc := ⟨.hbm, 152, rfl⟩
abbrev main_call5_v10 : Ref sig .tc := ⟨.hbm, 153, rfl⟩
abbrev main_call5_v11 : Ref sig .tc := ⟨.hbm, 154, rfl⟩
abbrev main_call5_c_3 : Ref sig .tc := ⟨.hbm, 155, rfl⟩
abbrev main_call5_v12 : Ref sig .tc := ⟨.hbm, 156, rfl⟩
abbrev main_call5_v13 : Ref sig .tc := ⟨.hbm, 157, rfl⟩
abbrev main_call5_v14 : Ref sig .tc := ⟨.hbm, 158, rfl⟩
abbrev main_call5_cst : Ref sig .tc := ⟨.hbm, 159, rfl⟩
abbrev main_call5_v15 : Ref sig .tc := ⟨.hbm, 160, rfl⟩
abbrev main_v15 : Ref sig .tc := ⟨.hbm, 161, rfl⟩
abbrev main_v16 : Ref sig .tc := ⟨.hbm, 162, rfl⟩
abbrev main_v17 : Ref sig .tc := ⟨.hbm, 163, rfl⟩
abbrev main_v18 : Ref sig .tc := ⟨.hbm, 164, rfl⟩
abbrev main_v19 : Ref sig .tc := ⟨.hbm, 165, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1280x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1280x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1280x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1280x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1280x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S2x320000_S1x320000_0_0 : S2x320000.Slices ![0, 0] S1x320000
  shapeCasts_S1x320000_S320000 : S1x320000.ShapeCasts S320000
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  reducesTo_S320000x1_S320000_d1 : S320000x1.ReducesTo [1] S320000
  h_S_ : 0 < S_.numel
  bcast_S320000_S320000x256_0 : S320000.BroadcastsInDim S320000x256 (![0] : Fin 1 → Fin S320000x256.rank)
  bcast_S_S320000x256 : S_.BroadcastsInDim S320000x256 (![] : Fin 0 → Fin S320000x256.rank)
  shapeCasts_S256_S1x256 : S256.ShapeCasts S1x256
  shapeCasts_S512_S1x512 : S512.ShapeCasts S1x512
  inb_S1280x256_S1280x256_0_0 : ∀ a, (![0, 0] : Fin 2 → Nat) a + S1280x256.size a ≤ S1280x256.size a
  h_S1280x256 : 0 < S1280x256.numel
  shapeCasts_S1280x256_S1280x256 : S1280x256.ShapeCasts S1280x256
  reduces_S1280x256_S1280 : S1280x256.Reduces [1] S1280
  shapeCasts_S1280_S1280x1 : S1280.ShapeCasts S1280x1
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1280x256 : S1x256.Broadcasts S1280x256
  broadcasts_S1280x1_S1280x256 : S1280x1.Broadcasts S1280x256
  inb_S256x512_S256x512_0_0 : ∀ a, (![0, 0] : Fin 2 → Nat) a + S256x512.size a ≤ S256x512.size a
  h_S256x512 : 0 < S256x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1280x512 : S1x512.Broadcasts S1280x512
  inb_S1280x512_S1280x512_0_0 : ∀ a, (![0, 0] : Fin 2 → Nat) a + S1280x512.size a ≤ S1280x512.size a
  h_S1280x512 : 0 < S1280x512.numel
  dot_S20000x256_S256x256_S20000x256_1_0_0_1_n_n_wf : DotDims.WF S20000x256 S256x256 S20000x256 [1] [0] [0] [1] [] []
  gather_S20000_S320000x1_S320000_n_0_n_n_0_1_1_wf : GatherDims.WF S20000 S320000x1 S320000 [] [0] [] [0] [] 1 ![1]
  gather_S320000_S320000x1_S320000_n_0_n_n_0_1_1_wf : GatherDims.WF S320000 S320000x1 S320000 [] [0] [] [0] [] 1 ![1]
  gather_S20000x256_S320000x1_S320000x256_1_0_n_n_0_1_1256_wf : GatherDims.WF S20000x256 S320000x1 S320000x256 [1] [0] [] [0] [] 1 ![1, 256]
  dot_S1280x256_S256x256_S1280x256_1_0_0_1_n_n_wf : DotDims.WF S1280x256 S256x256 S1280x256 [1] [0] [0] [1] [] []
  dot_S1280x256_S256x512_S1280x512_1_0_0_1_n_n_wf : DotDims.WF S1280x256 S256x512 S1280x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1280x256.size a ≤ S320000x256.size a
  hwx0_0 : ∀ i : grid0.Coords, EltTy.bits .f32 = 32 ∨ (Rect.block (s := S320000x256) S1280x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x256.size a ≤ S320000x256.size a
  hwx0_1 : ∀ i : grid0.Coords, EltTy.bits .f32 = 32 ∨ (Rect.block (s := S320000x256) S1280x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1280x256.size a ≤ S320000x256.size a
  hwx0_2 : ∀ i : grid0.Coords, EltTy.bits .f32 = 32 ∨ (Rect.block (s := S320000x256) S1280x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1280x256.size a ≤ S320000x256.size a
  hwx0_3 : ∀ i : grid0.Coords, EltTy.bits .f32 = 32 ∨ (Rect.block (s := S320000x256) S1280x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x512.size a ≤ S256x512.size a
  hwx0_8 : ∀ i : grid0.Coords, EltTy.bits .f32 = 32 ∨ (Rect.block (s := S256x512) S256x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1280x512.size a ≤ S320000x512.size a
  hwx0_10 : ∀ i : grid0.Coords, EltTy.bits .f32 = 32 ∨ (Rect.block (s := S320000x512) S1280x512.size (cc0_transform_10 i) (hinb0_10 i)).WholeWords (EltTy.packing .f32)

variable [Facts₀]

def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def gather_S20000_S320000x1_S320000_n_0_n_n_0_1_1 : GatherDims S20000 S320000x1 S320000 where
  offsetDims := []
  collapsedSliceDims := [0]
  operandBatchingDims := []
  startIndicesBatchingDims := []
  startIndexMap := [0]
  indexVectorDim := 1
  sliceSizes := ![1]
  wf := gather_S20000_S320000x1_S320000_n_0_n_n_0_1_1_wf
def gather_S320000_S320000x1_S320000_n_0_n_n_0_1_1 : GatherDims S320000 S320000x1 S320000 where
  offsetDims := []
  collapsedSliceDims := [0]
  operandBatchingDims := []
  startIndicesBatchingDims := []
  startIndexMap := [0]
  indexVectorDim := 1
  sliceSizes := ![1]
  wf := gather_S320000_S320000x1_S320000_n_0_n_n_0_1_1_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def dot_S1280x256_S256x256_S1280x256_1_0_0_1_n_n : DotDims S1280x256 S256x256 S1280x256 where
  lhsContracting := [1]
  rhsContracting := [0]
  lhsNonContracting := [0]
  rhsNonContracting := [1]
  lhsBatch := []
  rhsBatch := []
  wf := dot_S1280x256_S256x256_S1280x256_1_0_0_1_n_n_wf
def dot_S1280x256_S256x512_S1280x512_1_0_0_1_n_n : DotDims S1280x256 S256x512 S1280x512 where
  lhsContracting := [1]
  rhsContracting := [0]
  lhsNonContracting := [0]
  rhsNonContracting := [1]
  lhsBatch := []
  rhsBatch := []
  wf := dot_S1280x256_S256x512_S1280x512_1_0_0_1_n_n_wf

abbrev win0_0 : Pipeline.Window sig grid0 :=
  Pipeline.Window.ofSpec (Memref.whole main_v12) S1280x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1280x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1280x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1280x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S256x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v18) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v19) S1280x512.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S20000x256 : Shape := ⟨2, ![20000, 256]⟩
abbrev S256x256 : Shape := ⟨2, ![256, 256]⟩
abbrev S256 : Shape := ⟨1, ![256]⟩
abbrev S256x512 : Shape := ⟨2, ![256, 512]⟩
abbrev S512 : Shape := ⟨1, ![512]⟩
abbrev S2x320000 : Shape := ⟨2, ![2, 320000]⟩
abbrev S20000 : Shape := ⟨1, ![20000]⟩
abbrev S320000 : Shape := ⟨1, ![320000]⟩
abbrev S1x320000 : Shape := ⟨2, ![1, 320000]⟩
abbrev S1x256 : Shape := ⟨2, ![1, 256]⟩
abbrev S_ : Shape := ⟨0, ![]⟩
abbrev S320000x1 : Shape := ⟨2, ![320000, 1]⟩
abbrev S1 : Shape := ⟨1, ![1]⟩
abbrev S1x1 : Shape := ⟨2, ![1, 1]⟩
abbrev S320000x256 : Shape := ⟨2, ![320000, 256]⟩
abbrev S320000x512 : Shape := ⟨2, ![320000, 512]⟩
abbrev S1x512 : Shape := ⟨2, ![1, 512]⟩

abbrev nBuf : Space → Nat
  | .hbm => 197
  | .vmem => 0
  | .smem => 0
  | _ => 0

abbrev hbmTy0_0 (i : Nat) : BufTy := match i % 128 with
  | 0 => ⟨S20000x256, .f32⟩
  | 1 => ⟨S20000x256, .f32⟩
  | 2 => ⟨S256x256, .f32⟩
  | 3 => ⟨S256, .f32⟩
  | 4 => ⟨S256x256, .f32⟩
  | 5 => ⟨S256, .f32⟩
  | 6 => ⟨S256x256, .f32⟩
  | 7 => ⟨S256, .f32⟩
  | 8 => ⟨S256x256, .f32⟩
  | 9 => ⟨S256, .f32⟩
  | 10 => ⟨S256x512, .f32⟩
  | 11 => ⟨S512, .f32⟩
  | 12 => ⟨S2x320000, .i32⟩
  | 13 => ⟨S20000, .i32⟩
  | 14 => ⟨S320000, .i32⟩
  | 15 => ⟨S320000, .i32⟩
  | 16 => ⟨S1x320000, .i32⟩
  | 17 => ⟨S320000, .i32⟩
  | 18 => ⟨S20000x256, .f32⟩
  | 19 => ⟨S1x256, .f32⟩
  | 20 => ⟨S20000x256, .f32⟩
  | 21 => ⟨S20000x256, .f32⟩
  | 22 => ⟨S20000x256, .f32⟩
  | 23 => ⟨S1x256, .f32⟩
  | 24 => ⟨S20000x256, .f32⟩
  | 25 => ⟨S20000x256, .f32⟩
  | 26 => ⟨S_, .i32⟩
  | 27 => ⟨S320000, .i32⟩
  | 28 => ⟨S320000, .i1⟩
  | 29 => ⟨S_, .i32⟩
  | 30 => ⟨S320000, .i32⟩
  | 31 => ⟨S320000, .i32⟩
  | 32 => ⟨S320000, .i32⟩
  | 33 => ⟨S320000x1, .i32⟩
  | 34 => ⟨S1, .i32⟩
  | 35 => ⟨S_, .i32⟩
  | 36 => ⟨S320000x1, .i32⟩
  | 37 => ⟨S320000x1, .i1⟩
  | 38 => ⟨S1x1, .i32⟩
  | 39 => ⟨S320000x1, .i32⟩
  | 40 => ⟨S320000x1, .i1⟩
  | 41 => ⟨S320000x1, .i1⟩
  | 42 => ⟨S_, .i1⟩
  | 43 => ⟨S320000, .i1⟩
  | 44 => ⟨S320000, .i32⟩
  | 45 => ⟨S_, .i32⟩
  | 46 => ⟨S320000, .i32⟩
  | 47 => ⟨S320000, .i32⟩
  | 48 => ⟨S_, .i32⟩
  | 49 => ⟨S320000, .i32⟩
  | 50 => ⟨S320000, .i1⟩
  | 51 => ⟨S_, .i32⟩
  | 52 => ⟨S320000, .i32⟩
  | 53 => ⟨S320000, .i32⟩
  | 54 => ⟨S320000, .i32⟩
  | 55 => ⟨S320000x1, .i32⟩
  | 56 => ⟨S1, .i32⟩
  | 57 => ⟨S_, .i32⟩
  | 58 => ⟨S320000x1, .i32⟩
  | 59 => ⟨S320000x1, .i1⟩
  | 60 => ⟨S1x1, .i32⟩
  | 61 => ⟨S320000x1, .i32⟩
  | 62 => ⟨S320000x1, .i1⟩
  | 63 => ⟨S320000x1, .i1⟩
  | 64 => ⟨S_, .i1⟩
  | 65 => ⟨S320000, .i1⟩
  | 66 => ⟨S320000, .i32⟩
  | 67 => ⟨S_, .i32⟩
  | 68 => ⟨S320000, .i32⟩
  | 69 => ⟨S320000, .i32⟩
  | 70 => ⟨S_, .i32⟩
  | 71 => ⟨S320000, .i32⟩
  | 72 => ⟨S320000, .i1⟩
  | 73 => ⟨S_, .i32⟩
  | 74 => ⟨S320000, .i32⟩
  | 75 => ⟨S320000, .i32⟩
  | 76 => ⟨S320000, .i32⟩
  | 77 => ⟨S320000x1, .i32⟩
  | 78 => ⟨S1, .i32⟩
  | 79 => ⟨S_, .i32⟩
  | 80 => ⟨S320000x1, .i32⟩
  | 81 => ⟨S320000x1, .i1⟩
  | 82 => ⟨S1x1, .i32⟩
  | 83 => ⟨S320000x1, .i32⟩
  | 84 => ⟨S320000x1, .i1⟩
  | 85 => ⟨S320000x1, .i1⟩
  | 86 => ⟨S_, .i1⟩
  | 87 => ⟨S320000, .i1⟩
  | 88 => ⟨S320000x256, .f32⟩
  | 89 => ⟨S320000x256, .i1⟩
  | 90 => ⟨S_, .f32⟩
  | 91 => ⟨S320000x256, .f32⟩
  | 92 => ⟨S320000x256, .f32⟩
  | 93 => ⟨S_, .i32⟩
  | 94 => ⟨S320000, .i32⟩
  | 95 => ⟨S320000, .i1⟩
  | 96 => ⟨S_, .i32⟩
  | 97 => ⟨S320000, .i32⟩
  | 98 => ⟨S320000, .i32⟩
  | 99 => ⟨S320000, .i32⟩
  | 100 => ⟨S320000x1, .i32⟩
  | 101 => ⟨S1, .i32⟩
  | 102 => ⟨S_, .i32⟩
  | 103 => ⟨S320000x1, .i32⟩
  | 104 => ⟨S320000x1, .i1⟩
  | 105 => ⟨S1x1, .i32⟩
  | 106 => ⟨S320000x1, .i32⟩
  | 107 => ⟨S320000x1, .i1⟩
  | 108 => ⟨S320000x1, .i1⟩
  | 109 => ⟨S_, .i1⟩
  | 110 => ⟨S320000, .i1⟩
  | 111 => ⟨S320000x256, .f32⟩
  | 112 => ⟨S320000x256, .i1⟩
  | 113 => ⟨S_, .f32⟩
  | 114 => ⟨S320000x256, .f32⟩
  | 115 => ⟨S320000x256, .f32⟩
  | 116 => ⟨S320000x256, .f32⟩
  | 117 => ⟨S_, .f32⟩
  | 118 => ⟨S320000, .f32⟩
  | 119 => ⟨S320000x1, .f32⟩
  | 120 => ⟨S320000x1, .f32⟩
  | 121 => ⟨S320000x1, .f32⟩
  | 122 => ⟨S_, .f32⟩
  | 123 => ⟨S320000x1, .f32⟩
  | 124 => ⟨S320000x1, .f32⟩
  | 125 => ⟨S_, .f32⟩
  | 126 => ⟨S320000x1, .f32⟩
  | 127 => ⟨S320000x1, .f32⟩
  | _ => ⟨S20000x256, .f32⟩

abbrev hbmTy0_1 (i : Nat) : BufTy := match i % 128 with
  | 0 => ⟨S_, .i32⟩
  | 1 => ⟨S320000, .i32⟩
  | 2 => ⟨S320000, .i1⟩
  | 3 => ⟨S_, .i32⟩
  | 4 => ⟨S320000, .i32⟩
  | 5 => ⟨S320000, .i32⟩
  | 6 => ⟨S320000, .i32⟩
  | 7 => ⟨S320000x1, .i32⟩
  | 8 => ⟨S1, .i32⟩
  | 9 => ⟨S_, .i32⟩
  | 10 => ⟨S320000x1, .i32⟩
  | 11 => ⟨S320000x1, .i1⟩
  | 12 => ⟨S1x1, .i32⟩
  | 13 => ⟨S320000x1, .i32⟩
  | 14 => ⟨S320000x1, .i1⟩
  | 15 => ⟨S320000x1, .i1⟩
  | 16 => ⟨S_, .i1⟩
  | 17 => ⟨S320000, .i1⟩
  | 18 => ⟨S320000x256, .f32⟩
  | 19 => ⟨S320000x256, .i1⟩
  | 20 => ⟨S_, .f32⟩
  | 21 => ⟨S320000x256, .f32⟩
  | 22 => ⟨S320000x256, .f32⟩
  | 23 => ⟨S_, .i32⟩
  | 24 => ⟨S320000, .i32⟩
  | 25 => ⟨S320000, .i1⟩
  | 26 => ⟨S_, .i32⟩
  | 27 => ⟨S320000, .i32⟩
  | 28 => ⟨S320000, .i32⟩
  | 29 => ⟨S320000, .i32⟩
  | 30 => ⟨S320000x1, .i32⟩
  | 31 => ⟨S1, .i32⟩
  | 32 => ⟨S_, .i32⟩
  | 33 => ⟨S320000x1, .i32⟩
  | 34 => ⟨S320000x1, .i1⟩
  | 35 => ⟨S1x1, .i32⟩
  | 36 => ⟨S320000x1, .i32⟩
  | 37 => ⟨S320000x1, .i1⟩
  | 38 => ⟨S320000x1, .i1⟩
  | 39 => ⟨S_, .i1⟩
  | 40 => ⟨S320000, .i1⟩
  | 41 => ⟨S320000x256, .f32⟩
  | 42 => ⟨S320000x256, .i1⟩
  | 43 => ⟨S_, .f32⟩
  | 44 => ⟨S320000x256, .f32⟩
  | 45 => ⟨S320000x256, .f32⟩
  | 46 => ⟨S320000x256, .f32⟩
  | 47 => ⟨S1x256, .f32⟩
  | 48 => ⟨S320000x256, .f32⟩
  | 49 => ⟨S320000x256, .f32⟩
  | 50 => ⟨S_, .f32⟩
  | 51 => ⟨S320000x256, .f32⟩
  | 52 => ⟨S320000x256, .f32⟩
  | 53 => ⟨S320000x256, .f32⟩
  | 54 => ⟨S1x256, .f32⟩
  | 55 => ⟨S320000x256, .f32⟩
  | 56 => ⟨S320000x256, .f32⟩
  | 57 => ⟨S320000x256, .f32⟩
  | 58 => ⟨S320000x256, .f32⟩
  | 59 => ⟨S_, .f32⟩
  | 60 => ⟨S320000x1, .f32⟩
  | 61 => ⟨S320000x1, .f32⟩
  | 62 => ⟨S320000x256, .f32⟩
  | 63 => ⟨S320000x256, .f32⟩
  | 64 => ⟨S320000x256, .f32⟩
  | 65 => ⟨S320000x512, .f32⟩
  | 66 => ⟨S1x512, .f32⟩
  | 67 => ⟨S320000x512, .f32⟩
  | 68 => ⟨S320000x512, .f32⟩
  | _ => ⟨S20000x256, .f32⟩

abbrev hbmTy (i : Nat) : BufTy := match i / 128 with
  | 0 => hbmTy0_0 i
  | 1 => hbmTy0_1 i
  | _ => ⟨S20000x256, .f32⟩

abbrev bufTy : (tb : Table) → Fin (tcTables nBuf tb) → BufTy
  | .hbm, ⟨i, _⟩ => hbmTy i
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call0_c : Ref sig .tc := ⟨.hbm, 26, rfl⟩
abbrev main_call0_v0 : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_c_1 : Ref sig .tc := ⟨.hbm, 34, rfl⟩
abbrev main_call0_c_2 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_3 : Ref sig .tc := ⟨.hbm, 42, rfl⟩
abbrev main_call0_v12 : Ref sig .tc := ⟨.hbm, 43, rfl⟩
abbrev main_call0_v13 : Ref sig .tc := ⟨.hbm, 44, rfl⟩
abbrev main_call0_c_4 : Ref sig .tc := ⟨.hbm, 45, rfl⟩
abbrev main_call0_v14 : Ref sig .tc := ⟨.hbm, 46, rfl⟩
abbrev main_v10 : Ref sig .tc := ⟨.hbm, 47, rfl⟩
abbrev main_call1_c : Ref sig .tc := ⟨.hbm, 48, rfl⟩
abbrev main_call1_v0 : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_c_1 : Ref sig .tc := ⟨.hbm, 56, rfl⟩
abbrev main_call1_c_2 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_3 : Ref sig .tc := ⟨.hbm, 64, rfl⟩
abbrev main_call1_v12 : Ref sig .tc := ⟨.hbm, 65, rfl⟩
abbrev main_call1_v13 : Ref sig .tc := ⟨.hbm, 66, rfl⟩
abbrev main_call1_c_4 : Ref sig .tc := ⟨.hbm, 67, rfl⟩
abbrev main_call1_v14 : Ref sig .tc := ⟨.hbm, 68, rfl⟩
abbrev main_v11 : Ref sig .tc := ⟨.hbm, 69, rfl⟩
abbrev main_call2_c : Ref sig .tc := ⟨.hbm, 70, rfl⟩
abbrev main_call2_v0 : Ref sig .tc := ⟨.hbm, 71, rfl⟩
abbrev main_call2_v1 : Ref sig .tc := ⟨.hbm, 72, rfl⟩
abbrev main_call2_c_0 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_call2_v5 : Ref sig .tc := ⟨.hbm, 77, rfl⟩
abbrev main_call2_c_1 : Ref sig .tc := ⟨.hbm, 78, rfl⟩
abbrev main_call2_c_2 : Ref sig .tc := ⟨.hbm, 79, rfl⟩
abbrev main_call2_v6 : Ref sig .tc := ⟨.hbm, 80, rfl⟩
abbrev main_call2_v7 : Ref sig .tc := ⟨.hbm, 81, rfl⟩
abbrev main_call2_v8 : Ref sig .tc := ⟨.hbm, 82, rfl⟩
abbrev main_call2_v9 : Ref sig .tc := ⟨.hbm, 83, rfl⟩
abbrev main_call2_v10 : Ref sig .tc := ⟨.hbm, 84, rfl⟩
abbrev main_call2_v11 : Ref sig .tc := ⟨.hbm, 85, rfl⟩
abbrev main_call2_c_3 : Ref sig .tc := ⟨.hbm, 86, rfl⟩
abbrev main_call2_v12 : Ref sig .tc := ⟨.hbm, 87, rfl⟩
abbrev main_call2_v13 : Ref sig .tc := ⟨.hbm, 88, rfl⟩
abbrev main_call2_v14 : Ref sig .tc := ⟨.hbm, 89, rfl⟩
abbrev main_call2_cst : Ref sig .tc := ⟨.hbm, 90, rfl⟩
abbrev main_call2_v15 : Ref sig .tc := ⟨.hbm, 91, rfl⟩
abbrev main_v12 : Ref sig .tc := ⟨.hbm, 92, rfl⟩
abbrev main_call3_c : Ref sig .tc := ⟨.hbm, 93, rfl⟩
abbrev main_call3_v0 : Ref sig .tc := ⟨.hbm, 94, rfl⟩
abbrev main_call3_v1 : Ref sig .tc := ⟨.hbm, 95, rfl⟩
abbrev main_call3_c_0 : Ref sig .tc := ⟨.hbm, 96, rfl⟩
abbrev main_call3_v2 : Ref sig .tc := ⟨.hbm, 97, rfl⟩
abbrev main_call3_v3 : Ref sig .tc := ⟨.hbm, 98, rfl⟩
abbrev main_call3_v4 : Ref sig .tc := ⟨.hbm, 99, rfl⟩
abbrev main_call3_v5 : Ref sig .tc := ⟨.hbm, 100, rfl⟩
abbrev main_call3_c_1 : Ref sig .tc := ⟨.hbm, 101, rfl⟩
abbrev main_call3_c_2 : Ref sig .tc := ⟨.hbm, 102, rfl⟩
abbrev main_call3_v6 : Ref sig .tc := ⟨.hbm, 103, rfl⟩
abbrev main_call3_v7 : Ref sig .tc := ⟨.hbm, 104, rfl⟩
abbrev main_call3_v8 : Ref sig .tc := ⟨.hbm, 105, rfl⟩
abbrev main_call3_v9 : Ref sig .tc := ⟨.hbm, 106, rfl⟩
abbrev main_call3_v10 : Ref sig .tc := ⟨.hbm, 107, rfl⟩
abbrev main_call3_v11 : Ref sig .tc := ⟨.hbm, 108, rfl⟩
abbrev main_call3_c_3 : Ref sig .tc := ⟨.hbm, 109, rfl⟩
abbrev main_call3_v12 : Ref sig .tc := ⟨.hbm, 110, rfl⟩
abbrev main_call3_v13 : Ref sig .tc := ⟨.hbm, 111, rfl⟩
abbrev main_call3_v14 : Ref sig .tc := ⟨.hbm, 112, rfl⟩
abbrev main_call3_cst : Ref sig .tc := ⟨.hbm, 113, rfl⟩
abbrev main_call3_v15 : Ref sig .tc := ⟨.hbm, 114, rfl⟩
abbrev main_v13 : Ref sig .tc := ⟨.hbm, 115, rfl⟩
abbrev main_v14 : Ref sig .tc := ⟨.hbm, 116, rfl⟩
abbrev main_cst : Ref sig .tc := ⟨.hbm, 117, rfl⟩
abbrev main_v15 : Ref sig .tc := ⟨.hbm, 118, rfl⟩
abbrev main_v16 : Ref sig .tc := ⟨.hbm, 119, rfl⟩
abbrev main_v17 : Ref sig .tc := ⟨.hbm, 120, rfl⟩
abbrev main_v18 : Ref sig .tc := ⟨.hbm, 121, rfl⟩
abbrev main_cst_0 : Ref sig .tc := ⟨.hbm, 122, rfl⟩
abbrev main_v19 : Ref sig .tc := ⟨.hbm, 123, rfl⟩
abbrev main_v20 : Ref sig .tc := ⟨.hbm, 124, rfl⟩
abbrev main_cst_1 : Ref sig .tc := ⟨.hbm, 125, rfl⟩
abbrev main_v21 : Ref sig .tc := ⟨.hbm, 126, rfl⟩
abbrev main_v22 : Ref sig .tc := ⟨.hbm, 127, rfl⟩
abbrev main_call4_c : Ref sig .tc := ⟨.hbm, 128, rfl⟩
abbrev main_call4_v0 : Ref sig .tc := ⟨.hbm, 129, rfl⟩
abbrev main_call4_v1 : Ref sig .tc := ⟨.hbm, 130, rfl⟩
abbrev main_call4_c_0 : Ref sig .tc := ⟨.hbm, 131, rfl⟩
abbrev main_call4_v2 : Ref sig .tc := ⟨.hbm, 132, rfl⟩
abbrev main_call4_v3 : Ref sig .tc := ⟨.hbm, 133, rfl⟩
abbrev main_call4_v4 : Ref sig .tc := ⟨.hbm, 134, rfl⟩
abbrev main_call4_v5 : Ref sig .tc := ⟨.hbm, 135, rfl⟩
abbrev main_call4_c_1 : Ref sig .tc := ⟨.hbm, 136, rfl⟩
abbrev main_call4_c_2 : Ref sig .tc := ⟨.hbm, 137, rfl⟩
abbrev main_call4_v6 : Ref sig .tc := ⟨.hbm, 138, rfl⟩
abbrev main_call4_v7 : Ref sig .tc := ⟨.hbm, 139, rfl⟩
abbrev main_call4_v8 : Ref sig .tc := ⟨.hbm, 140, rfl⟩
abbrev main_call4_v9 : Ref sig .tc := ⟨.hbm, 141, rfl⟩
abbrev main_call4_v10 : Ref sig .tc := ⟨.hbm, 142, rfl⟩
abbrev main_call4_v11 : Ref sig .tc := ⟨.hbm, 143, rfl⟩
abbrev main_call4_c_3 : Ref sig .tc := ⟨.hbm, 144, rfl⟩
abbrev main_call4_v12 : Ref sig .tc := ⟨.hbm, 145, rfl⟩
abbrev main_call4_v13 : Ref sig .tc := ⟨.hbm, 146, rfl⟩
abbrev main_call4_v14 : Ref sig .tc := ⟨.hbm, 147, rfl⟩
abbrev main_call4_cst : Ref sig .tc := ⟨.hbm, 148, rfl⟩
abbrev main_call4_v15 : Ref sig .tc := ⟨.hbm, 149, rfl⟩
abbrev main_v23 : Ref sig .tc := ⟨.hbm, 150, rfl⟩
abbrev main_call5_c : Ref sig .tc := ⟨.hbm, 151, rfl⟩
abbrev main_call5_v0 : Ref sig .tc := ⟨.hbm, 152, rfl⟩
abbrev main_call5_v1 : Ref sig .tc := ⟨.hbm, 153, rfl⟩
abbrev main_call5_c_0 : Ref sig .tc := ⟨.hbm, 154, rfl⟩
abbrev main_call5_v2 : Ref sig .tc := ⟨.hbm, 155, rfl⟩
abbrev main_call5_v3 : Ref sig .tc := ⟨.hbm, 156, rfl⟩
abbrev main_call5_v4 : Ref sig .tc := ⟨.hbm, 157, rfl⟩
abbrev main_call5_v5 : Ref sig .tc := ⟨.hbm, 158, rfl⟩
abbrev main_call5_c_1 : Ref sig .tc := ⟨.hbm, 159, rfl⟩
abbrev main_call5_c_2 : Ref sig .tc := ⟨.hbm, 160, rfl⟩
abbrev main_call5_v6 : Ref sig .tc := ⟨.hbm, 161, rfl⟩
abbrev main_call5_v7 : Ref sig .tc := ⟨.hbm, 162, rfl⟩
abbrev main_call5_v8 : Ref sig .tc := ⟨.hbm, 163, rfl⟩
abbrev main_call5_v9 : Ref sig .tc := ⟨.hbm, 164, rfl⟩
abbrev main_call5_v10 : Ref sig .tc := ⟨.hbm, 165, rfl⟩
abbrev main_call5_v11 : Ref sig .tc := ⟨.hbm, 166, rfl⟩
abbrev main_call5_c_3 : Ref sig .tc := ⟨.hbm, 167, rfl⟩
abbrev main_call5_v12 : Ref sig .tc := ⟨.hbm, 168, rfl⟩
abbrev main_call5_v13 : Ref sig .tc := ⟨.hbm, 169, rfl⟩
abbrev main_call5_v14 : Ref sig .tc := ⟨.hbm, 170, rfl⟩
abbrev main_call5_cst : Ref sig .tc := ⟨.hbm, 171, rfl⟩
abbrev main_call5_v15 : Ref sig .tc := ⟨.hbm, 172, rfl⟩
abbrev main_v24 : Ref sig .tc := ⟨.hbm, 173, rfl⟩
abbrev main_v25 : Ref sig .tc := ⟨.hbm, 174, rfl⟩
abbrev main_v26 : Ref sig .tc := ⟨.hbm, 175, rfl⟩
abbrev main_v27 : Ref sig .tc := ⟨.hbm, 176, rfl⟩
abbrev main_v28 : Ref sig .tc := ⟨.hbm, 177, rfl⟩
abbrev main_call6_cst : Ref sig .tc := ⟨.hbm, 178, rfl⟩
abbrev main_call6_v0 : Ref sig .tc := ⟨.hbm, 179, rfl⟩
abbrev main_v29 : Ref sig .tc := ⟨.hbm, 180, rfl⟩
abbrev main_v30 : Ref sig .tc := ⟨.hbm, 181, rfl⟩
abbrev main_v31 : Ref sig .tc := ⟨.hbm, 182, rfl⟩
abbrev main_v32 : Ref sig .tc := ⟨.hbm, 183, rfl⟩
abbrev main_v33 : Ref sig .tc := ⟨.hbm, 184, rfl⟩
abbrev main_v34 : Ref sig .tc := ⟨.hbm, 185, rfl⟩
abbrev main_v35 : Ref sig .tc := ⟨.hbm, 186, rfl⟩
abbrev main_cst_2 : Ref sig .tc := ⟨.hbm, 187, rfl⟩
abbrev main_v36 : Ref sig .tc := ⟨.hbm, 188, rfl⟩
abbrev main_v37 : Ref sig .tc := ⟨.hbm, 189, rfl⟩
abbrev main_v38 : Ref sig .tc := ⟨.hbm, 190, rfl⟩
abbrev main_v39 : Ref sig .tc := ⟨.hbm, 191, rfl⟩
abbrev main_v40 : Ref sig .tc := ⟨.hbm, 192, rfl⟩
abbrev main_v41 : Ref sig .tc := ⟨.hbm, 193, rfl⟩
abbrev main_v42 : Ref sig .tc := ⟨.hbm, 194, rfl⟩
abbrev main_v43 : Ref sig .tc := ⟨.hbm, 195, rfl⟩
abbrev main_v44 : Ref sig .tc := ⟨.hbm, 196, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  reducesTo_S320000x1_S320000_d1 : S320000x1.ReducesTo [1] S320000
  h_S_ : 0 < S_.numel
  bcast_S320000_S320000x256_0 : S320000.BroadcastsInDim S320000x256 (![0] : Fin 1 → Fin S320000x256.rank)
  bcast_S_S320000x256 : S_.BroadcastsInDim S320000x256 (![] : Fin 0 → Fin S320000x256.rank)
  reducesTo_S320000x256_S320000_d1 : S320000x256.ReducesTo [1] S320000
  bcast_S1x256_S320000x256_0_1 : S1x256.BroadcastsInDim S320000x256 (![0, 1] : Fin 2 → Fin S320000x256.rank)
  bcast_S320000x1_S320000x256_0_1 : S320000x1.BroadcastsInDim S320000x256 (![0, 1] : Fin 2 → Fin S320000x256.rank)
  bcast_S512_S1x512_1 : S512.BroadcastsInDim S1x512 (![1] : Fin 1 → Fin S1x512.rank)
  bcast_S1x512_S320000x512_0_1 : S1x512.BroadcastsInDim S320000x512 (![0, 1] : Fin 2 → Fin S320000x512.rank)
  dot_S20000x256_S256x256_S20000x256_1_0_0_1_n_n_wf : DotDims.WF S20000x256 S256x256 S20000x256 [1] [0] [0] [1] [] []
  gather_S20000_S320000x1_S320000_n_0_n_n_0_1_1_wf : GatherDims.WF S20000 S320000x1 S320000 [] [0] [] [0] [] 1 ![1]
  gather_S320000_S320000x1_S320000_n_0_n_n_0_1_1_wf : GatherDims.WF S320000 S320000x1 S320000 [] [0] [] [0] [] 1 ![1]
  gather_S20000x256_S320000x1_S320000x256_1_0_n_n_0_1_1256_wf : GatherDims.WF S20000x256 S320000x1 S320000x256 [1] [0] [] [0] [] 1 ![1, 256]
  dot_S320000x256_S256x256_S320000x256_1_0_0_1_n_n_wf : DotDims.WF S320000x256 S256x256 S320000x256 [1] [0] [0] [1] [] []
  dot_S320000x256_S256x512_S320000x512_1_0_0_1_n_n_wf : DotDims.WF S320000x256 S256x512 S320000x512 [1] [0] [0] [1] [] []

variable [Facts₀]

def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def gather_S20000_S320000x1_S320000_n_0_n_n_0_1_1 : GatherDims S20000 S320000x1 S320000 where
  offsetDims := []
  collapsedSliceDims := [0]
  operandBatchingDims := []
  startIndicesBatchingDims := []
  startIndexMap := [0]
  indexVectorDim := 1
  sliceSizes := ![1]
  wf := gather_S20000_S320000x1_S320000_n_0_n_n_0_1_1_wf
def gather_S320000_S320000x1_S320000_n_0_n_n_0_1_1 : GatherDims S320000 S320000x1 S320000 where
  offsetDims := []
  collapsedSliceDims := [0]
  operandBatchingDims := []
  startIndicesBatchingDims := []
  startIndexMap := [0]
  indexVectorDim := 1
  sliceSizes := ![1]
  wf := gather_S320000_S320000x1_S320000_n_0_n_n_0_1_1_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def dot_S320000x256_S256x256_S320000x256_1_0_0_1_n_n : DotDims S320000x256 S256x256 S320000x256 where
  lhsContracting := [1]
  rhsContracting := [0]
  lhsNonContracting := [0]
  rhsNonContracting := [1]
  lhsBatch := []
  rhsBatch := []
  wf := dot_S320000x256_S256x256_S320000x256_1_0_0_1_n_n_wf
def dot_S320000x256_S256x512_S320000x512_1_0_0_1_n_n : DotDims S320000x256 S256x512 S320000x512 where
  lhsContracting := [1]
  rhsContracting := [0]
  lhsNonContracting := [0]
  rhsNonContracting := [1]
  lhsBatch := []
  rhsBatch := []
  wf := dot_S320000x256_S256x512_S320000x512_1_0_0_1_n_n_wf

class Facts : Prop extends Facts₀ where

variable [Facts]
-- ==== Proof.RefOps.lean ====
/-
  The reference program's @main as a list of host operations, in eleven consecutive stretches: its own lines, and at
  each call of a module-local function (the six index-wrapping row selections and the relu) that function's lines
  over the call's own buffers. Definitions only: that @main is the line of these operations, and what each buffer
  holds after them, are proved in the modules that import this one.
-/
import proofs.«143230_j56916906606893_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-- The node-level part: the source row of the edge list, and the two attention projections q = z Wq + bq, k = z Wk + bk. -/
abbrev r0 : List (HloOp τ sig (Elt F)) :=
  [ StableHlo.unary main_arg12 main_v0 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v0 main_v1 rfl shapeCasts_S1x320000_S320000,
    StableHlo.binary main_arg1 main_arg2 main_v2 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    StableHlo.unary main_arg3 main_v3 (broadcastInDim S1x256 ![1] bcast_S256_S1x256_1 : (⟨S256, .f32⟩ : BufTy).Contents (Elt F) → (⟨S1x256, .f32⟩ : BufTy).Contents (Elt F)),
    StableHlo.unary main_v3 main_v4 (broadcastInDim S20000x256 ![0, 1] bcast_S1x256_S20000x256_0_1 : (⟨S1x256, .f32⟩ : BufTy).Contents (Elt F) → (⟨S20000x256, .f32⟩ : BufTy).Contents (Elt F)),
    StableHlo.binary main_v2 main_v4 main_v5 (addf : (⟨S20000x256, .f32⟩ : BufTy).Contents (Elt F) → (⟨S20000x256, .f32⟩ : BufTy).Contents (Elt F) → (⟨S20000x256, .f32⟩ : BufTy).Contents (Elt F)),
    StableHlo.binary main_arg1 main_arg4 main_v6 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    StableHlo.unary main_arg5 main_v7 (broadcastInDim S1x256 ![1] bcast_S256_S1x256_1 : (⟨S256, .f32⟩ : BufTy).Contents (Elt F) → (⟨S1x256, .f32⟩ : BufTy).Contents (Elt F)),
    StableHlo.unary main_v7 main_v8 (broadcastInDim S20000x256 ![0, 1] bcast_S1x256_S20000x256_0_1 : (⟨S1x256, .f32⟩ : BufTy).Contents (Elt F) → (⟨S20000x256, .f32⟩ : BufTy).Contents (Elt F)),
    StableHlo.binary main_v6 main_v8 main_v9 (addf : (⟨S20000x256, .f32⟩ : BufTy).Contents (Elt F) → (⟨S20000x256, .f32⟩ : BufTy).Contents (Elt F) → (⟨S20000x256, .f32⟩ : BufTy).Contents (Elt F)) ]

/-- Call 0: the centre node of every pair, node_ids taken at masked_idx (indices wrapped, out-of-range filled). -/
abbrev r1 : List (HloOp τ sig (Elt F)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S320000, .i32⟩) (broadcastInDim S320000 ![] bcast_S_S320000),
    StableHlo.TRef.binary (.of main_arg14 : StableHlo.TRef sig ⟨S320000, .i32⟩) (.of main_call0_v0 : StableHlo.TRef sig ⟨S320000, .i32⟩) (.of main_call0_v1 : StableHlo.TRef sig ⟨S320000, .i1⟩) (cmpi .slt),
    StableHlo.TRef.nullary (.of main_call0_c_0 : StableHlo.TRef sig ⟨S_, .i32⟩) (constantI S_ 32 20000#32),
    StableHlo.TRef.unary (.of main_call0_c_0 : StableHlo.TRef sig ⟨S_, .i32⟩) (.of main_call0_v2 : StableHlo.TRef sig ⟨S320000, .i32⟩) (broadcastInDim S320000 ![] bcast_S_S320000),
    StableHlo.TRef.binary (.of main_arg14 : StableHlo.TRef sig ⟨S320000, .i32⟩) (.of main_call0_v2 : StableHlo.TRef sig ⟨S320000, .i32⟩) (.of main_call0_v3 : StableHlo.TRef sig ⟨S320000, .i32⟩) addi,
    StableHlo.TRef.ternary (.of main_call0_v1 : StableHlo.TRef sig ⟨S320000, .i1⟩) (.of main_call0_v3 : StableHlo.TRef sig ⟨S320000, .i32⟩) (.of main_arg14 : StableHlo.TRef sig ⟨S320000, .i32⟩) (.of main_call0_v4 : StableHlo.TRef sig ⟨S320000, .i32⟩) select,
    StableHlo.TRef.unary main_call0_call0.v0 (.of main_call0_v5 : StableHlo.TRef sig ⟨S320000x1, .i32⟩) (broadcastInDim S320000x1 ![0] bcast_S320000_S320000x1_0),
    StableHlo.TRef.nullary (.of main_call0_c_1 : StableHlo.TRef sig ⟨S1, .i32⟩) (constantI S1 32 19999#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S320000x1, .i32⟩) (broadcastInDim S320000x1 ![] bcast_S_S320000x1),
    StableHlo.TRef.binary (.of main_call0_v5 : StableHlo.TRef sig ⟨S320000x1, .i32⟩) (.of main_call0_v6 : StableHlo.TRef sig ⟨S320000x1, .i32⟩) (.of main_call0_v7 : StableHlo.TRef sig ⟨S320000x1, .i1⟩) (cmpi .sge),
    StableHlo.TRef.unary (.of main_call0_c_1 : StableHlo.TRef sig ⟨S1, .i32⟩) (.of main_call0_v8 : StableHlo.TRef sig ⟨S1x1, .i32⟩) (broadcastInDim S1x1 ![1] bcast_S1_S1x1_1),
    StableHlo.TRef.unary (.of main_call0_v8 : StableHlo.TRef sig ⟨S1x1, .i32⟩) (.of main_call0_v9 : StableHlo.TRef sig ⟨S320000x1, .i32⟩) (broadcastInDim S320000x1 ![0, 1] bcast_S1x1_S320000x1_0_1),
    StableHlo.TRef.binary (.of main_call0_v5 : StableHlo.TRef sig ⟨S320000x1, .i32⟩) (.of main_call0_v9 : StableHlo.TRef sig ⟨S320000x1, .i32⟩) (.of main_call0_v10 : StableHlo.TRef sig ⟨S320000x1, .i1⟩) (cmpi .sle),
    StableHlo.TRef.binary (.of main_call0_v7 : StableHlo.TRef sig ⟨S320000x1, .i1⟩) (.of main_call0_v10 : StableHlo.TRef sig ⟨S320000x1, .i1⟩) (.of main_call0_v11 : StableHlo.TRef sig ⟨S320000x1, .i1⟩) andi,
    StableHlo.TRef.nullary (.of main_call0_c_3 : StableHlo.TRef sig ⟨S_, .i1⟩) (constantI S_ 1 1#1),
    StableHlo.TRef.binary (.of main_call0_v11 : StableHlo.TRef sig ⟨S320000x1, .i1⟩) (.of main_call0_c_3 : StableHlo.TRef sig ⟨S_, .i1⟩) (.of main_call0_v12 : StableHlo.TRef sig ⟨S320000, .i1⟩) (fun x v => Host.reduce IntOp.andi x v reducesTo_S320000x1_S320000_d1 h_S_),
    StableHlo.TRef.binary (.of main_arg13 : StableHlo.TRef sig ⟨S20000, .i32⟩) (.of main_call0_v5 : StableHlo.TRef sig ⟨S320000x1, .i32⟩) (.of main_call0_v13 : StableHlo.TRef sig ⟨S320000, .i32⟩) (fun x i => Host.gather gather_S20000_S320000x1_S320000_n_0_n_n_0_1_1 x i),
    StableHlo.TRef.nullary (.of main_call0_c_4 : StableHlo.TRef sig ⟨S_, .i32⟩) (constantI S_ 32 2147483648#32),
    StableHlo.TRef.unary (.of main_call0_c_4 : StableHlo.TRef sig ⟨S_, .i32⟩) (.of main_call0_v14 : StableHlo.TRef sig ⟨S320000, .i32⟩) (broadcastInDim S320000 ![] bcast_S_S320000),
    StableHlo.TRef.ternary (.of main_call0_v12 : StableHlo.TRef sig ⟨S320000, .i1⟩) (.of main_call0_v13 : StableHlo.TRef sig ⟨S320000, .i32⟩) (.of main_call0_v14 : StableHlo.TRef sig ⟨S320000, .i32⟩) (.of main_v10 : StableHlo.TRef sig ⟨S320000, .i32⟩) select ]

/-- Call 1: the neighbour node of every pair, the source row taken at edge_idx. -/
abbrev r2 : List (HloOp τ sig (Elt F)) :=
  [ StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S320000, .i32⟩) (broadcastInDim S320000 ![] bcast_S_S320000),
    StableHlo.TRef.binary (.of main_arg15 : StableHlo.TRef sig ⟨S320000, .i32⟩) (.of main_call1_v0 : StableHlo.TRef sig ⟨S320000, .i32⟩) (.of main_call1_v1 : StableHlo.TRef sig ⟨S320000, .i1⟩) (cmpi .slt),
    StableHlo.TRef.nullary (.of main_call1_c_0 : StableHlo.TRef sig ⟨S_, .i32⟩) (constantI S_ 32 320000#32),
    StableHlo.TRef.unary (.of main_call1_c_0 : StableHlo.TRef sig ⟨S_, .i32⟩) (.of main_call1_v2 : StableHlo.TRef sig ⟨S320000, .i32⟩) (broadcastInDim S320000 ![] bcast_S_S320000),
    StableHlo.TRef.binary (.of main_arg15 : StableHlo.TRef sig ⟨S320000, .i32⟩) (.of main_call1_v2 : StableHlo.TRef sig ⟨S320000, .i32⟩) (.of main_call1_v3 : StableHlo.TRef sig ⟨S320000, .i32⟩) addi,
    StableHlo.TRef.ternary (.of main_call1_v1 : StableHlo.TRef sig ⟨S320000, .i1⟩) (.of main_call1_v3 : StableHlo.TRef sig ⟨S320000, .i32⟩) (.of main_arg15 : StableHlo.TRef sig ⟨S320000, .i32⟩) (.of main_call1_v4 : StableHlo.TRef sig ⟨S320000, .i32⟩) select,
    StableHlo.TRef.unary main_call1_call0.v0 (.of main_call1_v5 : StableHlo.TRef sig ⟨S320000x1, .i32⟩) (broadcastInDim S320000x1 ![0] bcast_S320000_S320000x1_0),
    StableHlo.TRef.nullary (.of main_call1_c_1 : StableHlo.TRef sig ⟨S1, .i32⟩) (constantI S1 32 319999#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S320000x1, .i32⟩) (broadcastInDim S320000x1 ![] bcast_S_S320000x1),
    StableHlo.TRef.binary (.of main_call1_v5 : StableHlo.TRef sig ⟨S320000x1, .i32⟩) (.of main_call1_v6 : StableHlo.TRef sig ⟨S320000x1, .i32⟩) (.of main_call1_v7 : StableHlo.TRef sig ⟨S320000x1, .i1⟩) (cmpi .sge),
    StableHlo.TRef.unary (.of main_call1_c_1 : StableHlo.TRef sig ⟨S1, .i32⟩) (.of main_call1_v8 : StableHlo.TRef sig ⟨S1x1, .i32⟩) (broadcastInDim S1x1 ![1] bcast_S1_S1x1_1),
    StableHlo.TRef.unary (.of main_call1_v8 : StableHlo.TRef sig ⟨S1x1, .i32⟩) (.of main_call1_v9 : StableHlo.TRef sig ⟨S320000x1, .i32⟩) (broadcastInDim S320000x1 ![0, 1] bcast_S1x1_S320000x1_0_1),
    StableHlo.TRef.binary (.of main_call1_v5 : StableHlo.TRef sig ⟨S320000x1, .i32⟩) (.of main_call1_v9 : StableHlo.TRef sig ⟨S320000x1, .i32⟩) (.of main_call1_v10 : StableHlo.TRef sig ⟨S320000x1, .i1⟩) (cmpi .sle),
    StableHlo.TRef.binary (.of main_call1_v7 : StableHlo.TRef sig ⟨S320000x1, .i1⟩) (.of main_call1_v10 : StableHlo.TRef sig ⟨S320000x1, .i1⟩) (.of main_call1_v11 : StableHlo.TRef sig ⟨S320000x1, .i1⟩) andi,
    StableHlo.TRef.nullary (.of main_call1_c_3 : StableHlo.TRef sig ⟨S_, .i1⟩) (constantI S_ 1 1#1),
    StableHlo.TRef.binary (.of main_call1_v11 : StableHlo.TRef sig ⟨S320000x1, .i1⟩) (.of main_call1_c_3 : StableHlo.TRef sig ⟨S_, .i1⟩) (.of main_call1_v12 : StableHlo.TRef sig ⟨S320000, .i1⟩) (fun x v => Host.reduce IntOp.andi x v reducesTo_S320000x1_S320000_d1 h_S_),
    StableHlo.TRef.binary (.of main_v1 : StableHlo.TRef sig ⟨S320000, .i32⟩) (.of main_call1_v5 : StableHlo.TRef sig ⟨S320000x1, .i32⟩) (.of main_call1_v13 : StableHlo.TRef sig ⟨S320000, .i32⟩) (fun x i => Host.gather gather_S320000_S320000x1_S320000_n_0_n_n_0_1_1 x i),
    StableHlo.TRef.nullary (.of main_call1_c_4 : StableHlo.TRef sig ⟨S_, .i32⟩) (constantI S_ 32 2147483648#32),
    StableHlo.TRef.unary (.of main_call1_c_4 : StableHlo.TRef sig ⟨S_, .i32⟩) (.of main_call1_v14 : StableHlo.TRef sig ⟨S320000, .i32⟩) (broadcastInDim S320000 ![] bcast_S_S320000),
    StableHlo.TRef.ternary (.of main_call1_v12 : StableHlo.TRef sig ⟨S320000, .i1⟩) (.of main_call1_v13 : StableHlo.TRef sig ⟨S320000, .i32⟩) (.of main_call1_v14 : StableHlo.TRef sig ⟨S320000, .i32⟩) (.of main_v11 : StableHlo.TRef sig ⟨S320000, .i32⟩) select ]

/-- Call 2: the rows of q at the centre nodes. -/
abbrev r3 : List (HloOp τ sig (Elt F)) :=
  [ StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S320000, .i32⟩) (broadcastInDim S320000 ![] bcast_S_S320000),
    StableHlo.TRef.binary (.of main_v10 : StableHlo.TRef sig ⟨S320000, .i32⟩) (.of main_call2_v0 : StableHlo.TRef sig ⟨S320000, .i32⟩) (.of main_call2_v1 : StableHlo.TRef sig ⟨S320000, .i1⟩) (cmpi .slt),
    StableHlo.TRef.nullary (.of main_call2_c_0 : StableHlo.TRef sig ⟨S_, .i32⟩) (constantI S_ 32 20000#32),
    StableHlo.TRef.unary (.of main_call2_c_0 : StableHlo.TRef sig ⟨S_, .i32⟩) (.of main_call2_v2 : StableHlo.TRef sig ⟨S320000, .i32⟩) (broadcastInDim S320000 ![] bcast_S_S320000),
    StableHlo.TRef.binary (.of main_v10 : StableHlo.TRef sig ⟨S320000, .i32⟩) (.of main_call2_v2 : StableHlo.TRef sig ⟨S320000, .i32⟩) (.of main_call2_v3 : StableHlo.TRef sig ⟨S320000, .i32⟩) addi,
    StableHlo.TRef.ternary (.of main_call2_v1 : StableHlo.TRef sig ⟨S320000, .i1⟩) (.of main_call2_v3 : StableHlo.TRef sig ⟨S320000, .i32⟩) (.of main_v10 : StableHlo.TRef sig ⟨S320000, .i32⟩) (.of main_call2_v4 : StableHlo.TRef sig ⟨S320000, .i32⟩) select,
    StableHlo.TRef.unary main_call2_call0.v0 (.of main_call2_v5 : StableHlo.TRef sig ⟨S320000x1, .i32⟩) (broadcastInDim S320000x1 ![0] bcast_S320000_S320000x1_0),
    StableHlo.TRef.nullary (.of main_call2_c_1 : StableHlo.TRef sig ⟨S1, .i32⟩) (constantI S1 32 19999#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S320000x1, .i32⟩) (broadcastInDim S320000x1 ![] bcast_S_S320000x1),
    StableHlo.TRef.binary (.of main_call2_v5 : StableHlo.TRef sig ⟨S320000x1, .i32⟩) (.of main_call2_v6 : StableHlo.TRef sig ⟨S320000x1, .i32⟩) (.of main_call2_v7 : StableHlo.TRef sig ⟨S320000x1, .i1⟩) (cmpi .sge),
    StableHlo.TRef.unary (.of main_call2_c_1 : StableHlo.TRef sig ⟨S1, .i32⟩) (.of main_call2_v8 : StableHlo.TRef sig ⟨S1x1, .i32⟩) (broadcastInDim S1x1 ![1] bcast_S1_S1x1_1),
    StableHlo.TRef.unary (.of main_call2_v8 : StableHlo.TRef sig ⟨S1x1, .i32⟩) (.of main_call2_v9 : StableHlo.TRef sig ⟨S320000x1, .i32⟩) (broadcastInDim S320000x1 ![0, 1] bcast_S1x1_S320000x1_0_1),
    StableHlo.TRef.binary (.of main_call2_v5 : StableHlo.TRef sig ⟨S320000x1, .i32⟩) (.of main_call2_v9 : StableHlo.TRef sig ⟨S320000x1, .i32⟩) (.of main_call2_v10 : StableHlo.TRef sig ⟨S320000x1, .i1⟩) (cmpi .sle),
    StableHlo.TRef.binary (.of main_call2_v7 : StableHlo.TRef sig ⟨S320000x1, .i1⟩) (.of main_call2_v10 : StableHlo.TRef sig ⟨S320000x1, .i1⟩) (.of main_call2_v11 : StableHlo.TRef sig ⟨S320000x1, .i1⟩) andi,
    StableHlo.TRef.nullary (.of main_call2_c_3 : StableHlo.TRef sig ⟨S_, .i1⟩) (constantI S_ 1 1#1),
    StableHlo.TRef.binary (.of main_call2_v11 : StableHlo.TRef sig ⟨S320000x1, .i1⟩) (.of main_call2_c_3 : StableHlo.TRef sig ⟨S_, .i1⟩) (.of main_call2_v12 : StableHlo.TRef sig ⟨S320000, .i1⟩) (fun x v => Host.reduce IntOp.andi x v reducesTo_S320000x1_S320000_d1 h_S_),
    StableHlo.TRef.binary (.of main_v5 : StableHlo.TRef sig ⟨S20000x256, .f32⟩) (.of main_call2_v5 : StableHlo.TRef sig ⟨S320000x1, .i32⟩) (.of main_call2_v13 : StableHlo.TRef sig ⟨S320000x256, .f32⟩) (fun x i => Host.gather gather_S20000x256_S320000x1_S320000x256_1_0_n_n_0_1_1256 x i),
    StableHlo.TRef.unary (.of main_call2_v12 : StableHlo.TRef sig ⟨S320000, .i1⟩) (.of main_call2_v14 : StableHlo.TRef sig ⟨S320000x256, .i1⟩) (broadcastInDim S320000x256 ![0] bcast_S320000_S320000x256_0),
    StableHlo.TRef.nullary (.of main_call2_cst : StableHlo.TRef sig ⟨S_, .f32⟩) (constant S_ .f32 0x7FC00000#32),
    StableHlo.TRef.unary (.of main_call2_cst : StableHlo.TRef sig ⟨S_, .f32⟩) (.of main_call2_v15 : StableHlo.TRef sig ⟨S320000x256, .f32⟩) (broadcastInDim S320000x256 ![] bcast_S_S320000x256),
    StableHlo.TRef.ternary (.of main_call2_v14 : StableHlo.TRef sig ⟨S320000x256, .i1⟩) (.of main_call2_v13 : StableHlo.TRef sig ⟨S320000x256, .f32⟩) (.of main_call2_v15 : StableHlo.TRef sig ⟨S320000x256, .f32⟩) (.of main_v12 : StableHlo.TRef sig ⟨S320000x256, .f32⟩) select ]

/-- Call 3: the rows of k at the neighbour nodes. -/
abbrev r4 : List (HloOp τ sig (Elt F)) :=
  [ StableHlo.TRef.nullary (.of main_call3_c : StableHlo.TRef sig ⟨S_, .i32⟩) (constantI S_ 32 0#32),
    StableHlo.TRef.unary (.of main_call3_c : StableHlo.TRef sig ⟨S_, .i32⟩) (.of main_call3_v0 : StableHlo.TRef sig ⟨S320000, .i32⟩) (broadcastInDim S320000 ![] bcast_S_S320000),
    StableHlo.TRef.binary (.of main_v11 : StableHlo.TRef sig ⟨S320000, .i32⟩) (.of main_call3_v0 : StableHlo.TRef sig ⟨S320000, .i32⟩) (.of main_call3_v1 : StableHlo.TRef sig ⟨S320000, .i1⟩) (cmpi .slt),
    StableHlo.TRef.nullary (.of main_call3_c_0 : StableHlo.TRef sig ⟨S_, .i32⟩) (constantI S_ 32 20000#32),
    StableHlo.TRef.unary (.of main_call3_c_0 : StableHlo.TRef sig ⟨S_, .i32⟩) (.of main_call3_v2 : StableHlo.TRef sig ⟨S320000, .i32⟩) (broadcastInDim S320000 ![] bcast_S_S320000),
    StableHlo.TRef.binary (.of main_v11 : StableHlo.TRef sig ⟨S320000, .i32⟩) (.of main_call3_v2 : StableHlo.TRef sig ⟨S320000, .i32⟩) (.of main_call3_v3 : StableHlo.TRef sig ⟨S320000, .i32⟩) addi,
    StableHlo.TRef.ternary (.of main_call3_v1 : StableHlo.TRef sig ⟨S320000, .i1⟩) (.of main_call3_v3 : StableHlo.TRef sig ⟨S320000, .i32⟩) (.of main_v11 : StableHlo.TRef sig ⟨S320000, .i32⟩) (.of main_call3_v4 : StableHlo.TRef sig ⟨S320000, .i32⟩) select,
    StableHlo.TRef.unary main_call3_call0.v0 (.of main_call3_v5 : StableHlo.TRef sig ⟨S320000x1, .i32⟩) (broadcastInDim S320000x1 ![0] bcast_S320000_S320000x1_0),
    StableHlo.TRef.nullary (.of main_call3_c_1 : StableHlo.TRef sig ⟨S1, .i32⟩) (constantI S1 32 19999#32),
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v6 : StableHlo.TRef sig ⟨S320000x1, .i32⟩) (broadcastInDim S320000x1 ![] bcast_S_S320000x1),
    StableHlo.TRef.binary (.of main_call3_v5 : StableHlo.TRef sig ⟨S320000x1, .i32⟩) (.of main_call3_v6 : StableHlo.TRef sig ⟨S320000x1, .i32⟩) (.of main_call3_v7 : StableHlo.TRef sig ⟨S320000x1, .i1⟩) (cmpi .sge),
    StableHlo.TRef.unary (.of main_call3_c_1 : StableHlo.TRef sig ⟨S1, .i32⟩) (.of main_call3_v8 : StableHlo.TRef sig ⟨S1x1, .i32⟩) (broadcastInDim S1x1 ![1] bcast_S1_S1x1_1),
    StableHlo.TRef.unary (.of main_call3_v8 : StableHlo.TRef sig ⟨S1x1, .i32⟩) (.of main_call3_v9 : StableHlo.TRef sig ⟨S320000x1, .i32⟩) (broadcastInDim S320000x1 ![0, 1] bcast_S1x1_S320000x1_0_1),
    StableHlo.TRef.binary (.of main_call3_v5 : StableHlo.TRef sig ⟨S320000x1, .i32⟩) (.of main_call3_v9 : StableHlo.TRef sig ⟨S320000x1, .i32⟩) (.of main_call3_v10 : StableHlo.TRef sig ⟨S320000x1, .i1⟩) (cmpi .sle),
    StableHlo.TRef.binary (.of main_call3_v7 : StableHlo.TRef sig ⟨S320000x1, .i1⟩) (.of main_call3_v10 : StableHlo.TRef sig ⟨S320000x1, .i1⟩) (.of main_call3_v11 : StableHlo.TRef sig ⟨S320000x1, .i1⟩) andi,
    StableHlo.TRef.nullary (.of main_call3_c_3 : StableHlo.TRef sig ⟨S_, .i1⟩) (constantI S_ 1 1#1),
    StableHlo.TRef.binary (.of main_call3_v11 : StableHlo.TRef sig ⟨S320000x1, .i1⟩) (.of main_call3_c_3 : StableHlo.TRef sig ⟨S_, .i1⟩) (.of main_call3_v12 : StableHlo.TRef sig ⟨S320000, .i1⟩) (fun x v => Host.reduce IntOp.andi x v reducesTo_S320000x1_S320000_d1 h_S_),
    StableHlo.TRef.binary (.of main_v9 : StableHlo.TRef sig ⟨S20000x256, .f32⟩) (.of main_call3_v5 : StableHlo.TRef sig ⟨S320000x1, .i32⟩) (.of main_call3_v13 : StableHlo.TRef sig ⟨S320000x256, .f32⟩) (fun x i => Host.gather gather_S20000x256_S320000x1_S320000x256_1_0_n_n_0_1_1256 x i),
    StableHlo.TRef.unary (.of main_call3_v12 : StableHlo.TRef sig ⟨S320000, .i1⟩) (.of main_call3_v14 : StableHlo.TRef sig ⟨S320000x256, .i1⟩) (broadcastInDim S320000x256 ![0] bcast_S320000_S320000x256_0),
    StableHlo.TRef.nullary (.of main_call3_cst : StableHlo.TRef sig ⟨S_, .f32⟩) (constant S_ .f32 0x7FC00000#32),
    StableHlo.TRef.unary (.of main_call3_cst : StableHlo.TRef sig ⟨S_, .f32⟩) (.of main_call3_v15 : StableHlo.TRef sig ⟨S320000x256, .f32⟩) (broadcastInDim S320000x256 ![] bcast_S_S320000x256),
    StableHlo.TRef.ternary (.of main_call3_v14 : StableHlo.TRef sig ⟨S320000x256, .i1⟩) (.of main_call3_v13 : StableHlo.TRef sig ⟨S320000x256, .f32⟩) (.of main_call3_v15 : StableHlo.TRef sig ⟨S320000x256, .f32⟩) (.of main_v13 : StableHlo.TRef sig ⟨S320000x256, .f32⟩) select ]

/-- The gate: the row sums of the product of the two gathered arrays, as a column, through 1 / (1 + exp (-s)). -/
abbrev r5 : List (HloOp τ sig (Elt F)) :=
  [ StableHlo.binary main_v12 main_v13 main_v14 (mulf : (⟨S320000x256, .f32⟩ : BufTy).Contents (Elt F) → (⟨S320000x256, .f32⟩ : BufTy).Contents (Elt F) → (⟨S320000x256, .f32⟩ : BufTy).Contents (Elt F)),
    StableHlo.nullary main_cst (constant S_ .f32 0x00000000#32),
    StableHlo.binary main_v14 main_cst main_v15 ((fun x v => Host.reduceAdd x v reducesTo_S320000x256_S320000_d1 h_S_) : (⟨S320000x256, .f32⟩ : BufTy).Contents (Elt F) → (⟨S_, .f32⟩ : BufTy).Contents (Elt F) → (⟨S320000, .f32⟩ : BufTy).Contents (Elt F)),
    StableHlo.unary main_v15 main_v16 (broadcastInDim S320000x1 ![0] bcast_S320000_S320000x1_0 : (⟨S320000, .f32⟩ : BufTy).Contents (Elt F) → (⟨S320000x1, .f32⟩ : BufTy).Contents (Elt F)),
    StableHlo.unary main_v16 main_v17 (Host.negf : (⟨S320000x1, .f32⟩ : BufTy).Contents (Elt F) → (⟨S320000x1, .f32⟩ : BufTy).Contents (Elt F)),
    StableHlo.unary main_v17 main_v18 (Host.exp : (⟨S320000x1, .f32⟩ : BufTy).Contents (Elt F) → (⟨S320000x1, .f32⟩ : BufTy).Contents (Elt F)),
    StableHlo.nullary main_cst_0 (constant S_ .f32 0x3F800000#32),
    StableHlo.unary main_cst_0 main_v19 (broadcastInDim S320000x1 ![] bcast_S_S320000x1 : (⟨S_, .f32⟩ : BufTy).Contents (Elt F) → (⟨S320000x1, .f32⟩ : BufTy).Contents (Elt F)),
    StableHlo.binary main_v19 main_v18 main_v20 (addf : (⟨S320000x1, .f32⟩ : BufTy).Contents (Elt F) → (⟨S320000x1, .f32⟩ : BufTy).Contents (Elt F) → (⟨S320000x1, .f32⟩ : BufTy).Contents (Elt F)),
    StableHlo.nullary main_cst_1 (constant S_ .f32 0x3F800000#32),
    StableHlo.unary main_cst_1 main_v21 (broadcastInDim S320000x1 ![] bcast_S_S320000x1 : (⟨S_, .f32⟩ : BufTy).Contents (Elt F) → (⟨S320000x1, .f32⟩ : BufTy).Contents (Elt F)),
    StableHlo.binary main_v21 main_v20 main_v22 (Host.divf : (⟨S320000x1, .f32⟩ : BufTy).Contents (Elt F) → (⟨S320000x1, .f32⟩ : BufTy).Contents (Elt F) → (⟨S320000x1, .f32⟩ : BufTy).Contents (Elt F)) ]

/-- Call 4: the rows of the masked embeddings at masked_idx. -/
abbrev r6 : List (HloOp τ sig (Elt F)) :=
  [ StableHlo.TRef.nullary (.of main_call4_c : StableHlo.TRef sig ⟨S_, .i32⟩) (constantI S_ 32 0#32),
    StableHlo.TRef.unary (.of main_call4_c : StableHlo.TRef sig ⟨S_, .i32⟩) (.of main_call4_v0 : StableHlo.TRef sig ⟨S320000, .i32⟩) (broadcastInDim S320000 ![] bcast_S_S320000),
    StableHlo.TRef.binary (.of main_arg14 : StableHlo.TRef sig ⟨S320000, .i32⟩) (.of main_call4_v0 : StableHlo.TRef sig ⟨S320000, .i32⟩) (.of main_call4_v1 : StableHlo.TRef sig ⟨S320000, .i1⟩) (cmpi .slt),
    StableHlo.TRef.nullary (.of main_call4_c_0 : StableHlo.TRef sig ⟨S_, .i32⟩) (constantI S_ 32 20000#32),
    StableHlo.TRef.unary (.of main_call4_c_0 : StableHlo.TRef sig ⟨S_, .i32⟩) (.of main_call4_v2 : StableHlo.TRef sig ⟨S320000, .i32⟩) (broadcastInDim S320000 ![] bcast_S_S320000),
    StableHlo.TRef.binary (.of main_arg14 : StableHlo.TRef sig ⟨S320000, .i32⟩) (.of main_call4_v2 : StableHlo.TRef sig ⟨S320000, .i32⟩) (.of main_call4_v3 : StableHlo.TRef sig ⟨S320000, .i32⟩) addi,
    StableHlo.TRef.ternary (.of main_call4_v1 : StableHlo.TRef sig ⟨S320000, .i1⟩) (.of main_call4_v3 : StableHlo.TRef sig ⟨S320000, .i32⟩) (.of main_arg14 : StableHlo.TRef sig ⟨S320000, .i32⟩) (.of main_call4_v4 : StableHlo.TRef sig ⟨S320000, .i32⟩) select,
    StableHlo.TRef.unary main_call4_call0.v0 (.of main_call4_v5 : StableHlo.TRef sig ⟨S320000x1, .i32⟩) (broadcastInDim S320000x1 ![0] bcast_S320000_S320000x1_0),
    StableHlo.TRef.nullary (.of main_call4_c_1 : StableHlo.TRef sig ⟨S1, .i32⟩) (constantI S1 32 19999#32),
    StableHlo.TRef.nullary (.of main_call4_c_2 : StableHlo.TRef sig ⟨S_, .i32⟩) (constantI S_ 32 0#32),
    StableHlo.TRef.unary (.of main_call4_c_2 : StableHlo.TRef sig ⟨S_, .i32⟩) (.of main_call4_v6 : StableHlo.TRef sig ⟨S320000x1, .i32⟩) (broadcastInDim S320000x1 ![] bcast_S_S320000x1),
    StableHlo.TRef.binary (.of main_call4_v5 : StableHlo.TRef sig ⟨S320000x1, .i32⟩) (.of main_call4_v6 : StableHlo.TRef sig ⟨S320000x1, .i32⟩) (.of main_call4_v7 : StableHlo.TRef sig ⟨S320000x1, .i1⟩) (cmpi .sge),
    StableHlo.TRef.unary (.of main_call4_c_1 : StableHlo.TRef sig ⟨S1, .i32⟩) (.of main_call4_v8 : StableHlo.TRef sig ⟨S1x1, .i32⟩) (broadcastInDim S1x1 ![1] bcast_S1_S1x1_1),
    StableHlo.TRef.unary (.of main_call4_v8 : StableHlo.TRef sig ⟨S1x1, .i32⟩) (.of main_call4_v9 : StableHlo.TRef sig ⟨S320000x1, .i32⟩) (broadcastInDim S320000x1 ![0, 1] bcast_S1x1_S320000x1_0_1),
    StableHlo.TRef.binary (.of main_call4_v5 : StableHlo.TRef sig ⟨S320000x1, .i32⟩) (.of main_call4_v9 : StableHlo.TRef sig ⟨S320000x1, .i32⟩) (.of main_call4_v10 : StableHlo.TRef sig ⟨S320000x1, .i1⟩) (cmpi .sle),
    StableHlo.TRef.binary (.of main_call4_v7 : StableHlo.TRef sig ⟨S320000x1, .i1⟩) (.of main_call4_v10 : StableHlo.TRef sig ⟨S320000x1, .i1⟩) (.of main_call4_v11 : StableHlo.TRef sig ⟨S320000x1, .i1⟩) andi,
    StableHlo.TRef.nullary (.of main_call4_c_3 : StableHlo.TRef sig ⟨S_, .i1⟩) (constantI S_ 1 1#1),
    StableHlo.TRef.binary (.of main_call4_v11 : StableHlo.TRef sig ⟨S320000x1, .i1⟩) (.of main_call4_c_3 : StableHlo.TRef sig ⟨S_, .i1⟩) (.of main_call4_v12 : StableHlo.TRef sig ⟨S320000, .i1⟩) (fun x v => Host.reduce IntOp.andi x v reducesTo_S320000x1_S320000_d1 h_S_),
    StableHlo.TRef.binary (.of main_arg0 : StableHlo.TRef sig ⟨S20000x256, .f32⟩) (.of main_call4_v5 : StableHlo.TRef sig ⟨S320000x1, .i32⟩) (.of main_call4_v13 : StableHlo.TRef sig ⟨S320000x256, .f32⟩) (fun x i => Host.gather gather_S20000x256_S320000x1_S320000x256_1_0_n_n_0_1_1256 x i),
    StableHlo.TRef.unary (.of main_call4_v12 : StableHlo.TRef sig ⟨S320000, .i1⟩) (.of main_call4_v14 : StableHlo.TRef sig ⟨S320000x256, .i1⟩) (broadcastInDim S320000x256 ![0] bcast_S320000_S320000x256_0),
    StableHlo.TRef.nullary (.of main_call4_cst : StableHlo.TRef sig ⟨S_, .f32⟩) (constant S_ .f32 0x7FC00000#32),
    StableHlo.TRef.unary (.of main_call4_cst : StableHlo.TRef sig ⟨S_, .f32⟩) (.of main_call4_v15 : StableHlo.TRef sig ⟨S320000x256, .f32⟩) (broadcastInDim S320000x256 ![] bcast_S_S320000x256),
    StableHlo.TRef.ternary (.of main_call4_v14 : StableHlo.TRef sig ⟨S320000x256, .i1⟩) (.of main_call4_v13 : StableHlo.TRef sig ⟨S320000x256, .f32⟩) (.of main_call4_v15 : StableHlo.TRef sig ⟨S320000x256, .f32⟩) (.of main_v23 : StableHlo.TRef sig ⟨S320000x256, .f32⟩) select ]

/-- Call 5: the rows of the node features at the neighbour nodes. -/
abbrev r7 : List (HloOp τ sig (Elt F)) :=
  [ StableHlo.TRef.nullary (.of main_call5_c : StableHlo.TRef sig ⟨S_, .i32⟩) (constantI S_ 32 0#32),
    StableHlo.TRef.unary (.of main_call5_c : StableHlo.TRef sig ⟨S_, .i32⟩) (.of main_call5_v0 : StableHlo.TRef sig ⟨S320000, .i32⟩) (broadcastInDim S320000 ![] bcast_S_S320000),
    StableHlo.TRef.binary (.of main_v11 : StableHlo.TRef sig ⟨S320000, .i32⟩) (.of main_call5_v0 : StableHlo.TRef sig ⟨S320000, .i32⟩) (.of main_call5_v1 : StableHlo.TRef sig ⟨S320000, .i1⟩) (cmpi .slt),
    StableHlo.TRef.nullary (.of main_call5_c_0 : StableHlo.TRef sig ⟨S_, .i32⟩) (constantI S_ 32 20000#32),
    StableHlo.TRef.unary (.of main_call5_c_0 : StableHlo.TRef sig ⟨S_, .i32⟩) (.of main_call5_v2 : StableHlo.TRef sig ⟨S320000, .i32⟩) (broadcastInDim S320000 ![] bcast_S_S320000),
    StableHlo.TRef.binary (.of main_v11 : StableHlo.TRef sig ⟨S320000, .i32⟩) (.of main_call5_v2 : StableHlo.TRef sig ⟨S320000, .i32⟩) (.of main_call5_v3 : StableHlo.TRef sig ⟨S320000, .i32⟩) addi,
    StableHlo.TRef.ternary (.of main_call5_v1 : StableHlo.TRef sig ⟨S320000, .i1⟩) (.of main_call5_v3 : StableHlo.TRef sig ⟨S320000, .i32⟩) (.of main_v11 : StableHlo.TRef sig ⟨S320000, .i32⟩) (.of main_call5_v4 : StableHlo.TRef sig ⟨S320000, .i32⟩) select,
    StableHlo.TRef.unary main_call5_call0.v0 (.of main_call5_v5 : StableHlo.TRef sig ⟨S320000x1, .i32⟩) (broadcastInDim S320000x1 ![0] bcast_S320000_S320000x1_0),
    StableHlo.TRef.nullary (.of main_call5_c_1 : StableHlo.TRef sig ⟨S1, .i32⟩) (constantI S1 32 19999#32),
    StableHlo.TRef.nullary (.of main_call5_c_2 : StableHlo.TRef sig ⟨S_, .i32⟩) (constantI S_ 32 0#32),
    StableHlo.TRef.unary (.of main_call5_c_2 : StableHlo.TRef sig ⟨S_, .i32⟩) (.of main_call5_v6 : StableHlo.TRef sig ⟨S320000x1, .i32⟩) (broadcastInDim S320000x1 ![] bcast_S_S320000x1),
    StableHlo.TRef.binary (.of main_call5_v5 : StableHlo.TRef sig ⟨S320000x1, .i32⟩) (.of main_call5_v6 : StableHlo.TRef sig ⟨S320000x1, .i32⟩) (.of main_call5_v7 : StableHlo.TRef sig ⟨S320000x1, .i1⟩) (cmpi .sge),
    StableHlo.TRef.unary (.of main_call5_c_1 : StableHlo.TRef sig ⟨S1, .i32⟩) (.of main_call5_v8 : StableHlo.TRef sig ⟨S1x1, .i32⟩) (broadcastInDim S1x1 ![1] bcast_S1_S1x1_1),
    StableHlo.TRef.unary (.of main_call5_v8 : StableHlo.TRef sig ⟨S1x1, .i32⟩) (.of main_call5_v9 : StableHlo.TRef sig ⟨S320000x1, .i32⟩) (broadcastInDim S320000x1 ![0, 1] bcast_S1x1_S320000x1_0_1),
    StableHlo.TRef.binary (.of main_call5_v5 : StableHlo.TRef sig ⟨S320000x1, .i32⟩) (.of main_call5_v9 : StableHlo.TRef sig ⟨S320000x1, .i32⟩) (.of main_call5_v10 : StableHlo.TRef sig ⟨S320000x1, .i1⟩) (cmpi .sle),
    StableHlo.TRef.binary (.of main_call5_v7 : StableHlo.TRef sig ⟨S320000x1, .i1⟩) (.of main_call5_v10 : StableHlo.TRef sig ⟨S320000x1, .i1⟩) (.of main_call5_v11 : StableHlo.TRef sig ⟨S320000x1, .i1⟩) andi,
    StableHlo.TRef.nullary (.of main_call5_c_3 : StableHlo.TRef sig ⟨S_, .i1⟩) (constantI S_ 1 1#1),
    StableHlo.TRef.binary (.of main_call5_v11 : StableHlo.TRef sig ⟨S320000x1, .i1⟩) (.of main_call5_c_3 : StableHlo.TRef sig ⟨S_, .i1⟩) (.of main_call5_v12 : StableHlo.TRef sig ⟨S320000, .i1⟩) (fun x v => Host.reduce IntOp.andi x v reducesTo_S320000x1_S320000_d1 h_S_),
    StableHlo.TRef.binary (.of main_arg1 : StableHlo.TRef sig ⟨S20000x256, .f32⟩) (.of main_call5_v5 : StableHlo.TRef sig ⟨S320000x1, .i32⟩) (.of main_call5_v13 : StableHlo.TRef sig ⟨S320000x256, .f32⟩) (fun x i => Host.gather gather_S20000x256_S320000x1_S320000x256_1_0_n_n_0_1_1256 x i),
    StableHlo.TRef.unary (.of main_call5_v12 : StableHlo.TRef sig ⟨S320000, .i1⟩) (.of main_call5_v14 : StableHlo.TRef sig ⟨S320000x256, .i1⟩) (broadcastInDim S320000x256 ![0] bcast_S320000_S320000x256_0),
    StableHlo.TRef.nullary (.of main_call5_cst : StableHlo.TRef sig ⟨S_, .f32⟩) (constant S_ .f32 0x7FC00000#32),
    StableHlo.TRef.unary (.of main_call5_cst : StableHlo.TRef sig ⟨S_, .f32⟩) (.of main_call5_v15 : StableHlo.TRef sig ⟨S320000x256, .f32⟩) (broadcastInDim S320000x256 ![] bcast_S_S320000x256),
    StableHlo.TRef.ternary (.of main_call5_v14 : StableHlo.TRef sig ⟨S320000x256, .i1⟩) (.of main_call5_v13 : StableHlo.TRef sig ⟨S320000x256, .f32⟩) (.of main_call5_v15 : StableHlo.TRef sig ⟨S320000x256, .f32⟩) (.of main_v24 : StableHlo.TRef sig ⟨S320000x256, .f32⟩) select ]

/-- The first affine layer of the edge network on the gathered features. -/
abbrev r8 : List (HloOp τ sig (Elt F)) :=
  [ StableHlo.binary main_v24 main_arg6 main_v25 ((fun l r => Host.dotGeneral dot_S320000x256_S256x256_S320000x256_1_0_0_1_n_n none l r) : (⟨S320000x256, .f32⟩ : BufTy).Contents (Elt F) → (⟨S256x256, .f32⟩ : BufTy).Contents (Elt F) → (⟨S320000x256, .f32⟩ : BufTy).Contents (Elt F)),
    StableHlo.unary main_arg7 main_v26 (broadcastInDim S1x256 ![1] bcast_S256_S1x256_1 : (⟨S256, .f32⟩ : BufTy).Contents (Elt F) → (⟨S1x256, .f32⟩ : BufTy).Contents (Elt F)),
    StableHlo.unary main_v26 main_v27 (broadcastInDim S320000x256 ![0, 1] bcast_S1x256_S320000x256_0_1 : (⟨S1x256, .f32⟩ : BufTy).Contents (Elt F) → (⟨S320000x256, .f32⟩ : BufTy).Contents (Elt F)),
    StableHlo.binary main_v25 main_v27 main_v28 (addf : (⟨S320000x256, .f32⟩ : BufTy).Contents (Elt F) → (⟨S320000x256, .f32⟩ : BufTy).Contents (Elt F) → (⟨S320000x256, .f32⟩ : BufTy).Contents (Elt F)) ]

/-- Call 6: relu, the maximum with the zero splat. -/
abbrev r9 : List (HloOp τ sig (Elt F)) :=
  [ StableHlo.TRef.nullary (.of main_call6_cst : StableHlo.TRef sig ⟨S_, .f32⟩) (constant S_ .f32 0x00000000#32),
    StableHlo.TRef.unary (.of main_call6_cst : StableHlo.TRef sig ⟨S_, .f32⟩) (.of main_call6_v0 : StableHlo.TRef sig ⟨S320000x256, .f32⟩) (broadcastInDim S320000x256 ![] bcast_S_S320000x256),
    StableHlo.TRef.binary (.of main_v28 : StableHlo.TRef sig ⟨S320000x256, .f32⟩) (.of main_call6_v0 : StableHlo.TRef sig ⟨S320000x256, .f32⟩) (.of main_v29 : StableHlo.TRef sig ⟨S320000x256, .f32⟩) maximumf ]

/-- The second affine layer, the convex blend by the gate, and the projection to the vocabulary with its bias. -/
abbrev r10 : List (HloOp τ sig (Elt F)) :=
  [ StableHlo.binary main_v29 main_arg8 main_v30 ((fun l r => Host.dotGeneral dot_S320000x256_S256x256_S320000x256_1_0_0_1_n_n none l r) : (⟨S320000x256, .f32⟩ : BufTy).Contents (Elt F) → (⟨S256x256, .f32⟩ : BufTy).Contents (Elt F) → (⟨S320000x256, .f32⟩ : BufTy).Contents (Elt F)),
    StableHlo.unary main_arg9 main_v31 (broadcastInDim S1x256 ![1] bcast_S256_S1x256_1 : (⟨S256, .f32⟩ : BufTy).Contents (Elt F) → (⟨S1x256, .f32⟩ : BufTy).Contents (Elt F)),
    StableHlo.unary main_v31 main_v32 (broadcastInDim S320000x256 ![0, 1] bcast_S1x256_S320000x256_0_1 : (⟨S1x256, .f32⟩ : BufTy).Contents (Elt F) → (⟨S320000x256, .f32⟩ : BufTy).Contents (Elt F)),
    StableHlo.binary main_v30 main_v32 main_v33 (addf : (⟨S320000x256, .f32⟩ : BufTy).Contents (Elt F) → (⟨S320000x256, .f32⟩ : BufTy).Contents (Elt F) → (⟨S320000x256, .f32⟩ : BufTy).Contents (Elt F)),
    StableHlo.unary main_v22 main_v34 (broadcastInDim S320000x256 ![0, 1] bcast_S320000x1_S320000x256_0_1 : (⟨S320000x1, .f32⟩ : BufTy).Contents (Elt F) → (⟨S320000x256, .f32⟩ : BufTy).Contents (Elt F)),
    StableHlo.binary main_v34 main_v23 main_v35 (mulf : (⟨S320000x256, .f32⟩ : BufTy).Contents (Elt F) → (⟨S320000x256, .f32⟩ : BufTy).Contents (Elt F) → (⟨S320000x256, .f32⟩ : BufTy).Contents (Elt F)),
    StableHlo.nullary main_cst_2 (constant S_ .f32 0x3F800000#32),
    StableHlo.unary main_cst_2 main_v36 (broadcastInDim S320000x1 ![] bcast_S_S320000x1 : (⟨S_, .f32⟩ : BufTy).Contents (Elt F) → (⟨S320000x1, .f32⟩ : BufTy).Contents (Elt F)),
    StableHlo.binary main_v36 main_v22 main_v37 (subf : (⟨S320000x1, .f32⟩ : BufTy).Contents (Elt F) → (⟨S320000x1, .f32⟩ : BufTy).Contents (Elt F) → (⟨S320000x1, .f32⟩ : BufTy).Contents (Elt F)),
    StableHlo.unary main_v37 main_v38 (broadcastInDim S320000x256 ![0, 1] bcast_S320000x1_S320000x256_0_1 : (⟨S320000x1, .f32⟩ : BufTy).Contents (Elt F) → (⟨S320000x256, .f32⟩ : BufTy).Contents (Elt F)),
    StableHlo.binary main_v38 main_v33 main_v39 (mulf : (⟨S320000x256, .f32⟩ : BufTy).Contents (Elt F) → (⟨S320000x256, .f32⟩ : BufTy).Contents (Elt F) → (⟨S320000x256, .f32⟩ : BufTy).Contents (Elt F)),
    StableHlo.binary main_v35 main_v39 main_v40 (addf : (⟨S320000x256, .f32⟩ : BufTy).Contents (Elt F) → (⟨S320000x256, .f32⟩ : BufTy).Contents (Elt F) → (⟨S320000x256, .f32⟩ : BufTy).Contents (Elt F)),
    StableHlo.binary main_v40 main_arg10 main_v41 ((fun l r => Host.dotGeneral dot_S320000x256_S256x512_S320000x512_1_0_0_1_n_n none l r) : (⟨S320000x256, .f32⟩ : BufTy).Contents (Elt F) → (⟨S256x512, .f32⟩ : BufTy).Contents (Elt F) → (⟨S320000x512, .f32⟩ : BufTy).Contents (Elt F)),
    StableHlo.unary main_arg11 main_v42 (broadcastInDim S1x512 ![1] bcast_S512_S1x512_1 : (⟨S512, .f32⟩ : BufTy).Contents (Elt F) → (⟨S1x512, .f32⟩ : BufTy).Contents (Elt F)),
    StableHlo.unary main_v42 main_v43 (broadcastInDim S320000x512 ![0, 1] bcast_S1x512_S320000x512_0_1 : (⟨S1x512, .f32⟩ : BufTy).Contents (Elt F) → (⟨S320000x512, .f32⟩ : BufTy).Contents (Elt F)),
    StableHlo.binary main_v41 main_v43 main_v44 (addf : (⟨S320000x512, .f32⟩ : BufTy).Contents (Elt F) → (⟨S320000x512, .f32⟩ : BufTy).Contents (Elt F) → (⟨S320000x512, .f32⟩ : BufTy).Contents (Elt F)) ]

/-- The stretches in program order. -/
abbrev parts : List (List (HloOp τ sig (Elt F))) := [r0, r1, r2, r3, r4, r5, r6, r7, r8, r9, r10]

/-- Every operation of @main, in order. -/
abbrev ops : List (HloOp τ sig (Elt F)) := List.flatten parts

end Cert.ReferenceIdeal.RefRun

end
-- ==== Proof.RefRun.lean ====
/-
  The reference program's run. Its @main is, on every device, the straight line of the 181 host operations listed in
  the eleven stretches r0 … r10 (each call of a module-local function unfolded to that function's own lines over the
  call's buffers); every operation reads and writes TensorCore references only and determines what it writes; hence
  every weakly fair execution from a memory with zero counters terminates, and each TensorCore buffer ends at the fold
  of the operations over the contents the device was launched with.
-/
import proofs.«143230_j56916906606893_1_alg».proof.Proof.RefOps

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-! ## @main as the line of its operations -/

set_option maxRecDepth 65536 in
/-- On every device @main is the line of its operations. Both sides are the same right-nested sequence of single
    steps: on the left each call's body unfolds at its arguments and the call's record of buffers at its fields, on the
    right the concatenation of the eleven stretches unfolds to one list and the line over it to one step per member. -/
theorem main_eq (c : Dev nD) : main (F := F) c = StableHlo.seq (ops (F := F)) := rfl

/-! ## The signature scopes nothing -/

/-- No TensorCore reference of the signature is scoped. -/
theorem scopedRefs_eq : (Finset.univ.filter fun b : Ref sig .tc => b.isScoped) = ∅ := by decide

/-- No semaphore of the signature is scoped on the TensorCore. -/
theorem scopedSems_eq : (Finset.univ.filter fun sm : SemLoc sig => sm.isScoped .tc) = ∅ := by decide

/-! ## From the stretches to their concatenation -/

/-- What holds of every member of every list of a family holds of every member of the family's concatenation: a
    member of the concatenation is a member of one of the lists. -/
theorem forall_flatten {α : Type} {p : α → Prop} {L : List (List α)} (h : L.Forall fun l => l.Forall p) :
    L.flatten.Forall p := by
  rw [List.forall_iff_forall_mem] at h ⊢
  intro x hx
  obtain ⟨l, hl, hxl⟩ := List.mem_flatten.mp hx
  exact List.forall_iff_forall_mem.mp (h l hl) x hxl

/-! ## Every operation touches TensorCore references only

Stretch by stretch, one fact per operation in the stretch's order: an operation's buffers are its operands' and its
result's references, each of them a TensorCore reference. -/

/-- Each operation of the node-level stretch touches TensorCore references only. -/
theorem r0_sub : (r0 : List (HloOp τ sig (Elt F))).Forall fun op => op.bufs ⊆ StableHlo.tcRefs τ sig :=
  ⟨StableHlo.unary_bufs_sub .., StableHlo.reshape_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub ..⟩

/-- Each operation of call 0 touches TensorCore references only. -/
theorem r1_sub : (r1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩

/-- Each operation of call 1 touches TensorCore references only. -/
theorem r2_sub : (r2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩

/-- Each operation of call 2 touches TensorCore references only. -/
theorem r3_sub : (r3 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩

/-- Each operation of call 3 touches TensorCore references only. -/
theorem r4_sub : (r4 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩

/-- Each operation of the gate touches TensorCore references only. -/
theorem r5_sub : (r5 : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub ..⟩

/-- Each operation of call 4 touches TensorCore references only. -/
theorem r6_sub : (r6 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩

/-- Each operation of call 5 touches TensorCore references only. -/
theorem r7_sub : (r7 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩

/-- Each operation of the first affine layer touches TensorCore references only. -/
theorem r8_sub : (r8 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub ..⟩

/-- Each operation of the relu touches TensorCore references only. -/
theorem r9_sub : (r9 : List (HloOp τ sig (Elt F))).Forall fun op => op.bufs ⊆ StableHlo.tcRefs τ sig :=
  ⟨StableHlo.nullary_bufs_sub .., StableHlo.unary_bufs_sub .., StableHlo.binary_bufs_sub ..⟩

/-- Each operation of the last stretch touches TensorCore references only. -/
theorem r10_sub : (r10 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.binary_bufs_sub .., StableHlo.unary_bufs_sub .., StableHlo.unary_bufs_sub .., StableHlo.binary_bufs_sub ..⟩

/-- Every operation touches TensorCore references only. -/
theorem ops_sub : (ops : List (HloOp τ sig (Elt F))).Forall fun op => op.bufs ⊆ StableHlo.tcRefs τ sig :=
  forall_flatten ⟨r0_sub, r1_sub, r2_sub, r3_sub, r4_sub, r5_sub, r6_sub, r7_sub, r8_sub, r9_sub, r10_sub⟩

/-! ## Every operation determines what it writes

None of the operations allocates a buffer whose contents the machine chooses: the set of references an operation
leaves undetermined is empty for each of the five kinds of operation that occur, by its definition. -/

/-- Each operation of the node-level stretch determines what it writes. -/
theorem r0_fresh : (r0 : List (HloOp τ sig (Elt F))).Forall fun op => op.fresh = ∅ := by
  simp only [List.Forall]; repeat' constructor

/-- Each operation of call 0 determines what it writes. -/
theorem r1_fresh : (r1 : List (HloOp τ sig (Elt F))).Forall fun op => op.fresh = ∅ := by
  simp only [List.Forall]; repeat' constructor

/-- Each operation of call 1 determines what it writes. -/
theorem r2_fresh : (r2 : List (HloOp τ sig (Elt F))).Forall fun op => op.fresh = ∅ := by
  simp only [List.Forall]; repeat' constructor

/-- Each operation of call 2 determines what it writes. -/
theorem r3_fresh : (r3 : List (HloOp τ sig (Elt F))).Forall fun op => op.fresh = ∅ := by
  simp only [List.Forall]; repeat' constructor

/-- Each operation of call 3 determines what it writes. -/
theorem r4_fresh : (r4 : List (HloOp τ sig (Elt F))).Forall fun op => op.fresh = ∅ := by
  simp only [List.Forall]; repeat' constructor

/-- Each operation of the gate determines what it writes. -/
theorem r5_fresh : (r5 : List (HloOp τ sig (Elt F))).Forall fun op => op.fresh = ∅ := by
  simp only [List.Forall]; repeat' constructor

/-- Each operation of call 4 determines what it writes. -/
theorem r6_fresh : (r6 : List (HloOp τ sig (Elt F))).Forall fun op => op.fresh = ∅ := by
  simp only [List.Forall]; repeat' constructor

/-- Each operation of call 5 determines what it writes. -/
theorem r7_fresh : (r7 : List (HloOp τ sig (Elt F))).Forall fun op => op.fresh = ∅ := by
  simp only [List.Forall]; repeat' constructor

/-- Each operation of the first affine layer determines what it writes. -/
theorem r8_fresh : (r8 : List (HloOp τ sig (Elt F))).Forall fun op => op.fresh = ∅ := by
  simp only [List.Forall]; repeat' constructor

/-- Each operation of the relu determines what it writes. -/
theorem r9_fresh : (r9 : List (HloOp τ sig (Elt F))).Forall fun op => op.fresh = ∅ := by
  simp only [List.Forall]; repeat' constructor

/-- Each operation of the last stretch determines what it writes. -/
theorem r10_fresh : (r10 : List (HloOp τ sig (Elt F))).Forall fun op => op.fresh = ∅ := by
  simp only [List.Forall]; repeat' constructor

/-- Every operation determines what it writes. -/
theorem ops_fresh : ∀ op ∈ (ops : List (HloOp τ sig (Elt F))), op.fresh = ∅ :=
  List.forall_iff_forall_mem.mp
    (forall_flatten ⟨r0_fresh, r1_fresh, r2_fresh, r3_fresh, r4_fresh, r5_fresh, r6_fresh, r7_fresh, r8_fresh, r9_fresh, r10_fresh⟩)

/-! ## The run -/

/-- From any memory with zero counters every weakly fair execution of @main terminates, and each TensorCore buffer ends at the
    fold of the operations over the device's launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = StableHlo.after (ops (F := F)) (StableHlo.launchContents m d) (Proc.devRef .tc b) :=
  StableHlo.run_seq scopedRefs_eq scopedSems_eq defs main (fun _ => ops) main_eq (fun _ => ops_sub) m ρ (fun _ => ops_fresh)

end Cert.ReferenceIdeal.RefRun

end
-- ==== Proof.RefKept.lean ====
/-
  The reference program keeps its arguments. Every operation of @main's line writes exactly one reference, the one of
  the value it defines, and none of those is one of the sixteen argument references; so after the whole line each
  argument array holds what the device was launched with, and with the run of the line this is the frame: every weakly
  fair execution terminates with the sixteen argument arrays unchanged.
-/
import proofs.«143230_j56916906606893_1_alg».proof.Proof.RefRun

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-! ## No operation writes an argument -/

/-- The sixteen argument references of @main, in order. -/
abbrev argRefs : List (Ref sig .tc) :=
  [main_arg0, main_arg1, main_arg2, main_arg3, main_arg4, main_arg5, main_arg6, main_arg7, main_arg8, main_arg9, main_arg10,
    main_arg11, main_arg12, main_arg13, main_arg14, main_arg15]

/-- An operation whose only written reference differs from every argument reference writes no argument: distinct
    references are distinct device buffers. -/
theorem not_mem_single {y : Ref sig .tc} (h : ∀ a ∈ argRefs, a ≠ y) :
    ∀ a ∈ argRefs, (Proc.devRef .tc a : DevRef τ sig) ∉ ({Proc.devRef .tc y} : Finset (DevRef τ sig)) :=
  fun a ha => by rw [Finset.mem_singleton]; exact StableHlo.devRef_ne_of_ne (h a ha)

/-- No operation of the node-level stretch writes an argument: each writes the one reference of the value it defines, and that
    reference is compared with the sixteen argument references. -/
theorem r0_keeps : (r0 : List (HloOp τ sig (Elt F))).Forall fun op => ∀ a ∈ argRefs, (Proc.devRef .tc a : DevRef τ sig) ∉ op.writes := by
  simp only [List.Forall, StableHlo.nullary_writes, StableHlo.unary_writes, StableHlo.binary_writes, StableHlo.ternary_writes, StableHlo.reshape_writes]
  repeat' apply And.intro
  all_goals exact not_mem_single (by decide)

/-- No operation of call 0 writes an argument: each writes the one reference of the value it defines, and that
    reference is compared with the sixteen argument references. -/
theorem r1_keeps : (r1 : List (HloOp τ sig (Elt F))).Forall fun op => ∀ a ∈ argRefs, (Proc.devRef .tc a : DevRef τ sig) ∉ op.writes := by
  simp only [List.Forall, StableHlo.nullary_writes, StableHlo.unary_writes, StableHlo.binary_writes, StableHlo.ternary_writes, StableHlo.reshape_writes]
  repeat' apply And.intro
  all_goals exact not_mem_single (by decide)

/-- No operation of call 1 writes an argument: each writes the one reference of the value it defines, and that
    reference is compared with the sixteen argument references. -/
theorem r2_keeps : (r2 : List (HloOp τ sig (Elt F))).Forall fun op => ∀ a ∈ argRefs, (Proc.devRef .tc a : DevRef τ sig) ∉ op.writes := by
  simp only [List.Forall, StableHlo.nullary_writes, StableHlo.unary_writes, StableHlo.binary_writes, StableHlo.ternary_writes, StableHlo.reshape_writes]
  repeat' apply And.intro
  all_goals exact not_mem_single (by decide)

/-- No operation of call 2 writes an argument: each writes the one reference of the value it defines, and that
    reference is compared with the sixteen argument references. -/
theorem r3_keeps : (r3 : List (HloOp τ sig (Elt F))).Forall fun op => ∀ a ∈ argRefs, (Proc.devRef .tc a : DevRef τ sig) ∉ op.writes := by
  simp only [List.Forall, StableHlo.nullary_writes, StableHlo.unary_writes, StableHlo.binary_writes, StableHlo.ternary_writes, StableHlo.reshape_writes]
  repeat' apply And.intro
  all_goals exact not_mem_single (by decide)

/-- No operation of call 3 writes an argument: each writes the one reference of the value it defines, and that
    reference is compared with the sixteen argument references. -/
theorem r4_keeps : (r4 : List (HloOp τ sig (Elt F))).Forall fun op => ∀ a ∈ argRefs, (Proc.devRef .tc a : DevRef τ sig) ∉ op.writes := by
  simp only [List.Forall, StableHlo.nullary_writes, StableHlo.unary_writes, StableHlo.binary_writes, StableHlo.ternary_writes, StableHlo.reshape_writes]
  repeat' apply And.intro
  all_goals exact not_mem_single (by decide)

/-- No operation of the gate writes an argument: each writes the one reference of the value it defines, and that
    reference is compared with the sixteen argument references. -/
theorem r5_keeps : (r5 : List (HloOp τ sig (Elt F))).Forall fun op => ∀ a ∈ argRefs, (Proc.devRef .tc a : DevRef τ sig) ∉ op.writes := by
  simp only [List.Forall, StableHlo.nullary_writes, StableHlo.unary_writes, StableHlo.binary_writes, StableHlo.ternary_writes, StableHlo.reshape_writes]
  repeat' apply And.intro
  all_goals exact not_mem_single (by decide)

/-- No operation of call 4 writes an argument: each writes the one reference of the value it defines, and that
    reference is compared with the sixteen argument references. -/
theorem r6_keeps : (r6 : List (HloOp τ sig (Elt F))).Forall fun op => ∀ a ∈ argRefs, (Proc.devRef .tc a : DevRef τ sig) ∉ op.writes := by
  simp only [List.Forall, StableHlo.nullary_writes, StableHlo.unary_writes, StableHlo.binary_writes, StableHlo.ternary_writes, StableHlo.reshape_writes]
  repeat' apply And.intro
  all_goals exact not_mem_single (by decide)

/-- No operation of call 5 writes an argument: each writes the one reference of the value it defines, and that
    reference is compared with the sixteen argument references. -/
theorem r7_keeps : (r7 : List (HloOp τ sig (Elt F))).Forall fun op => ∀ a ∈ argRefs, (Proc.devRef .tc a : DevRef τ sig) ∉ op.writes := by
  simp only [List.Forall, StableHlo.nullary_writes, StableHlo.unary_writes, StableHlo.binary_writes, StableHlo.ternary_writes, StableHlo.reshape_writes]
  repeat' apply And.intro
  all_goals exact not_mem_single (by decide)

/-- No operation of the first affine layer writes an argument: each writes the one reference of the value it defines, and that
    reference is compared with the sixteen argument references. -/
theorem r8_keeps : (r8 : List (HloOp τ sig (Elt F))).Forall fun op => ∀ a ∈ argRefs, (Proc.devRef .tc a : DevRef τ sig) ∉ op.writes := by
  simp only [List.Forall, StableHlo.nullary_writes, StableHlo.unary_writes, StableHlo.binary_writes, StableHlo.ternary_writes, StableHlo.reshape_writes]
  repeat' apply And.intro
  all_goals exact not_mem_single (by decide)

/-- No operation of the relu writes an argument: each writes the one reference of the value it defines, and that
    reference is compared with the sixteen argument references. -/
theorem r9_keeps : (r9 : List (HloOp τ sig (Elt F))).Forall fun op => ∀ a ∈ argRefs, (Proc.devRef .tc a : DevRef τ sig) ∉ op.writes := by
  simp only [List.Forall, StableHlo.nullary_writes, StableHlo.unary_writes, StableHlo.binary_writes, StableHlo.ternary_writes, StableHlo.reshape_writes]
  repeat' apply And.intro
  all_goals exact not_mem_single (by decide)

/-- No operation of the last stretch writes an argument: each writes the one reference of the value it defines, and that
    reference is compared with the sixteen argument references. -/
theorem r10_keeps : (r10 : List (HloOp τ sig (Elt F))).Forall fun op => ∀ a ∈ argRefs, (Proc.devRef .tc a : DevRef τ sig) ∉ op.writes := by
  simp only [List.Forall, StableHlo.nullary_writes, StableHlo.unary_writes, StableHlo.binary_writes, StableHlo.ternary_writes, StableHlo.reshape_writes]
  repeat' apply And.intro
  all_goals exact not_mem_single (by decide)

/-- No operation of the line writes an argument. -/
theorem ops_keeps : ∀ op ∈ (ops : List (HloOp τ sig (Elt F))), ∀ a ∈ argRefs, (Proc.devRef .tc a : DevRef τ sig) ∉ op.writes :=
  List.forall_iff_forall_mem.mp
    (forall_flatten ⟨r0_keeps, r1_keeps, r2_keeps, r3_keeps, r4_keeps, r5_keeps, r6_keeps, r7_keeps, r8_keeps, r9_keeps, r10_keeps⟩)

/-- An argument reference holds after the whole line what the device was launched with: a buffer no operation of
    the line writes keeps its contents. -/
theorem kept_of_mem (m : (ℓ : Loc nD τ sig) → Buf (Elt F) ℓ) (d : Dev nD) {a : Ref sig .tc} (ha : a ∈ argRefs) :
    StableHlo.after (ops (F := F)) (StableHlo.launchContents m d) (Proc.devRef .tc a) = m ((d.tc : Thread nD τ).loc a) :=
  StableHlo.after_of_forall_not_mem (b := Proc.devRef .tc a) _ _ fun op hop => ops_keeps op hop a ha

/-! ## The sixteen arguments, one by one -/

/-- No operation of the line writes argument 0: after the whole line it is as launched. -/
theorem kept_main_arg0 (m : (ℓ : Loc nD τ sig) → Buf (Elt F) ℓ) (d : Dev nD) :
    StableHlo.after (ops (F := F)) (StableHlo.launchContents m d) (Proc.devRef .tc main_arg0) = m ((d.tc : Thread nD τ).loc main_arg0) :=
  kept_of_mem m d (by decide)

/-- No operation of the line writes argument 1: after the whole line it is as launched. -/
theorem kept_main_arg1 (m : (ℓ : Loc nD τ sig) → Buf (Elt F) ℓ) (d : Dev nD) :
    StableHlo.after (ops (F := F)) (StableHlo.launchContents m d) (Proc.devRef .tc main_arg1) = m ((d.tc : Thread nD τ).loc main_arg1) :=
  kept_of_mem m d (by decide)

/-- No operation of the line writes argument 2: after the whole line it is as launched. -/
theorem kept_main_arg2 (m : (ℓ : Loc nD τ sig) → Buf (Elt F) ℓ) (d : Dev nD) :
    StableHlo.after (ops (F := F)) (StableHlo.launchContents m d) (Proc.devRef .tc main_arg2) = m ((d.tc : Thread nD τ).loc main_arg2) :=
  kept_of_mem m d (by decide)

/-- No operation of the line writes argument 3: after the whole line it is as launched. -/
theorem kept_main_arg3 (m : (ℓ : Loc nD τ sig) → Buf (Elt F) ℓ) (d : Dev nD) :
    StableHlo.after (ops (F := F)) (StableHlo.launchContents m d) (Proc.devRef .tc main_arg3) = m ((d.tc : Thread nD τ).loc main_arg3) :=
  kept_of_mem m d (by decide)

/-- No operation of the line writes argument 4: after the whole line it is as launched. -/
theorem kept_main_arg4 (m : (ℓ : Loc nD τ sig) → Buf (Elt F) ℓ) (d : Dev nD) :
    StableHlo.after (ops (F := F)) (StableHlo.launchContents m d) (Proc.devRef .tc main_arg4) = m ((d.tc : Thread nD τ).loc main_arg4) :=
  kept_of_mem m d (by decide)

/-- No operation of the line writes argument 5: after the whole line it is as launched. -/
theorem kept_main_arg5 (m : (ℓ : Loc nD τ sig) → Buf (Elt F) ℓ) (d : Dev nD) :
    StableHlo.after (ops (F := F)) (StableHlo.launchContents m d) (Proc.devRef .tc main_arg5) = m ((d.tc : Thread nD τ).loc main_arg5) :=
  kept_of_mem m d (by decide)

/-- No operation of the line writes argument 6: after the whole line it is as launched. -/
theorem kept_main_arg6 (m : (ℓ : Loc nD τ sig) → Buf (Elt F) ℓ) (d : Dev nD) :
    StableHlo.after (ops (F := F)) (StableHlo.launchContents m d) (Proc.devRef .tc main_arg6) = m ((d.tc : Thread nD τ).loc main_arg6) :=
  kept_of_mem m d (by decide)

/-- No operation of the line writes argument 7: after the whole line it is as launched. -/
theorem kept_main_arg7 (m : (ℓ : Loc nD τ sig) → Buf (Elt F) ℓ) (d : Dev nD) :
    StableHlo.after (ops (F := F)) (StableHlo.launchContents m d) (Proc.devRef .tc main_arg7) = m ((d.tc : Thread nD τ).loc main_arg7) :=
  kept_of_mem m d (by decide)

/-- No operation of the line writes argument 8: after the whole line it is as launched. -/
theorem kept_main_arg8 (m : (ℓ : Loc nD τ sig) → Buf (Elt F) ℓ) (d : Dev nD) :
    StableHlo.after (ops (F := F)) (StableHlo.launchContents m d) (Proc.devRef .tc main_arg8) = m ((d.tc : Thread nD τ).loc main_arg8) :=
  kept_of_mem m d (by decide)

/-- No operation of the line writes argument 9: after the whole line it is as launched. -/
theorem kept_main_arg9 (m : (ℓ : Loc nD τ sig) → Buf (Elt F) ℓ) (d : Dev nD) :
    StableHlo.after (ops (F := F)) (StableHlo.launchContents m d) (Proc.devRef .tc main_arg9) = m ((d.tc : Thread nD τ).loc main_arg9) :=
  kept_of_mem m d (by decide)

/-- No operation of the line writes argument 10: after the whole line it is as launched. -/
theorem kept_main_arg10 (m : (ℓ : Loc nD τ sig) → Buf (Elt F) ℓ) (d : Dev nD) :
    StableHlo.after (ops (F := F)) (StableHlo.launchContents m d) (Proc.devRef .tc main_arg10) = m ((d.tc : Thread nD τ).loc main_arg10) :=
  kept_of_mem m d (by decide)

/-- No operation of the line writes argument 11: after the whole line it is as launched. -/
theorem kept_main_arg11 (m : (ℓ : Loc nD τ sig) → Buf (Elt F) ℓ) (d : Dev nD) :
    StableHlo.after (ops (F := F)) (StableHlo.launchContents m d) (Proc.devRef .tc main_arg11) = m ((d.tc : Thread nD τ).loc main_arg11) :=
  kept_of_mem m d (by decide)

/-- No operation of the line writes argument 12: after the whole line it is as launched. -/
theorem kept_main_arg12 (m : (ℓ : Loc nD τ sig) → Buf (Elt F) ℓ) (d : Dev nD) :
    StableHlo.after (ops (F := F)) (StableHlo.launchContents m d) (Proc.devRef .tc main_arg12) = m ((d.tc : Thread nD τ).loc main_arg12) :=
  kept_of_mem m d (by decide)

/-- No operation of the line writes argument 13: after the whole line it is as launched. -/
theorem kept_main_arg13 (m : (ℓ : Loc nD τ sig) → Buf (Elt F) ℓ) (d : Dev nD) :
    StableHlo.after (ops (F := F)) (StableHlo.launchContents m d) (Proc.devRef .tc main_arg13) = m ((d.tc : Thread nD τ).loc main_arg13) :=
  kept_of_mem m d (by decide)

/-- No operation of the line writes argument 14: after the whole line it is as launched. -/
theorem kept_main_arg14 (m : (ℓ : Loc nD τ sig) → Buf (Elt F) ℓ) (d : Dev nD) :
    StableHlo.after (ops (F := F)) (StableHlo.launchContents m d) (Proc.devRef .tc main_arg14) = m ((d.tc : Thread nD τ).loc main_arg14) :=
  kept_of_mem m d (by decide)

/-- No operation of the line writes argument 15: after the whole line it is as launched. -/
theorem kept_main_arg15 (m : (ℓ : Loc nD τ sig) → Buf (Elt F) ℓ) (d : Dev nD) :
    StableHlo.after (ops (F := F)) (StableHlo.launchContents m d) (Proc.devRef .tc main_arg15) = m ((d.tc : Thread nD τ).loc main_arg15) :=
  kept_of_mem m d (by decide)

/-! ## The frame -/

/-- Every weakly fair execution of @main terminates, nothing faults, and the sixteen argument arrays end unchanged. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c =>
    ⟨(h c main_arg0).trans (kept_main_arg0 m c),
      (h c main_arg1).trans (kept_main_arg1 m c),
      (h c main_arg2).trans (kept_main_arg2 m c),
      (h c main_arg3).trans (kept_main_arg3 m c),
      (h c main_arg4).trans (kept_main_arg4 m c),
      (h c main_arg5).trans (kept_main_arg5 m c),
      (h c main_arg6).trans (kept_main_arg6 m c),
      (h c main_arg7).trans (kept_main_arg7 m c),
      (h c main_arg8).trans (kept_main_arg8 m c),
      (h c main_arg9).trans (kept_main_arg9 m c),
      (h c main_arg10).trans (kept_main_arg10 m c),
      (h c main_arg11).trans (kept_main_arg11 m c),
      (h c main_arg12).trans (kept_main_arg12 m c),
      (h c main_arg13).trans (kept_main_arg13 m c),
      (h c main_arg14).trans (kept_main_arg14 m c),
      (h c main_arg15).trans (kept_main_arg15 m c)⟩)
    (run m ρ)

end Cert.ReferenceIdeal.RefRun

end
-- ==== Proof.EdgeSpec.lean ====
/-
  The per-edge computation as one function of an edge's four gathered rows and the weights.

  For one edge with rows q, k (attention projections of its two end nodes), h (the masked embedding of its centre
  node) and z (the features of its neighbour), all of width 256:
    gate   a      = logistic (0 + sum_i q_i k_i)
    hidden g1_j   = max (sum_i z_i W1(i, j) + b1_j, 0)
    mlp    g2_d   = sum_j g1_j W2(j, d) + b2_d
    blend  ht_d   = a h_d + (1 - a) g2_d
    output o_c    = sum_d ht_d Wp(d, c) + bp_c          (c below 512)
  over the extended reals, the words of 0 and 1 read as the f32 patterns 0x00000000 and 0x3F800000. An output row
  depends on its own edge's rows only, so the whole [320000, 512] array is this function row by row (edgeLogits).
  Both programs compute these sums in this grouping, so setting either beside this function uses no law of the extended
  reals beyond 0 + x = x (a sum started from the word of zero against one with no initial term), and one fact about a
  literal: the word 0x3F800000 is the number 1, which makes the logistic and its spelling 1 / (1 + exp (-s)) with that
  word the same gate. In particular no finiteness.
-/
import Idealize.ShloMosaic.PureOps.Ideal
import Idealize.ShloMosaic.Lib.ValueIdx

noncomputable section

open scoped BigOperators

namespace Cert.EdgeSpec

open Idealize.ShloMosaic Idealize.ShloMosaic.ValueIdx

/-- The f32 word of 0.0 at the ideal values. -/
def zero : EReal := Ideal.ofBits .f32 0x00000000#32
/-- The f32 word of 1.0 at the ideal values. -/
def one : EReal := Ideal.ofBits .f32 0x3F800000#32

/-- The word 0x3F800000 is the real number 1: sign 0, exponent 127, fraction 0, so 2^23 * 2^(127 - 127 - 23). -/
theorem one_eq : one = 1 := by
  unfold one
  simp [Ideal.ofBits, Ideal.ieee]
  norm_cast
  norm_num

/-- The attention gate of one edge: the logistic of the inner product of its two projected rows, summed from zero. -/
def gate (q k : Fin 256 → EReal) : EReal := Ideal.logistic (zero + ∑ i : Fin 256, q i * k i)

/-- The same gate written as a quotient: 1 / (1 + exp (-s)) with the words of one, as a program that expands the
    logistic into negate, exponential, add and divide computes it. -/
theorem gate_eq_div (q k : Fin 256 → EReal) :
    gate q k = Ideal.div one (one + Ideal.exp (-(zero + ∑ i : Fin 256, q i * k i))) := by
  rw [one_eq]; rfl

/-- The hidden layer of the edge's two-layer network at unit j: relu of an affine map of the neighbour's features. -/
def hidden (z : Fin 256 → EReal) (W1 : Fin 256 → Fin 256 → EReal) (b1 : Fin 256 → EReal) (j : Fin 256) : EReal :=
  max ((∑ i : Fin 256, z i * W1 i j) + b1 j) zero

/-- The network's output at coordinate d: an affine map of the hidden layer. -/
def mlp (z : Fin 256 → EReal) (W1 : Fin 256 → Fin 256 → EReal) (b1 : Fin 256 → EReal)
    (W2 : Fin 256 → Fin 256 → EReal) (b2 : Fin 256 → EReal) (d : Fin 256) : EReal :=
  (∑ j : Fin 256, hidden z W1 b1 j * W2 j d) + b2 d

/-- The convex blend of the centre node's embedding and the network's output, weighted by the gate. -/
def blend (q k h z : Fin 256 → EReal) (W1 : Fin 256 → Fin 256 → EReal) (b1 : Fin 256 → EReal)
    (W2 : Fin 256 → Fin 256 → EReal) (b2 : Fin 256 → EReal) (d : Fin 256) : EReal :=
  gate q k * h d + (one - gate q k) * mlp z W1 b1 W2 b2 d

/-- One edge's logits: the blended row projected to the 512 vocabulary entries, plus the bias. -/
def rowOut (q k h z : Fin 256 → EReal) (W1 : Fin 256 → Fin 256 → EReal) (b1 : Fin 256 → EReal)
    (W2 : Fin 256 → Fin 256 → EReal) (b2 : Fin 256 → EReal) (Wp : Fin 256 → Fin 512 → EReal) (bp : Fin 512 → EReal)
    (c : Fin 512) : EReal :=
  (∑ d : Fin 256, blend q k h z W1 b1 W2 b2 d * Wp d c) + bp c

/-- Edge e's logit c from the four gathered [320000, 256] arrays and the weight arrays. -/
def edgeAt (Q K H Z : (⟨2, ![320000, 256]⟩ : Shape).Idx → EReal)
    (W1 : (⟨2, ![256, 256]⟩ : Shape).Idx → EReal) (b1 : (⟨1, ![256]⟩ : Shape).Idx → EReal)
    (W2 : (⟨2, ![256, 256]⟩ : Shape).Idx → EReal) (b2 : (⟨1, ![256]⟩ : Shape).Idx → EReal)
    (Wp : (⟨2, ![256, 512]⟩ : Shape).Idx → EReal) (bp : (⟨1, ![512]⟩ : Shape).Idx → EReal)
    (e : Fin 320000) (c : Fin 512) : EReal :=
  rowOut (fun i => Q (ix2 e i)) (fun i => K (ix2 e i)) (fun i => H (ix2 e i)) (fun i => Z (ix2 e i))
    (fun i j => W1 (ix2 i j)) (fun j => b1 (ix1 j)) (fun i j => W2 (ix2 i j)) (fun j => b2 (ix1 j))
    (fun i j => Wp (ix2 i j)) (fun j => bp (ix1 j)) c

/-- The whole [320000, 512] array of logits, row by row. -/
def edgeLogits (Q K H Z : (⟨2, ![320000, 256]⟩ : Shape).Idx → EReal)
    (W1 : (⟨2, ![256, 256]⟩ : Shape).Idx → EReal) (b1 : (⟨1, ![256]⟩ : Shape).Idx → EReal)
    (W2 : (⟨2, ![256, 256]⟩ : Shape).Idx → EReal) (b2 : (⟨1, ![256]⟩ : Shape).Idx → EReal)
    (Wp : (⟨2, ![256, 512]⟩ : Shape).Idx → EReal) (bp : (⟨1, ![512]⟩ : Shape).Idx → EReal) :
    (⟨2, ![320000, 512]⟩ : Shape).Idx → EReal :=
  fun i => edgeAt Q K H Z W1 b1 W2 b2 Wp bp (i 0) (i 1)

/-- The array at the index built from an edge and a vocabulary entry. -/
theorem edgeLogits_ix2 (Q K H Z : (⟨2, ![320000, 256]⟩ : Shape).Idx → EReal)
    (W1 : (⟨2, ![256, 256]⟩ : Shape).Idx → EReal) (b1 : (⟨1, ![256]⟩ : Shape).Idx → EReal)
    (W2 : (⟨2, ![256, 256]⟩ : Shape).Idx → EReal) (b2 : (⟨1, ![256]⟩ : Shape).Idx → EReal)
    (Wp : (⟨2, ![256, 512]⟩ : Shape).Idx → EReal) (bp : (⟨1, ![512]⟩ : Shape).Idx → EReal)
    (e : Fin 320000) (c : Fin 512) :
    edgeLogits Q K H Z W1 b1 W2 b2 Wp bp (ix2 e c) = edgeAt Q K H Z W1 b1 W2 b2 Wp bp e c := rfl

end Cert.EdgeSpec

end
-- ==== Proof.Assembly.lean ====
/-
  The final assembly. The kernel's idealization and the reference each end with the [320000, 512] array of edge
  logits. Three facts are taken as hypotheses here: the kernel's output array is the edge-logit function of its four
  gathered arrays and the six weight arrays; the reference's result buffer is the same function of its own four
  gathered arrays and the weights; and from memories that agree on the node-level arguments and the index arrays the
  four gathered arrays of the two programs are equal. From them: both programs run, end at one common array (the
  edge-logit function of the kernel's gathered arrays and the weights) and at the common index argument, and keep
  their arguments; with the three frames this is the whole claim.
-/
import proofs.«143230_j56916906606893_1_alg».proof.Defs
import proofs.«143230_j56916906606893_1_alg».proof.Proof.Gen.Kernel.Frame
import proofs.«143230_j56916906606893_1_alg».proof.Proof.Gen.KernelIdeal.Value
import proofs.«143230_j56916906606893_1_alg».proof.Proof.Gen.Pre_finite_inputs
import proofs.«143230_j56916906606893_1_alg».proof.Proof.RefKept
import proofs.«143230_j56916906606893_1_alg».proof.Proof.EdgeSpec

noncomputable section

namespace Cert.Proof.Assembly

open Idealize.ShloMosaic Idealize.ShloMosaic.TcCoe Idealize.SL.Sem

/-- A memory of the kernel's idealization at the ideal values. -/
abbrev KMem : Type := (ℓ : Loc KernelIdeal.nD KernelIdeal.τ KernelIdeal.sig) → Buf (Elt Ideal) ℓ
/-- A memory of the reference at the ideal values. -/
abbrev RMem : Type := (ℓ : Loc ReferenceIdeal.nD ReferenceIdeal.τ ReferenceIdeal.sig) → Buf (Elt Ideal) ℓ

/-- What a TensorCore buffer of the reference holds after the whole line of @main's operations. -/
abbrev refAfter (m' : RMem) (d : Dev ReferenceIdeal.nD) (b : Ref ReferenceIdeal.sig .tc) :
    Buf (Elt Ideal) ((d.tc : Thread ReferenceIdeal.nD ReferenceIdeal.τ).loc b) :=
  StableHlo.after (ReferenceIdeal.RefRun.ops (F := Ideal)) (StableHlo.launchContents m' d) (Proc.devRef .tc b)

/-- The kernel's output array after the run is the edge-logit function of the four gathered arrays the region is
    entered with and the six weight arrays as launched. -/
abbrev KernelValue : Prop :=
  ∀ (m : KMem) (c : Dev KernelIdeal.nD),
    (KernelIdeal.Gen.dats m 0 c).arrAt 10 KernelIdeal.cfg0.N
      = Cert.EdgeSpec.edgeLogits (KernelIdeal.Gen.V m c KernelIdeal.main_v12) (KernelIdeal.Gen.V m c KernelIdeal.main_v13)
          (KernelIdeal.Gen.V m c KernelIdeal.main_v14) (KernelIdeal.Gen.V m c KernelIdeal.main_v15)
          (m ((c.tc : Thread KernelIdeal.nD KernelIdeal.τ).loc KernelIdeal.main_arg6)) (m ((c.tc : Thread KernelIdeal.nD KernelIdeal.τ).loc KernelIdeal.main_arg7)) (m ((c.tc : Thread KernelIdeal.nD KernelIdeal.τ).loc KernelIdeal.main_arg8)) (m ((c.tc : Thread KernelIdeal.nD KernelIdeal.τ).loc KernelIdeal.main_arg9)) (m ((c.tc : Thread KernelIdeal.nD KernelIdeal.τ).loc KernelIdeal.main_arg10)) (m ((c.tc : Thread KernelIdeal.nD KernelIdeal.τ).loc KernelIdeal.main_arg11))

/-- The reference's result buffer after the line is the edge-logit function of its own four gathered arrays and the
    six weight arrays as launched. -/
abbrev ReferenceValue : Prop :=
  ∀ (m' : RMem) (d : Dev ReferenceIdeal.nD),
    refAfter m' d ReferenceIdeal.main_v44
      = Cert.EdgeSpec.edgeLogits (refAfter m' d ReferenceIdeal.main_v12) (refAfter m' d ReferenceIdeal.main_v13)
          (refAfter m' d ReferenceIdeal.main_v23) (refAfter m' d ReferenceIdeal.main_v24)
          (m' ((d.tc : Thread ReferenceIdeal.nD ReferenceIdeal.τ).loc ReferenceIdeal.main_arg6)) (m' ((d.tc : Thread ReferenceIdeal.nD ReferenceIdeal.τ).loc ReferenceIdeal.main_arg7)) (m' ((d.tc : Thread ReferenceIdeal.nD ReferenceIdeal.τ).loc ReferenceIdeal.main_arg8)) (m' ((d.tc : Thread ReferenceIdeal.nD ReferenceIdeal.τ).loc ReferenceIdeal.main_arg9)) (m' ((d.tc : Thread ReferenceIdeal.nD ReferenceIdeal.τ).loc ReferenceIdeal.main_arg10)) (m' ((d.tc : Thread ReferenceIdeal.nD ReferenceIdeal.τ).loc ReferenceIdeal.main_arg11))

/-- From memories agreeing on the two node-level arrays, the two attention projections' weights and biases, the
    edge list and the three index arrays, the four gathered arrays of the reference are those of the kernel. -/
abbrev GatheredAgree : Prop :=
  ∀ (m : KMem) (m' : RMem) (c : Dev KernelIdeal.nD),
    m' ((c.tc : Thread ReferenceIdeal.nD ReferenceIdeal.τ).loc ReferenceIdeal.main_arg0) = m ((c.tc : Thread KernelIdeal.nD KernelIdeal.τ).loc KernelIdeal.main_arg0) →
    m' ((c.tc : Thread ReferenceIdeal.nD ReferenceIdeal.τ).loc ReferenceIdeal.main_arg1) = m ((c.tc : Thread KernelIdeal.nD KernelIdeal.τ).loc KernelIdeal.main_arg1) →
    m' ((c.tc : Thread ReferenceIdeal.nD ReferenceIdeal.τ).loc ReferenceIdeal.main_arg2) = m ((c.tc : Thread KernelIdeal.nD KernelIdeal.τ).loc KernelIdeal.main_arg2) →
    m' ((c.tc : Thread ReferenceIdeal.nD ReferenceIdeal.τ).loc ReferenceIdeal.main_arg3) = m ((c.tc : Thread KernelIdeal.nD KernelIdeal.τ).loc KernelIdeal.main_arg3) →
    m' ((c.tc : Thread ReferenceIdeal.nD ReferenceIdeal.τ).loc ReferenceIdeal.main_arg4) = m ((c.tc : Thread KernelIdeal.nD KernelIdeal.τ).loc KernelIdeal.main_arg4) →
    m' ((c.tc : Thread ReferenceIdeal.nD ReferenceIdeal.τ).loc ReferenceIdeal.main_arg5) = m ((c.tc : Thread KernelIdeal.nD KernelIdeal.τ).loc KernelIdeal.main_arg5) →
    m' ((c.tc : Thread ReferenceIdeal.nD ReferenceIdeal.τ).loc ReferenceIdeal.main_arg12) = m ((c.tc : Thread KernelIdeal.nD KernelIdeal.τ).loc KernelIdeal.main_arg12) →
    m' ((c.tc : Thread ReferenceIdeal.nD ReferenceIdeal.τ).loc ReferenceIdeal.main_arg13) = m ((c.tc : Thread KernelIdeal.nD KernelIdeal.τ).loc KernelIdeal.main_arg13) →
    m' ((c.tc : Thread ReferenceIdeal.nD ReferenceIdeal.τ).loc ReferenceIdeal.main_arg14) = m ((c.tc : Thread KernelIdeal.nD KernelIdeal.τ).loc KernelIdeal.main_arg14) →
    m' ((c.tc : Thread ReferenceIdeal.nD ReferenceIdeal.τ).loc ReferenceIdeal.main_arg15) = m ((c.tc : Thread KernelIdeal.nD KernelIdeal.τ).loc KernelIdeal.main_arg15) →
      refAfter m' c ReferenceIdeal.main_v12 = KernelIdeal.Gen.V m c KernelIdeal.main_v12
      ∧ refAfter m' c ReferenceIdeal.main_v13 = KernelIdeal.Gen.V m c KernelIdeal.main_v13
      ∧ refAfter m' c ReferenceIdeal.main_v23 = KernelIdeal.Gen.V m c KernelIdeal.main_v14
      ∧ refAfter m' c ReferenceIdeal.main_v24 = KernelIdeal.Gen.V m c KernelIdeal.main_v15

/-- At the ideal values, from memories agreeing on the arguments, both programs run, end with the same array of edge
    logits and the same index argument, and keep their arguments. The common result is the edge-logit function of the
    kernel's gathered arrays and weights: the kernel's output is that by the first hypothesis; the reference's result
    is the same function of its own gathered arrays and weights by the second, its gathered arrays are the kernel's
    by the third, and its weights are the kernel's by the agreement. -/
theorem algebraic_of (hK : KernelValue) (hR : ReferenceValue) (hG : GatheredAgree) :
    Cert.algebraic_KernelIdeal_ReferenceIdeal (hKernelIdeal := KernelIdeal.Gen.facts) (hReferenceIdeal := ReferenceIdeal.Gen.facts)
      (hPre_finite_inputs := Pre_finite_inputs.Gen.facts) := by
  intro m ρ m' ρ' _ hagree
  refine ⟨fun c => Cert.EdgeSpec.edgeLogits (KernelIdeal.Gen.V m c KernelIdeal.main_v12) (KernelIdeal.Gen.V m c KernelIdeal.main_v13)
      (KernelIdeal.Gen.V m c KernelIdeal.main_v14) (KernelIdeal.Gen.V m c KernelIdeal.main_v15)
      (m ((c.tc : Thread KernelIdeal.nD KernelIdeal.τ).loc KernelIdeal.main_arg6)) (m ((c.tc : Thread KernelIdeal.nD KernelIdeal.τ).loc KernelIdeal.main_arg7)) (m ((c.tc : Thread KernelIdeal.nD KernelIdeal.τ).loc KernelIdeal.main_arg8)) (m ((c.tc : Thread KernelIdeal.nD KernelIdeal.τ).loc KernelIdeal.main_arg9)) (m ((c.tc : Thread KernelIdeal.nD KernelIdeal.τ).loc KernelIdeal.main_arg10)) (m ((c.tc : Thread KernelIdeal.nD KernelIdeal.τ).loc KernelIdeal.main_arg11)),
    fun c => m ((c.tc : Thread KernelIdeal.nD KernelIdeal.τ).loc KernelIdeal.main_arg14), ?_, ?_⟩
  · -- the kernel: the generated run names the output array; the first hypothesis reads it
    refine (θ_run KernelIdeal.defs _ _).mono (fun r h c => ?_) (KernelIdeal.Value.run_blocks (F := Ideal) m ρ)
    obtain ⟨hv, k0, k1, k2, k3, k4, k5, k6, k7, k8, k9, k10, k11, k12, k13, k14, k15⟩ := h c
    exact ⟨hv.trans (hK m c), k14, k0, k1, k2, k3, k4, k5, k6, k7, k8, k9, k10, k11, k12, k13, k14, k15⟩
  · -- the reference: every buffer ends at the fold of the line; the result by the second hypothesis, then the gathered
    -- arrays by the third and the weights by the agreement; the arguments are kept
    refine (θ_run ReferenceIdeal.defs _ _).mono (fun r h c => ?_) (ReferenceIdeal.RefRun.run (F := Ideal) m' ρ')
    obtain ⟨a0, a1, a2, a3, a4, a5, a6, a7, a8, a9, a10, a11, a12, a13, a14, a15⟩ := hagree c
    obtain ⟨g12, g13, g23, g24⟩ := hG m m' c a0 a1 a2 a3 a4 a5 a12 a13 a14 a15
    refine ⟨(h c ReferenceIdeal.main_v44).trans ((hR m' c).trans ?_),
      (h c ReferenceIdeal.main_arg14).trans ((ReferenceIdeal.RefRun.kept_main_arg14 m' c).trans a14),
      (h c ReferenceIdeal.main_arg0).trans (ReferenceIdeal.RefRun.kept_main_arg0 m' c),
      (h c ReferenceIdeal.main_arg1).trans (ReferenceIdeal.RefRun.kept_main_arg1 m' c),
      (h c ReferenceIdeal.main_arg2).trans (ReferenceIdeal.RefRun.kept_main_arg2 m' c),
      (h c ReferenceIdeal.main_arg3).trans (ReferenceIdeal.RefRun.kept_main_arg3 m' c),
      (h c ReferenceIdeal.main_arg4).trans (ReferenceIdeal.RefRun.kept_main_arg4 m' c),
      (h c ReferenceIdeal.main_arg5).trans (ReferenceIdeal.RefRun.kept_main_arg5 m' c),
      (h c ReferenceIdeal.main_arg6).trans (ReferenceIdeal.RefRun.kept_main_arg6 m' c),
      (h c ReferenceIdeal.main_arg7).trans (ReferenceIdeal.RefRun.kept_main_arg7 m' c),
      (h c ReferenceIdeal.main_arg8).trans (ReferenceIdeal.RefRun.kept_main_arg8 m' c),
      (h c ReferenceIdeal.main_arg9).trans (ReferenceIdeal.RefRun.kept_main_arg9 m' c),
      (h c ReferenceIdeal.main_arg10).trans (ReferenceIdeal.RefRun.kept_main_arg10 m' c),
      (h c ReferenceIdeal.main_arg11).trans (ReferenceIdeal.RefRun.kept_main_arg11 m' c),
      (h c ReferenceIdeal.main_arg12).trans (ReferenceIdeal.RefRun.kept_main_arg12 m' c),
      (h c ReferenceIdeal.main_arg13).trans (ReferenceIdeal.RefRun.kept_main_arg13 m' c),
      (h c ReferenceIdeal.main_arg14).trans (ReferenceIdeal.RefRun.kept_main_arg14 m' c),
      (h c ReferenceIdeal.main_arg15).trans (ReferenceIdeal.RefRun.kept_main_arg15 m' c)⟩
    rw [g12, g13, g23, g24, a6, a7, a8, a9, a10, a11]

/-- The whole claim from the three facts: the three frames are the generated ones and the reference's, the
    idealization rewrote nothing, and the algebraic claim is the theorem above. -/
theorem claim_of (hK : KernelValue) (hR : ReferenceValue) (hG : GatheredAgree) : Cert.Claim :=
  ⟨Cert.Kernel.Gen.facts, KernelIdeal.Gen.facts, ReferenceIdeal.Gen.facts, Pre_finite_inputs.Gen.facts,
    fun m ρ _ => Cert.Kernel.Gen.frame m ρ,
    fun m ρ _ => KernelIdeal.Gen.frame m ρ,
    fun m ρ _ => ReferenceIdeal.RefRun.frame (F := Ideal) m ρ,
    trivial,
    algebraic_of hK hR hG⟩

end Cert.Proof.Assembly

end
-- ==== Proof.LibPlainProduct.lean ====
/-
  A plain matrix product read at an entry, at the ideal values.

  For dimension numbers that contract the left operand's axis 1 with the right operand's axis 0, with no batch axis
  (an M × K matrix times a K × N matrix), whatever the evidence of their well-formedness: the contraction's sum at
  entry (a, b) is the sum over c < K of A(a, c) · B(c, b) (`sum_plain`); hence a matrix-unit product accumulated into
  the zero splat (`matmul_zero_plain_apply`) and the host's `dot_general` (`dotGeneral_plain_apply`) both read, at
  entry (a, b), as that sum. Any extents M, K, N.
-/
import Idealize.ShloMosaic.PureOps.Ideal.Laws
import Idealize.ShloMosaic.Lib.ValueIdx

noncomputable section

open scoped BigOperators

namespace Cert.LibPlainProduct

open Idealize.ShloMosaic Idealize.ShloMosaic.ValueIdx

variable {M K N : Nat}

/-- The dimension numbers of a plain M × K by K × N product over any evidence `w` of their well-formedness. -/
abbrev plainDims (w : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], w⟩

/-- The contraction's sum at entry (a, b): over the one contracted coordinate c, of A(a, c) · B(c, b). -/
theorem sum_plain (w : DotDims.WF ⟨2, ![M, K]⟩ ⟨2, ![K, N]⟩ ⟨2, ![M, N]⟩ [1] [0] [0] [1] [] [])
    (A : (⟨2, ![M, K]⟩ : Shape).Idx → EReal) (B : (⟨2, ![K, N]⟩ : Shape).Idx → EReal) (a : Fin M) (b : Fin N) :
    ∑ k : (plainDims w).contr.Idx, A ((plainDims w).lhsIdx (ix2 a b) k) * B ((plainDims w).rhsIdx (ix2 a b) k)
      = ∑ c : Fin K, A (ix2 a c) * B (ix2 c b) := by
  rw [← Equiv.sum_comp (contrEquiv1 (plainDims w) K rfl rfl).symm]
  refine Finset.sum_congr rfl fun c _ => ?_
  have c2 := contrEquiv1_symm_val (plainDims w) K rfl rfl c
  have l2 : (plainDims w).lhsIdx (ix2 a b) ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (plainDims w).rhsIdx (ix2 a b) ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A matrix-unit product accumulated into the zero splat, read at entry (a, b). -/
theorem matmul_zero_plain_apply {φ₁ φ₂ : FTy}
    (w : DotDims.WF ⟨2, ![M, K]⟩ ⟨2, ![K, N]⟩ ⟨2, ![M, N]⟩ [1] [0] [0] [1] [] []) (prec : Option ContractPrecision)
    (A : FVec Ideal ⟨2, ![M, K]⟩ φ₁) (B : FVec Ideal ⟨2, ![K, N]⟩ φ₂) (a : Fin M) (b : Fin N) :
    FloatOps.matmul (plainDims w) prec A B (constant ⟨2, ![M, N]⟩ .f32 0x00000000#32) (ix2 a b)
      = ∑ c : Fin K, A (ix2 a c) * B (ix2 c b) := by
  rw [Ideal.matmul_constant_zero_apply]
  exact sum_plain w A B a b

/-- The host's `dot_general` with those dimension numbers, read at entry (a, b). -/
theorem dotGeneral_plain_apply {φ₁ φ₂ : FTy}
    (w : DotDims.WF ⟨2, ![M, K]⟩ ⟨2, ![K, N]⟩ ⟨2, ![M, N]⟩ [1] [0] [0] [1] [] []) (prec : Option ContractPrecision)
    (A : FVec Ideal ⟨2, ![M, K]⟩ φ₁) (B : FVec Ideal ⟨2, ![K, N]⟩ φ₂) (a : Fin M) (b : Fin N) :
    Host.dotGeneral (plainDims w) prec A B (ix2 a b) = ∑ c : Fin K, A (ix2 a c) * B (ix2 c b) := by
  show FloatOps.dotGeneral _ prec _ A B (ix2 a b) = _
  rw [Ideal.dotGeneral_apply]
  exact sum_plain w A B a b

end Cert.LibPlainProduct

end
-- ==== Proof.LibBroadcastReads.lean ====
/-
  Four broadcasts between a vector and a matrix, read at an index: a vector of n entries as the one-row matrix [1, n];
  a vector of n entries as the one-column matrix [n, 1]; a one-row matrix [1, n] repeated down m rows; a one-column
  matrix [n, 1] repeated across m columns. Each reads the operand at the coordinate the broadcast keeps. And the
  host's sum of a matrix over its columns, read at a row: the initial value plus the sum of the row's entries.
-/
import Idealize.ShloMosaic.Lib.ValueIdx
import Idealize.ShloMosaic.Lib.Pipeline.Value
import Idealize.ShloMosaic.Lib.IdealHost

open scoped BigOperators

namespace Cert.LibBroadcastReads

open Idealize.ShloMosaic Idealize.ShloMosaic.ValueIdx

variable {α : Type}

/-- A vector as a one-row matrix, read at (u, j): the vector at j. -/
theorem vecRow_apply {n : ℕ} (h : (⟨1, ![n]⟩ : Shape).BroadcastsInDim (⟨2, ![1, n]⟩ : Shape) ![1])
    (x : (⟨1, ![n]⟩ : Shape).Idx → α) (u : Fin 1) (j : Fin n) :
    broadcastInDim (⟨2, ![1, n]⟩ : Shape) ![1] h x (ix2 u j) = x (ix1 j) := by
  refine broadcastInDim_apply ![1] h x (ix2 u j) (ix1 j) ?_
  intro a
  fin_cases a
  show j.val = if n = 1 then 0 else j.val
  split_ifs with hn
  · have := j.isLt; omega
  · rfl

/-- A vector as a one-column matrix, read at (r, u): the vector at r. -/
theorem vecCol_apply {n : ℕ} (h : (⟨1, ![n]⟩ : Shape).BroadcastsInDim (⟨2, ![n, 1]⟩ : Shape) ![0])
    (x : (⟨1, ![n]⟩ : Shape).Idx → α) (r : Fin n) (u : Fin 1) :
    broadcastInDim (⟨2, ![n, 1]⟩ : Shape) ![0] h x (ix2 r u) = x (ix1 r) := by
  refine broadcastInDim_apply ![0] h x (ix2 r u) (ix1 r) ?_
  intro a
  fin_cases a
  show r.val = if n = 1 then 0 else r.val
  split_ifs with hn
  · have := r.isLt; omega
  · rfl

/-- A one-row matrix repeated down m rows, read at (r, j): the row at (0, j). -/
theorem rowDown_apply {m n : ℕ} (h : (⟨2, ![1, n]⟩ : Shape).BroadcastsInDim (⟨2, ![m, n]⟩ : Shape) ![0, 1])
    (y : (⟨2, ![1, n]⟩ : Shape).Idx → α) (r : Fin m) (j : Fin n) :
    broadcastInDim (⟨2, ![m, n]⟩ : Shape) ![0, 1] h y (ix2 r j) = y (ix2 (0 : Fin 1) j) := by
  refine broadcastInDim_apply ![0, 1] h y (ix2 r j) (ix2 (0 : Fin 1) j) ?_
  intro a
  fin_cases a
  · show (0 : ℕ) = if (1 : ℕ) = 1 then 0 else _
    simp
  · show j.val = if n = 1 then 0 else j.val
    split_ifs with hn
    · have := j.isLt; omega
    · rfl

/-- A one-column matrix repeated across m columns, read at (r, j): the column at (r, 0). -/
theorem colAcross_apply {n m : ℕ} (h : (⟨2, ![n, 1]⟩ : Shape).BroadcastsInDim (⟨2, ![n, m]⟩ : Shape) ![0, 1])
    (y : (⟨2, ![n, 1]⟩ : Shape).Idx → α) (r : Fin n) (j : Fin m) :
    broadcastInDim (⟨2, ![n, m]⟩ : Shape) ![0, 1] h y (ix2 r j) = y (ix2 r (0 : Fin 1)) := by
  refine broadcastInDim_apply ![0, 1] h y (ix2 r j) (ix2 r (0 : Fin 1)) ?_
  intro a
  fin_cases a
  · show r.val = if n = 1 then 0 else r.val
    split_ifs with hn
    · have := r.isLt; omega
    · rfl
  · show (0 : ℕ) = if (1 : ℕ) = 1 then 0 else _
    simp

/-- The source index of a matrix over row r with column k inserted is (r, k). -/
theorem lift_row {m n : ℕ} (h : (⟨2, ![m, n]⟩ : Shape).Reduces [1] (⟨1, ![m]⟩ : Shape)) (r : Fin m) (k : Fin n) :
    h.lift (ix1 r) k = ix2 r k := by
  funext c
  apply Fin.ext
  match c with
  | ⟨0, _⟩ => rfl
  | ⟨1, _⟩ => rfl

/-- The host's sum of a matrix over its columns from an initial value, read at row r: the initial value plus the sum
    of the row's entries. -/
theorem hostRowSum_apply {m n : ℕ} {u : Shape} (x : FVec Ideal (⟨2, ![m, n]⟩ : Shape) .f32) (init : u.Idx → Ideal .f32)
    (h' : (⟨2, ![m, n]⟩ : Shape).ReducesTo [1] (⟨1, ![m]⟩ : Shape)) (h : (⟨2, ![m, n]⟩ : Shape).Reduces [1] (⟨1, ![m]⟩ : Shape))
    (hu : 0 < u.numel) (r : Fin m) :
    Host.reduceAdd x init h' hu (ix1 r) = init (Shape.Idx.first hu) + ∑ k : Fin n, x (ix2 r k) := by
  refine (hostReduceAdd_apply x init h' hu (ix1 r)).trans ?_
  refine (Ideal.hostReduceAdd_single h' h x _ (ix1 r)).trans ?_
  refine congrArg (init (Shape.Idx.first hu) + ·) ?_
  exact Finset.sum_congr rfl fun k _ => congrArg x (lift_row h r k)

end Cert.LibBroadcastReads
-- ==== Proof.LibColumnCast.lean ====
/-
  A vector of length n and the column [n, 1] that holds the same elements: a shape cast between the two keeps
  every element's row-major position, which is i for the vector's element i and i · 1 + 0 for the column's
  element (i, 0). So the cast to a column reads the vector at the row coordinate, and the cast back reads the
  column at (i, 0).
-/
import Idealize.ShloMosaic.Lib.ValueIdx
import Idealize.ShloMosaic.Lib.Pipeline.Value
import Idealize.ShloMosaic.Lib.ValueLayout

namespace Idealize.ShloMosaic.ColumnCast

open Idealize.ShloMosaic Idealize.ShloMosaic.ValueIdx

/-- A vector of length n cast to a column [n, 1] reads, at (i, u), the vector at i, whatever the unit
    coordinate u: the row-major positions are i · 1 + u with u = 0, and i. -/
theorem shapeCast_col_apply {α : Type} {n : ℕ} (x : (⟨1, ![n]⟩ : Shape).Idx → α)
    (h : (⟨1, ![n]⟩ : Shape).ShapeCasts (⟨2, ![n, 1]⟩ : Shape)) (i : Fin n) (u : Fin 1) :
    shapeCast (⟨2, ![n, 1]⟩ : Shape) x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [n, 1] cast to a vector of length n reads, at i, the column at (i, 0): the row-major positions
    are i · 1 + 0 and i. -/
theorem shapeCast_uncol_apply {α : Type} {n : ℕ} (x : (⟨2, ![n, 1]⟩ : Shape).Idx → α)
    (h : (⟨2, ![n, 1]⟩ : Shape).ShapeCasts (⟨1, ![n]⟩ : Shape)) (i : Fin n) :
    shapeCast (⟨1, ![n]⟩ : Shape) x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ColumnCast
-- ==== Proof.LibColumn.lean ====
/-
  A column broadcast along rows, read at an index.

  An `[a, 1]` array broadcast to `[a, b]` repeats each row's one entry across the row: at `(p, c)` it reads the
  operand at `(p, 0)`.
-/
import Idealize.ShloMosaic.Lib.Pipeline.Value
import Idealize.ShloMosaic.Lib.ValueIdx

noncomputable section

namespace Idealize.ShloMosaic.ColumnBroadcast

open Idealize.ShloMosaic Idealize.ShloMosaic.ValueIdx

/-- An `[a, 1]` array broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnBroadcast

end
-- ==== Proof.KernelRow.lean ====
/-
  The kernel body's arithmetic at one element.

  A grid point loads a block of 1280 consecutive edges from each of the four gathered arrays, and the weights whole.
  Row r of what it stores depends on row r of each block only: the three matrix products contract over the feature
  axis of one row, the lane sum runs along one row, and every other operation is pointwise or repeats a row's or a
  column's one entry. Read at (r, c), the stored block is the per-edge function of the four rows (EdgeSpec.rowOut).
  The only facts about the extended reals used are 0 + x = x (the lane sum has no initial term, the specification
  starts its sum from the word of zero) and that a change of float format is the identity.
-/
import proofs.«143230_j56916906606893_1_alg».proof.Proof.Gen.KernelIdeal.Skeleton
import proofs.«143230_j56916906606893_1_alg».proof.Proof.EdgeSpec
import proofs.«143230_j56916906606893_1_alg».proof.Proof.LibPlainProduct
import proofs.«143230_j56916906606893_1_alg».proof.Proof.LibBroadcastReads
import proofs.«143230_j56916906606893_1_alg».proof.Proof.LibColumnCast
import proofs.«143230_j56916906606893_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.EdgeValue

open Cert.KernelIdeal Cert.KernelIdeal.Gen Idealize.ShloMosaic Idealize.ShloMosaic.ValueIdx

/-- The word of zero is the number zero. -/
theorem zero_eq : Cert.EdgeSpec.zero = 0 := Ideal.ofBits_zero_f32

/-- A [1280, 256] by [256, 256] product into the zero splat, at (r, j): the sum over the contracted feature. -/
theorem prod256 {φ₁ φ₂ : FTy} (A : FVec Ideal S1280x256 φ₁) (B : FVec Ideal S256x256 φ₂) (r : Fin 1280) (j : Fin 256) :
    matmul dot_S1280x256_S256x256_S1280x256_1_0_0_1_n_n none A B (constant S1280x256 .f32 0x00000000#32) (ix2 r j)
      = ∑ i : Fin 256, A (ix2 r i) * B (ix2 i j) :=
  Cert.LibPlainProduct.matmul_zero_plain_apply dot_S1280x256_S256x256_S1280x256_1_0_0_1_n_n_wf none A B r j

/-- A [1280, 256] by [256, 512] product into the zero splat, at (r, c). -/
theorem prod512 {φ₁ φ₂ : FTy} (A : FVec Ideal S1280x256 φ₁) (B : FVec Ideal S256x512 φ₂) (r : Fin 1280) (c : Fin 512) :
    matmul dot_S1280x256_S256x512_S1280x512_1_0_0_1_n_n none A B (constant S1280x512 .f32 0x00000000#32) (ix2 r c)
      = ∑ d : Fin 256, A (ix2 r d) * B (ix2 d c) :=
  Cert.LibPlainProduct.matmul_zero_plain_apply dot_S1280x256_S256x512_S1280x512_1_0_0_1_n_n_wf none A B r c

/-- The lane sum of a block along its rows, at row r: the sum of the row's 256 entries. -/
theorem rowSum (x : FVec Ideal S1280x256 .f32) (r : Fin 1280) :
    multiReduction .add [1] S1280 x 0x00000000#32 reduces_S1280x256_S1280 (.inl rfl) rfl (ix1 r)
      = ∑ i : Fin 256, x (ix2 r i) := by
  refine (Ideal.multiReduction_add_single x 0x00000000#32 reduces_S1280x256_S1280 (.inl rfl) rfl (ix1 r)).trans ?_
  exact Finset.sum_congr rfl fun k _ => congrArg x (Cert.LibBroadcastReads.lift_row reduces_S1280x256_S1280 r k)

/-- The gate column of a block, as the body computes it from the blocks of the two projected arrays. -/
def gateCol (v0 v2 : Vec Ideal S1280x256 .f32) : FVec Ideal S1280x1 .f32 :=
  logistic (shapeCast S1280x1 (multiReduction .add [1] S1280
    (mulf (shapeCast S1280x256 v0 shapeCasts_S1280x256_S1280x256) (shapeCast S1280x256 v2 shapeCasts_S1280x256_S1280x256))
    0x00000000#32 reduces_S1280x256_S1280 (.inl rfl) rfl) shapeCasts_S1280_S1280x1)

/-- At row r the gate column is the logistic of the inner product of the two projected rows. -/
theorem gateCol_apply (v0 v2 : Vec Ideal S1280x256 .f32) (r : Fin 1280) (u : Fin 1) :
    gateCol v0 v2 (ix2 r u) = Cert.EdgeSpec.gate (fun i => v0 (ix2 r i)) (fun i => v2 (ix2 r i)) := by
  unfold gateCol
  show Ideal.logistic (shapeCast S1280x1 _ shapeCasts_S1280_S1280x1 (ix2 r u)) = Ideal.logistic (Cert.EdgeSpec.zero + _)
  refine congrArg Ideal.logistic ?_
  rw [Idealize.ShloMosaic.ColumnCast.shapeCast_col_apply, rowSum, zero_eq, zero_add, shapeCast_self, shapeCast_self]
  rfl

/-- The hidden layer of a block, as the body computes it from the feature block, the first weight matrix and its bias row. -/
def hidBlk (v8 : Vec Ideal S1280x256 .f32) (v11 : Vec Ideal S256x256 .f32) (v14 : Vec Ideal S1x256 .f32) : FVec Ideal S1280x256 .f32 :=
  maximumf (addf (matmul dot_S1280x256_S256x256_S1280x256_1_0_0_1_n_n none
        (truncf .bf16 (shapeCast S1280x256 v8 shapeCasts_S1280x256_S1280x256) bitsLt_bf16_f32) (truncf .bf16 v11 bitsLt_bf16_f32)
        (constant S1280x256 .f32 0x00000000#32))
      (broadcastTo S1280x256 (shapeCast S1x256 v14 shapeCasts_S1x256_S1x256) broadcasts_S1x256_S1280x256))
    (broadcast S1280x256 (Scalar.ofBits .f32 0x00000000#32))

/-- At (r, j) the hidden layer is relu of the affine map of the neighbour's feature row. -/
theorem hidBlk_apply (v8 : Vec Ideal S1280x256 .f32) (v11 : Vec Ideal S256x256 .f32) (v14 : Vec Ideal S1x256 .f32)
    (r : Fin 1280) (j : Fin 256) :
    hidBlk v8 v11 v14 (ix2 r j)
      = Cert.EdgeSpec.hidden (fun i => v8 (ix2 r i)) (fun i j => v11 (ix2 i j)) (fun j => v14 (ix2 (0 : Fin 1) j)) j := by
  unfold hidBlk
  show max (matmul _ none _ _ _ (ix2 r j) + broadcastTo S1280x256 _ broadcasts_S1x256_S1280x256 (ix2 r j)) _ = max (_ + _) _
  rw [prod256, shapeCast_self, shapeCast_self, broadcastTo_1b_ab_apply]
  rfl

/-- The network's output block: the second affine map of the hidden layer (rounded to bf16 on the way in, which changes
    nothing here). -/
def mlpBlk (v8 : Vec Ideal S1280x256 .f32) (v11 : Vec Ideal S256x256 .f32) (v14 : Vec Ideal S1x256 .f32)
    (v21 : Vec Ideal S256x256 .f32) (v24 : Vec Ideal S1x256 .f32) : FVec Ideal S1280x256 .f32 :=
  addf (matmul dot_S1280x256_S256x256_S1280x256_1_0_0_1_n_n none
      (truncf .bf16 (hidBlk v8 v11 v14) bitsLt_bf16_f32) (truncf .bf16 v21 bitsLt_bf16_f32) (constant S1280x256 .f32 0x00000000#32))
    (broadcastTo S1280x256 (shapeCast S1x256 v24 shapeCasts_S1x256_S1x256) broadcasts_S1x256_S1280x256)

/-- At (r, d) the network's output is the affine map of the row's hidden layer. -/
theorem mlpBlk_apply (v8 : Vec Ideal S1280x256 .f32) (v11 : Vec Ideal S256x256 .f32) (v14 : Vec Ideal S1x256 .f32)
    (v21 : Vec Ideal S256x256 .f32) (v24 : Vec Ideal S1x256 .f32) (r : Fin 1280) (d : Fin 256) :
    mlpBlk v8 v11 v14 v21 v24 (ix2 r d)
      = Cert.EdgeSpec.mlp (fun i => v8 (ix2 r i)) (fun i j => v11 (ix2 i j)) (fun j => v14 (ix2 (0 : Fin 1) j))
          (fun i j => v21 (ix2 i j)) (fun j => v24 (ix2 (0 : Fin 1) j)) d := by
  unfold mlpBlk Cert.EdgeSpec.mlp
  show matmul _ none _ _ _ (ix2 r d) + broadcastTo S1280x256 _ broadcasts_S1x256_S1280x256 (ix2 r d) = _ + _
  rw [prod256, shapeCast_self, broadcastTo_1b_ab_apply]
  refine congrArg₂ (· + ·) (Finset.sum_congr rfl fun j _ => ?_) rfl
  exact congrArg (· * v21 (ix2 j d)) (hidBlk_apply v8 v11 v14 r j)

/-- The blended hidden block the body hands to the final projection is the gate column spread across the columns times
    the embedding block, plus one minus it times the network's output block. -/
theorem pay2_eq (v0 v2 v8 : Vec Ideal S1280x256 .f32) (v11 : Vec Ideal S256x256 .f32) (v14 : Vec Ideal S1x256 .f32)
    (v21 : Vec Ideal S256x256 .f32) (v24 : Vec Ideal S1x256 .f32) (v28 : Vec Ideal S1280x256 .f32) :
    k0_pay2 (F := Ideal) v0 v2 v8 v11 v14 v21 v24 v28
      = addf (mulf (broadcastTo S1280x256 (gateCol v0 v2) broadcasts_S1280x1_S1280x256) (shapeCast S1280x256 v28 shapeCasts_S1280x256_S1280x256))
          (mulf (broadcastTo S1280x256 (subf (broadcast S1280x1 (Scalar.ofBits .f32 0x3F800000#32)) (gateCol v0 v2)) broadcasts_S1280x1_S1280x256)
            (mlpBlk v8 v11 v14 v21 v24)) := rfl

/-- The blended block at (r, d): the convex blend of the centre node's embedding and the network's output by the gate. -/
theorem blendAt (v0 v2 v8 : Vec Ideal S1280x256 .f32) (v11 : Vec Ideal S256x256 .f32) (v14 : Vec Ideal S1x256 .f32)
    (v21 : Vec Ideal S256x256 .f32) (v24 : Vec Ideal S1x256 .f32) (v28 : Vec Ideal S1280x256 .f32) (r : Fin 1280) (d : Fin 256) :
    k0_pay2 (F := Ideal) v0 v2 v8 v11 v14 v21 v24 v28 (ix2 r d)
      = Cert.EdgeSpec.blend (fun i => v0 (ix2 r i)) (fun i => v2 (ix2 r i)) (fun i => v28 (ix2 r i)) (fun i => v8 (ix2 r i))
          (fun i j => v11 (ix2 i j)) (fun j => v14 (ix2 (0 : Fin 1) j)) (fun i j => v21 (ix2 i j)) (fun j => v24 (ix2 (0 : Fin 1) j)) d := by
  rw [pay2_eq]
  unfold Cert.EdgeSpec.blend
  show broadcastTo S1280x256 (gateCol v0 v2) broadcasts_S1280x1_S1280x256 (ix2 r d) * shapeCast S1280x256 v28 shapeCasts_S1280x256_S1280x256 (ix2 r d)
      + broadcastTo S1280x256 (subf (broadcast S1280x1 (Scalar.ofBits .f32 0x3F800000#32)) (gateCol v0 v2)) broadcasts_S1280x1_S1280x256 (ix2 r d)
        * mlpBlk v8 v11 v14 v21 v24 (ix2 r d) = _
  rw [Idealize.ShloMosaic.ColumnBroadcast.broadcastTo_a1_ab_apply, Idealize.ShloMosaic.ColumnBroadcast.broadcastTo_a1_ab_apply,
    shapeCast_self, mlpBlk_apply]
  show gateCol v0 v2 (ix2 r (0 : Fin 1)) * _ + (Cert.EdgeSpec.one - gateCol v0 v2 (ix2 r (0 : Fin 1))) * _ = _
  rw [gateCol_apply]

/-- The final projection of a block at (r, c): the blended row against column c of the projection matrix, plus the bias. -/
theorem pay1At (v36 : FVec Ideal S1280x256 .f32) (v37 : Vec Ideal S256x512 .f32) (v41 : Vec Ideal S1x512 .f32)
    (r : Fin 1280) (c : Fin 512) :
    k0_pay1 (F := Ideal) v36 v37 v41 (ix2 r c) = (∑ d : Fin 256, v36 (ix2 r d) * v37 (ix2 d c)) + v41 (ix2 (0 : Fin 1) c) := by
  unfold k0_pay1
  show matmul _ none _ _ _ (ix2 r c) + broadcastTo S1280x512 _ broadcasts_S1x512_S1280x512 (ix2 r c) = _
  rw [prod512, shapeCast_self, broadcastTo_1b_ab_apply]
  rfl

/-- WHAT A GRID POINT STORES, at (r, c): the per-edge function of row r of the four gathered blocks and the weights. The
    blocks are named as the pipeline's windows order them: x0, x1 the two projected arrays, x2 the embeddings, x3 the
    features, x4 … x9 the weights (the two bias rows and the projection's bias as one-row matrices). -/
theorem payloadAt (x0 x1 x2 x3 : Vec Ideal S1280x256 .f32) (x4 : Vec Ideal S256x256 .f32) (x5 : Vec Ideal S1x256 .f32)
    (x6 : Vec Ideal S256x256 .f32) (x7 : Vec Ideal S1x256 .f32) (x8 : Vec Ideal S256x512 .f32) (x9 : Vec Ideal S1x512 .f32)
    (r : Fin 1280) (c : Fin 512) :
    k0_pay1 (F := Ideal) (k0_pay2 x0 x1 x3 x4 x5 x6 x7 x2) x8 x9 (ix2 r c)
      = Cert.EdgeSpec.rowOut (fun i => x0 (ix2 r i)) (fun i => x1 (ix2 r i)) (fun i => x2 (ix2 r i)) (fun i => x3 (ix2 r i))
          (fun i j => x4 (ix2 i j)) (fun j => x5 (ix2 (0 : Fin 1) j)) (fun i j => x6 (ix2 i j)) (fun j => x7 (ix2 (0 : Fin 1) j))
          (fun i j => x8 (ix2 i j)) (fun j => x9 (ix2 (0 : Fin 1) j)) c := by
  rw [pay1At]
  unfold Cert.EdgeSpec.rowOut
  refine congrArg₂ (· + ·) (Finset.sum_congr rfl fun d _ => ?_) rfl
  exact congrArg (· * x8 (ix2 d c)) (blendAt x0 x1 x3 x4 x5 x6 x7 x2 r d)

end Cert.KernelIdeal.EdgeValue

end
-- ==== Proof.LibRowCast.lean ====
/-
  A vector of length n and the row [1, n] that holds the same elements: a shape cast between the two keeps every
  element's row-major position, which is j for the vector's element j and 0 · n + j for the row's element (0, j).
  So the cast to a row reads the vector at the column coordinate, and the cast back reads the row at (0, j).
-/
import Idealize.ShloMosaic.Lib.ValueIdx
import Idealize.ShloMosaic.Lib.Pipeline.Value
import Idealize.ShloMosaic.Lib.ValueLayout

namespace Idealize.ShloMosaic.RowCast

open Idealize.ShloMosaic Idealize.ShloMosaic.ValueIdx

/-- A vector of length n cast to a row [1, n] reads, at (u, j), the vector at j, whatever the unit coordinate u:
    the row-major positions are u · n + j with u = 0, and j. -/
theorem shapeCast_row_apply {α : Type} {n : ℕ} (x : (⟨1, ![n]⟩ : Shape).Idx → α)
    (h : (⟨1, ![n]⟩ : Shape).ShapeCasts (⟨2, ![1, n]⟩ : Shape)) (u : Fin 1) (j : Fin n) :
    shapeCast (⟨2, ![1, n]⟩ : Shape) x h (ix2 u j) = x (ix1 j) :=
  shapeCast_apply x h _ _ (by
    have hu : u.val = 0 := by omega
    rw [Shape.rowMajor_val_two, Shape.rowMajor_val_one]
    show j.val = u.val * n + j.val
    rw [hu, Nat.zero_mul, Nat.zero_add])

/-- A row [1, n] cast to a vector of length n reads, at j, the row at (0, j): the row-major positions are
    0 · n + j and j. -/
theorem shapeCast_unrow_apply {α : Type} {n : ℕ} (x : (⟨2, ![1, n]⟩ : Shape).Idx → α)
    (h : (⟨2, ![1, n]⟩ : Shape).ShapeCasts (⟨1, ![n]⟩ : Shape)) (j : Fin n) :
    shapeCast (⟨1, ![n]⟩ : Shape) x h (ix1 j) = x (ix2 (0 : Fin 1) j) :=
  shapeCast_apply x h _ _ (by
    rw [Shape.rowMajor_val_two, Shape.rowMajor_val_one]
    show (0 : ℕ) * n + j.val = j.val
    rw [Nat.zero_mul, Nat.zero_add])

end Idealize.ShloMosaic.RowCast
-- ==== Proof.KernelArray.lean ====
/-
  From what each grid point stores to the whole output array.

  The grid has 250 points; point t handles the 1280 consecutive edges 1280 t, …, 1280 t + 1279: its blocks of the four
  gathered arrays and of the output are rows 1280 t … of those arrays, and its blocks of the six weight arrays are the
  arrays whole (the two bias vectors and the projection's bias reach the region as one-row matrices, reshaped on the
  host). So what point t writes back is block t of ONE function of the arrays the region finds, the per-edge function
  row by row (EdgeSpec.edgeLogits); the 250 blocks cover the [320000, 512] output (edge e is in block e / 1280), hence
  after the run the output array is that function.
-/
import proofs.«143230_j56916906606893_1_alg».proof.Proof.Gen.KernelIdeal.Value
import proofs.«143230_j56916906606893_1_alg».proof.Proof.KernelRow
import proofs.«143230_j56916906606893_1_alg».proof.Proof.LibRowCast
import Idealize.ShloMosaic.Lib.Pipeline.Value
import Idealize.ShloMosaic.Lib.StableHlo.Run

noncomputable section

namespace Cert.KernelIdeal.EdgeValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The index maps, decided over the 250 grid points -/

/-- The output's block index: column block 0, row block below 250. -/
theorem idxOut : ∀ t : Fin cfg0.N, win0_10.index t (1 : Fin 2) = 0 ∧ win0_10.index t (0 : Fin 2) ≤ 249 :=
  (by decide +kernel : ∀ t : Fin grid0.N, _)
/-- Gathered window 0 moves with the output along the edges. -/
theorem idxRow0 : ∀ t : Fin cfg0.N, win0_0.index t (0 : Fin 2) = win0_10.index t (0 : Fin 2) ∧ win0_0.index t (1 : Fin 2) = 0 :=
  (by decide +kernel : ∀ t : Fin grid0.N, _)
/-- Gathered window 1 moves with the output along the edges. -/
theorem idxRow1 : ∀ t : Fin cfg0.N, win0_1.index t (0 : Fin 2) = win0_10.index t (0 : Fin 2) ∧ win0_1.index t (1 : Fin 2) = 0 :=
  (by decide +kernel : ∀ t : Fin grid0.N, _)
/-- Gathered window 2 moves with the output along the edges. -/
theorem idxRow2 : ∀ t : Fin cfg0.N, win0_2.index t (0 : Fin 2) = win0_10.index t (0 : Fin 2) ∧ win0_2.index t (1 : Fin 2) = 0 :=
  (by decide +kernel : ∀ t : Fin grid0.N, _)
/-- Gathered window 3 moves with the output along the edges. -/
theorem idxRow3 : ∀ t : Fin cfg0.N, win0_3.index t (0 : Fin 2) = win0_10.index t (0 : Fin 2) ∧ win0_3.index t (1 : Fin 2) = 0 :=
  (by decide +kernel : ∀ t : Fin grid0.N, _)
/-- Weight window 4 stays at its one block. -/
theorem idxFix4 : ∀ t : Fin cfg0.N, win0_4.index t (0 : Fin 2) = 0 ∧ win0_4.index t (1 : Fin 2) = 0 :=
  (by decide +kernel : ∀ t : Fin grid0.N, _)
/-- Weight window 5 stays at its one block. -/
theorem idxFix5 : ∀ t : Fin cfg0.N, win0_5.index t (0 : Fin 2) = 0 ∧ win0_5.index t (1 : Fin 2) = 0 :=
  (by decide +kernel : ∀ t : Fin grid0.N, _)
/-- Weight window 6 stays at its one block. -/
theorem idxFix6 : ∀ t : Fin cfg0.N, win0_6.index t (0 : Fin 2) = 0 ∧ win0_6.index t (1 : Fin 2) = 0 :=
  (by decide +kernel : ∀ t : Fin grid0.N, _)
/-- Weight window 7 stays at its one block. -/
theorem idxFix7 : ∀ t : Fin cfg0.N, win0_7.index t (0 : Fin 2) = 0 ∧ win0_7.index t (1 : Fin 2) = 0 :=
  (by decide +kernel : ∀ t : Fin grid0.N, _)
/-- Weight window 8 stays at its one block. -/
theorem idxFix8 : ∀ t : Fin cfg0.N, win0_8.index t (0 : Fin 2) = 0 ∧ win0_8.index t (1 : Fin 2) = 0 :=
  (by decide +kernel : ∀ t : Fin grid0.N, _)
/-- Weight window 9 stays at its one block. -/
theorem idxFix9 : ∀ t : Fin cfg0.N, win0_9.index t (0 : Fin 2) = 0 ∧ win0_9.index t (1 : Fin 2) = 0 :=
  (by decide +kernel : ∀ t : Fin grid0.N, _)
/-- Every row block is some point's. -/
theorem idx_onto : ∀ q0 : Fin 250, ∃ t : Fin cfg0.N, win0_10.index t = ![q0.val, 0] :=
  (by decide +kernel : ∀ q0 : Fin 250, ∃ t : Fin grid0.N, win0_10.index t = ![q0.val, 0])

/-- The edge that row r of grid point t's blocks belongs to. -/
def edgeOf (t : Fin cfg0.N) (r : Fin 1280) : Fin 320000 :=
  ⟨win0_10.index t (0 : Fin 2) * 1280 + r.val, by have h := (idxOut t).2; have hr := r.isLt; omega⟩

/-! ## The windows' blocks read off the arrays the region finds -/

/-- Grid point t's block of window 0, at row r: row `edgeOf t r` of the gathered array. -/
theorem blk0 (c : Dev nD) (t : Fin cfg0.N) (r : Fin 1280) (i : Fin 256) :
    iblk m c 0 t (ix2 r i) = V m c main_v12 (ix2 (edgeOf t r) i) := by
  obtain ⟨e0, e1⟩ := idxRow0 t
  show V m c main_v12 (((cfg0.win 0).blk t).view.emb (ix2 r i)) = _
  refine congrArg (V m c main_v12) ?_
  funext a; apply Fin.ext
  match a with
  | ⟨0, _⟩ => show win0_0.index t (0 : Fin 2) * 1280 + 1 * r.val = win0_10.index t (0 : Fin 2) * 1280 + r.val; omega
  | ⟨1, _⟩ => show win0_0.index t (1 : Fin 2) * 256 + 1 * i.val = i.val; omega

/-- Grid point t's block of window 1, at row r: row `edgeOf t r` of the gathered array. -/
theorem blk1 (c : Dev nD) (t : Fin cfg0.N) (r : Fin 1280) (i : Fin 256) :
    iblk m c 1 t (ix2 r i) = V m c main_v13 (ix2 (edgeOf t r) i) := by
  obtain ⟨e0, e1⟩ := idxRow1 t
  show V m c main_v13 (((cfg0.win 1).blk t).view.emb (ix2 r i)) = _
  refine congrArg (V m c main_v13) ?_
  funext a; apply Fin.ext
  match a with
  | ⟨0, _⟩ => show win0_1.index t (0 : Fin 2) * 1280 + 1 * r.val = win0_10.index t (0 : Fin 2) * 1280 + r.val; omega
  | ⟨1, _⟩ => show win0_1.index t (1 : Fin 2) * 256 + 1 * i.val = i.val; omega

/-- Grid point t's block of window 2, at row r: row `edgeOf t r` of the gathered array. -/
theorem blk2 (c : Dev nD) (t : Fin cfg0.N) (r : Fin 1280) (i : Fin 256) :
    iblk m c 2 t (ix2 r i) = V m c main_v14 (ix2 (edgeOf t r) i) := by
  obtain ⟨e0, e1⟩ := idxRow2 t
  show V m c main_v14 (((cfg0.win 2).blk t).view.emb (ix2 r i)) = _
  refine congrArg (V m c main_v14) ?_
  funext a; apply Fin.ext
  match a with
  | ⟨0, _⟩ => show win0_2.index t (0 : Fin 2) * 1280 + 1 * r.val = win0_10.index t (0 : Fin 2) * 1280 + r.val; omega
  | ⟨1, _⟩ => show win0_2.index t (1 : Fin 2) * 256 + 1 * i.val = i.val; omega

/-- Grid point t's block of window 3, at row r: row `edgeOf t r` of the gathered array. -/
theorem blk3 (c : Dev nD) (t : Fin cfg0.N) (r : Fin 1280) (i : Fin 256) :
    iblk m c 3 t (ix2 r i) = V m c main_v15 (ix2 (edgeOf t r) i) := by
  obtain ⟨e0, e1⟩ := idxRow3 t
  show V m c main_v15 (((cfg0.win 3).blk t).view.emb (ix2 r i)) = _
  refine congrArg (V m c main_v15) ?_
  funext a; apply Fin.ext
  match a with
  | ⟨0, _⟩ => show win0_3.index t (0 : Fin 2) * 1280 + 1 * r.val = win0_10.index t (0 : Fin 2) * 1280 + r.val; omega
  | ⟨1, _⟩ => show win0_3.index t (1 : Fin 2) * 256 + 1 * i.val = i.val; omega

/-- Window 4's block is its whole [256, 256] array at every grid point. -/
theorem blk4 (c : Dev nD) (t : Fin cfg0.N) (i : Fin 256) (j : Fin 256) :
    iblk m c 4 t (ix2 i j) = V m c main_arg6 (ix2 i j) := by
  obtain ⟨e0, e1⟩ := idxFix4 t
  show V m c main_arg6 (((cfg0.win 4).blk t).view.emb (ix2 i j)) = _
  refine congrArg (V m c main_arg6) ?_
  funext a; apply Fin.ext
  match a with
  | ⟨0, _⟩ => show win0_4.index t (0 : Fin 2) * 256 + 1 * i.val = i.val; omega
  | ⟨1, _⟩ => show win0_4.index t (1 : Fin 2) * 256 + 1 * j.val = j.val; omega

/-- Window 5's block is its whole [1, 256] array at every grid point. -/
theorem blk5 (c : Dev nD) (t : Fin cfg0.N) (i : Fin 1) (j : Fin 256) :
    iblk m c 5 t (ix2 i j) = V m c main_v16 (ix2 i j) := by
  obtain ⟨e0, e1⟩ := idxFix5 t
  show V m c main_v16 (((cfg0.win 5).blk t).view.emb (ix2 i j)) = _
  refine congrArg (V m c main_v16) ?_
  funext a; apply Fin.ext
  match a with
  | ⟨0, _⟩ => show win0_5.index t (0 : Fin 2) * 1 + 1 * i.val = i.val; omega
  | ⟨1, _⟩ => show win0_5.index t (1 : Fin 2) * 256 + 1 * j.val = j.val; omega

/-- Window 6's block is its whole [256, 256] array at every grid point. -/
theorem blk6 (c : Dev nD) (t : Fin cfg0.N) (i : Fin 256) (j : Fin 256) :
    iblk m c 6 t (ix2 i j) = V m c main_arg8 (ix2 i j) := by
  obtain ⟨e0, e1⟩ := idxFix6 t
  show V m c main_arg8 (((cfg0.win 6).blk t).view.emb (ix2 i j)) = _
  refine congrArg (V m c main_arg8) ?_
  funext a; apply Fin.ext
  match a with
  | ⟨0, _⟩ => show win0_6.index t (0 : Fin 2) * 256 + 1 * i.val = i.val; omega
  | ⟨1, _⟩ => show win0_6.index t (1 : Fin 2) * 256 + 1 * j.val = j.val; omega

/-- Window 7's block is its whole [1, 256] array at every grid point. -/
theorem blk7 (c : Dev nD) (t : Fin cfg0.N) (i : Fin 1) (j : Fin 256) :
    iblk m c 7 t (ix2 i j) = V m c main_v17 (ix2 i j) := by
  obtain ⟨e0, e1⟩ := idxFix7 t
  show V m c main_v17 (((cfg0.win 7).blk t).view.emb (ix2 i j)) = _
  refine congrArg (V m c main_v17) ?_
  funext a; apply Fin.ext
  match a with
  | ⟨0, _⟩ => show win0_7.index t (0 : Fin 2) * 1 + 1 * i.val = i.val; omega
  | ⟨1, _⟩ => show win0_7.index t (1 : Fin 2) * 256 + 1 * j.val = j.val; omega

/-- Window 8's block is its whole [256, 512] array at every grid point. -/
theorem blk8 (c : Dev nD) (t : Fin cfg0.N) (i : Fin 256) (j : Fin 512) :
    iblk m c 8 t (ix2 i j) = V m c main_arg10 (ix2 i j) := by
  obtain ⟨e0, e1⟩ := idxFix8 t
  show V m c main_arg10 (((cfg0.win 8).blk t).view.emb (ix2 i j)) = _
  refine congrArg (V m c main_arg10) ?_
  funext a; apply Fin.ext
  match a with
  | ⟨0, _⟩ => show win0_8.index t (0 : Fin 2) * 256 + 1 * i.val = i.val; omega
  | ⟨1, _⟩ => show win0_8.index t (1 : Fin 2) * 512 + 1 * j.val = j.val; omega

/-- Window 9's block is its whole [1, 512] array at every grid point. -/
theorem blk9 (c : Dev nD) (t : Fin cfg0.N) (i : Fin 1) (j : Fin 512) :
    iblk m c 9 t (ix2 i j) = V m c main_v18 (ix2 i j) := by
  obtain ⟨e0, e1⟩ := idxFix9 t
  show V m c main_v18 (((cfg0.win 9).blk t).view.emb (ix2 i j)) = _
  refine congrArg (V m c main_v18) ?_
  funext a; apply Fin.ext
  match a with
  | ⟨0, _⟩ => show win0_9.index t (0 : Fin 2) * 1 + 1 * i.val = i.val; omega
  | ⟨1, _⟩ => show win0_9.index t (1 : Fin 2) * 512 + 1 * j.val = j.val; omega

/-! ## The three bias rows: reshapes of the argument vectors -/

/-- What the region finds at the one-row copy of the bias: the host's reshape of the argument vector. -/
theorem V_main_v16 (c : Dev nD) : (V m c main_v16 : S1x256.Idx → EReal)
    = shapeCast S1x256 (m ((c : Thread nD τ).loc main_arg7)) shapeCasts_S256_S1x256 := by
  dsimp only [V]
  simp only [hostOps0, hostOps0_1, hostOps0_2, hostOps0_3, hostOps0_4, hostOps0_5, hostOps0_6, hostOps0_7, List.flatten_cons,
    List.flatten_nil, List.append_nil, List.cons_append, List.nil_append]
  after_results_simp
  rfl

/-- What the region finds at the one-row copy of the bias: the host's reshape of the argument vector. -/
theorem V_main_v17 (c : Dev nD) : (V m c main_v17 : S1x256.Idx → EReal)
    = shapeCast S1x256 (m ((c : Thread nD τ).loc main_arg9)) shapeCasts_S256_S1x256 := by
  dsimp only [V]
  simp only [hostOps0, hostOps0_1, hostOps0_2, hostOps0_3, hostOps0_4, hostOps0_5, hostOps0_6, hostOps0_7, List.flatten_cons,
    List.flatten_nil, List.append_nil, List.cons_append, List.nil_append]
  after_results_simp
  rfl

/-- What the region finds at the one-row copy of the bias: the host's reshape of the argument vector. -/
theorem V_main_v18 (c : Dev nD) : (V m c main_v18 : S1x512.Idx → EReal)
    = shapeCast S1x512 (m ((c : Thread nD τ).loc main_arg11)) shapeCasts_S512_S1x512 := by
  dsimp only [V]
  simp only [hostOps0, hostOps0_1, hostOps0_2, hostOps0_3, hostOps0_4, hostOps0_5, hostOps0_6, hostOps0_7, List.flatten_cons,
    List.flatten_nil, List.append_nil, List.cons_append, List.nil_append]
  after_results_simp
  rfl

/-- The first bias row at column j is the bias vector at j. -/
theorem b1_at (c : Dev nD) (j : Fin 256) :
    V m c main_v16 (ix2 (0 : Fin 1) j) = m ((c : Thread nD τ).loc main_arg7) (ix1 j) := by
  rw [V_main_v16]; exact Idealize.ShloMosaic.RowCast.shapeCast_row_apply _ _ 0 j
/-- The second bias row at column j is the bias vector at j. -/
theorem b2_at (c : Dev nD) (j : Fin 256) :
    V m c main_v17 (ix2 (0 : Fin 1) j) = m ((c : Thread nD τ).loc main_arg9) (ix1 j) := by
  rw [V_main_v17]; exact Idealize.ShloMosaic.RowCast.shapeCast_row_apply _ _ 0 j
/-- The projection's bias row at column j is the bias vector at j. -/
theorem bp_at (c : Dev nD) (j : Fin 512) :
    V m c main_v18 (ix2 (0 : Fin 1) j) = m ((c : Thread nD τ).loc main_arg11) (ix1 j) := by
  rw [V_main_v18]; exact Idealize.ShloMosaic.RowCast.shapeCast_row_apply _ _ 0 j

/-! ## The output array -/

/-- What the output array ends holding: the per-edge function, row by row, of the four gathered arrays as the region
    finds them and of the six weight arguments. -/
def G10 (c : Dev nD) : S320000x512.Idx → EReal :=
  Cert.EdgeSpec.edgeLogits (V m c main_v12) (V m c main_v13) (V m c main_v14) (V m c main_v15)
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))

/-- WHAT POINT t WRITES BACK is block t of that function. -/
theorem flushed10_eq (c : Dev nD) (t : Fin cfg0.N) :
    (dats m 0 c).flushed 10 t = ((cfg0.win 10).blk t).view.read (Elt Ideal) (G10 m c) := by
  rw [Cert.KernelIdeal.Value.flushed10]
  unfold out0_10
  rw [View.canon_unit_zero hz]
  simp only [View.ld_unit_zero (S := S1280x256) hz, View.ld_unit_zero (S := S256x256) hz, View.ld_unit_zero (S := S1x256) hz,
    View.ld_unit_zero (S := S256x512) hz, View.ld_unit_zero (S := S1x512) hz]
  funext j
  obtain ⟨r, q, rfl⟩ : ∃ (r : Fin 1280) (q : Fin 512), j = ix2 r q := ⟨j 0, j 1, eq_ix2 j⟩
  show k0_pay1 (F := Ideal) (k0_pay2 (iblk m c 0 t) (iblk m c 1 t) (iblk m c 3 t) (iblk m c 4 t) (iblk m c 5 t) (iblk m c 6 t)
      (iblk m c 7 t) (iblk m c 2 t)) (iblk m c 8 t) (iblk m c 9 t) (ix2 r q)
    = G10 m c (((cfg0.win 10).blk t).view.emb (ix2 r q))
  refine (payloadAt (iblk m c 0 t) (iblk m c 1 t) (iblk m c 2 t) (iblk m c 3 t) (iblk m c 4 t) (iblk m c 5 t) (iblk m c 6 t)
    (iblk m c 7 t) (iblk m c 8 t) (iblk m c 9 t) r q).trans ?_
  have hemb : ((cfg0.win 10).blk t).view.emb (ix2 r q) = ix2 (edgeOf t r) q := by
    obtain ⟨e1, _⟩ := idxOut t
    funext a; apply Fin.ext
    match a with
    | ⟨0, _⟩ => show win0_10.index t (0 : Fin 2) * 1280 + 1 * r.val = win0_10.index t (0 : Fin 2) * 1280 + r.val; omega
    | ⟨1, _⟩ => show win0_10.index t (1 : Fin 2) * 512 + 1 * q.val = q.val; omega
  rw [hemb]
  show _ = Cert.EdgeSpec.edgeAt (V m c main_v12) (V m c main_v13) (V m c main_v14) (V m c main_v15)
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11)) (edgeOf t r) q
  unfold Cert.EdgeSpec.edgeAt
  simp only [blk0 m c t r, blk1 m c t r, blk2 m c t r, blk3 m c t r, blk4 m c t, blk5 m c t, blk6 m c t, blk7 m c t, blk8 m c t, blk9 m c t,
    b1_at m c, b2_at m c, bp_at m c, V_main_arg6 m c, V_main_arg8 m c, V_main_arg10 m c]

/-- An index of the output array is in point t's block iff each coordinate is in the block's range on its axis. -/
theorem mem_blk10 (t : Fin cfg0.N) (i : S320000x512.Idx) :
    i ∈ ((cfg0.win 10).blk t).view.set ↔ ∀ a : Fin 2, win0_10.index t a * S1280x512.size a ≤ (i a).val ∧ (i a).val < win0_10.index t a * S1280x512.size a + S1280x512.size a := by
  show i ∈ ((View.whole main_v19).slice (win0_10.rect t)).set ↔ _
  rw [View.set_slice_whole, Rect.mem_set_unit]
  exact Iff.rfl

/-- The blocks cover the array: edge e is a row of block e / 1280. -/
theorem cover10 (i : S320000x512.Idx) :
    ∃ t : Fin cfg0.N, (cfg0.win 10).flush t = true ∧ i ∈ ((cfg0.win 10).blk t).view.set := by
  have hi0 : (i 0).val < 320000 := (i 0).isLt
  have hi1 : (i 1).val < 512 := (i 1).isLt
  obtain ⟨t, ht⟩ := idx_onto ⟨(i 0).val / 1280, by omega⟩
  have q0 : win0_10.index t (0 : Fin 2) = (i 0).val / 1280 := congrFun ht 0
  have q1 : win0_10.index t (1 : Fin 2) = 0 := congrFun ht 1
  refine ⟨t, flush0_10 t, ?_⟩
  rw [mem_blk10]
  intro a
  match a with
  | ⟨0, _⟩ => show win0_10.index t (0 : Fin 2) * 1280 ≤ (i 0).val ∧ (i 0).val < win0_10.index t (0 : Fin 2) * 1280 + 1280; omega
  | ⟨1, _⟩ => show win0_10.index t (1 : Fin 2) * 512 ≤ (i 1).val ∧ (i 1).val < win0_10.index t (1 : Fin 2) * 512 + 512; omega

/-- THE OUTPUT ARRAY after the run is the per-edge function, row by row. -/
theorem final10 (c : Dev nD) : (dats m 0 c).arrAt 10 cfg0.N = G10 m c :=
  (dats m 0 c).arrAt_eq_of_cover 10 (G10 m c) (fun t _ => flushed10_eq m c t) cover10

end Cert.KernelIdeal.EdgeValue

end
-- ==== Proof.RefValueStages.lean ====
/-
  The reference's four computing stretches as functions of whole arrays, each read at an index.

  The gate is the one-column array of 1 / (1 + exp (-s)), s the row sum (from the word of zero) of the product of two
  [320000, 256] arrays; an affine layer is a product with a 256 x 256 matrix plus a bias row repeated down the rows;
  relu is the maximum with the zero splat; the last stage blends two [320000, 256] arrays by the gate column and
  projects the blend to the 512 vocabulary entries with a bias. Read at an index, each is the corresponding piece of
  the per-edge function: the gate of the edge's two rows, a sum over the 256 features plus the bias entry, the maximum
  with the word of zero, and the projected blend. No law of the extended reals is used: every step reads one
  operation at an index.
-/
import proofs.«143230_j56916906606893_1_alg».proof.Proof.Gen.ReferenceIdeal
import proofs.«143230_j56916906606893_1_alg».proof.Proof.EdgeSpec
import proofs.«143230_j56916906606893_1_alg».proof.Proof.LibPlainProduct
import proofs.«143230_j56916906606893_1_alg».proof.Proof.LibBroadcastReads

noncomputable section

open scoped BigOperators

namespace Cert.ReferenceIdeal.RefRun

open Cert.ReferenceIdeal Cert.ReferenceIdeal.Gen Idealize.ShloMosaic Idealize.ShloMosaic.ValueIdx

/-! ## The stages as functions of arrays -/

/-- The gate as a one-column array: the row sums of the product of the two gathered arrays, from the zero word,
    through 1 / (1 + exp (-s)), both ones the word of one. -/
def gateCol (Q K : FVec Ideal S320000x256 .f32) : FVec Ideal S320000x1 .f32 :=
  Host.divf (F := Ideal) (broadcastInDim S320000x1 ![] bcast_S_S320000x1 (constant (F := Ideal) S_ .f32 0x3F800000#32))
    (addf (broadcastInDim S320000x1 ![] bcast_S_S320000x1 (constant (F := Ideal) S_ .f32 0x3F800000#32))
      (Host.exp (F := Ideal) (Host.negf (F := Ideal) (broadcastInDim S320000x1 ![0] bcast_S320000_S320000x1_0
        (Host.reduceAdd (F := Ideal) (mulf Q K) (constant (F := Ideal) S_ .f32 0x00000000#32) reducesTo_S320000x256_S320000_d1 h_S_)))))

/-- An affine layer on 256 features: the product with a 256 x 256 matrix plus the bias row repeated down the rows. -/
def affine (X : FVec Ideal S320000x256 .f32) (W : FVec Ideal S256x256 .f32) (b : FVec Ideal S256 .f32) :
    FVec Ideal S320000x256 .f32 :=
  addf (Host.dotGeneral (F := Ideal) dot_S320000x256_S256x256_S320000x256_1_0_0_1_n_n none X W)
    (broadcastInDim S320000x256 ![0, 1] bcast_S1x256_S320000x256_0_1 (broadcastInDim S1x256 ![1] bcast_S256_S1x256_1 b))

/-- The maximum with the zero splat. -/
def reluOf (X : FVec Ideal S320000x256 .f32) : FVec Ideal S320000x256 .f32 :=
  maximumf X (broadcastInDim S320000x256 ![] bcast_S_S320000x256 (constant (F := Ideal) S_ .f32 0x00000000#32))

/-- The blend of the rows H and the rows M by the gate column G, projected to the vocabulary with its bias. -/
def outOf (G : FVec Ideal S320000x1 .f32) (H M : FVec Ideal S320000x256 .f32) (Wp : FVec Ideal S256x512 .f32)
    (bp : FVec Ideal S512 .f32) : FVec Ideal S320000x512 .f32 :=
  addf (Host.dotGeneral (F := Ideal) dot_S320000x256_S256x512_S320000x512_1_0_0_1_n_n none
      (addf (mulf (broadcastInDim S320000x256 ![0, 1] bcast_S320000x1_S320000x256_0_1 G) H)
        (mulf (broadcastInDim S320000x256 ![0, 1] bcast_S320000x1_S320000x256_0_1
            (subf (broadcastInDim S320000x1 ![] bcast_S_S320000x1 (constant (F := Ideal) S_ .f32 0x3F800000#32)) G)) M))
      Wp)
    (broadcastInDim S320000x512 ![0, 1] bcast_S1x512_S320000x512_0_1 (broadcastInDim S1x512 ![1] bcast_S512_S1x512_1 bp))

/-! ## The stages read at an index -/

/-- The host's exponential at an index is the exponential of the element. -/
theorem hostExp_apply {s : Shape} {φ : FTy} (x : FVec Ideal s φ) (i : s.Idx) : Host.exp x i = Ideal.exp (x i) := rfl
/-- The host's negation at an index is the negation of the element. -/
theorem hostNegf_apply {s : Shape} {φ : FTy} (x : FVec Ideal s φ) (i : s.Idx) : Host.negf x i = -(x i) := rfl

/-- A [320000, 256] array with its second axis removed is a vector of 320000 entries, one per row. -/
theorem rowReduces : S320000x256.Reduces [1] S320000 := by decide

/-- The gate column at row e (its one column u) is the gate of the edge's two rows: the quotient form of the logistic,
    the row sum read from the word of zero, both ones the word of one. -/
theorem gateCol_apply (Q K : FVec Ideal S320000x256 .f32) (e : Fin 320000) (u : Fin 1) :
    gateCol Q K (ix2 e u) = Cert.EdgeSpec.gate (fun i => Q (ix2 e i)) (fun i => K (ix2 e i)) := by
  rw [Cert.EdgeSpec.gate_eq_div]
  unfold gateCol Cert.EdgeSpec.one Cert.EdgeSpec.zero
  rw [hostDivf_apply, addf_apply, broadcastInDim_scalar_apply, constant_apply, hostExp_apply, hostNegf_apply,
    Cert.LibBroadcastReads.vecCol_apply, Cert.LibBroadcastReads.hostRowSum_apply _ _ _ rowReduces, constant_apply]
  rfl

/-- An affine layer at (e, j): the sum over the 256 features of row e against column j of the matrix, plus bias j. -/
theorem affine_apply (X : FVec Ideal S320000x256 .f32) (W : FVec Ideal S256x256 .f32) (b : FVec Ideal S256 .f32)
    (e : Fin 320000) (j : Fin 256) :
    affine X W b (ix2 e j) = (∑ i : Fin 256, X (ix2 e i) * W (ix2 i j)) + b (ix1 j) := by
  unfold affine
  rw [addf_apply, Cert.LibBroadcastReads.rowDown_apply, Cert.LibBroadcastReads.vecRow_apply]
  refine congrArg (· + b (ix1 j)) ?_
  exact Cert.LibPlainProduct.dotGeneral_plain_apply dot_S320000x256_S256x256_S320000x256_1_0_0_1_n_n_wf none X W e j

/-- Relu at an index: the maximum of the element and the word of zero. -/
theorem reluOf_apply (X : FVec Ideal S320000x256 .f32) (i : S320000x256.Idx) :
    reluOf X i = max (X i) Cert.EdgeSpec.zero := by
  unfold reluOf Cert.EdgeSpec.zero
  rw [maximumf_apply, broadcastInDim_scalar_apply, constant_apply]

/-- The last stage at (e, c): the blend of row e of H and of M by the gate entry of row e, summed against column c
    of the projection, plus bias c. -/
theorem outOf_apply (G : FVec Ideal S320000x1 .f32) (H M : FVec Ideal S320000x256 .f32) (Wp : FVec Ideal S256x512 .f32)
    (bp : FVec Ideal S512 .f32) (e : Fin 320000) (c : Fin 512) :
    outOf G H M Wp bp (ix2 e c)
      = (∑ d : Fin 256, (G (ix2 e (0 : Fin 1)) * H (ix2 e d) + (Cert.EdgeSpec.one - G (ix2 e (0 : Fin 1))) * M (ix2 e d)) * Wp (ix2 d c))
        + bp (ix1 c) := by
  unfold outOf Cert.EdgeSpec.one
  rw [addf_apply, Cert.LibBroadcastReads.rowDown_apply, Cert.LibBroadcastReads.vecRow_apply]
  refine congrArg (· + bp (ix1 c)) ?_
  refine (Cert.LibPlainProduct.dotGeneral_plain_apply dot_S320000x256_S256x512_S320000x512_1_0_0_1_n_n_wf none _ Wp e c).trans ?_
  refine Finset.sum_congr rfl fun d _ => congrArg (· * Wp (ix2 d c)) ?_
  rw [addf_apply, mulf_apply, mulf_apply, Cert.LibBroadcastReads.colAcross_apply, Cert.LibBroadcastReads.colAcross_apply,
    subf_apply, broadcastInDim_scalar_apply, constant_apply]

/-! ## The stages composed -/

/-- The stages composed are the per-edge function, array by array: at (e, c) the last stage reads the blend of the
    edge's row of H and of the second affine layer by the gate of the edge's rows of Q and K, the second layer reads
    relu of the first, and the first reads the edge's row of Z. -/
theorem stages_eq (Q K H Z : FVec Ideal S320000x256 .f32) (W1 : FVec Ideal S256x256 .f32) (b1 : FVec Ideal S256 .f32)
    (W2 : FVec Ideal S256x256 .f32) (b2 : FVec Ideal S256 .f32) (Wp : FVec Ideal S256x512 .f32) (bp : FVec Ideal S512 .f32) :
    outOf (gateCol Q K) H (affine (reluOf (affine Z W1 b1)) W2 b2) Wp bp
      = Cert.EdgeSpec.edgeLogits Q K H Z W1 b1 W2 b2 Wp bp := by
  refine funext fun (i : S320000x512.Idx) => ?_
  obtain ⟨e, c, rfl⟩ : ∃ (e : Fin 320000) (c : Fin 512), i = ix2 e c := ⟨i 0, i 1, eq_ix2 i⟩
  rw [Cert.EdgeSpec.edgeLogits_ix2, outOf_apply, gateCol_apply]
  unfold Cert.EdgeSpec.edgeAt Cert.EdgeSpec.rowOut Cert.EdgeSpec.blend Cert.EdgeSpec.mlp Cert.EdgeSpec.hidden
  refine congrArg (· + bp (ix1 c)) (Finset.sum_congr rfl fun d _ => ?_)
  rw [affine_apply]
  refine congrArg (fun t => (Cert.EdgeSpec.gate (fun i => Q (ix2 e i)) (fun i => K (ix2 e i)) * H (ix2 e d)
    + (Cert.EdgeSpec.one - Cert.EdgeSpec.gate (fun i => Q (ix2 e i)) (fun i => K (ix2 e i))) * (t + b2 (ix1 d))) * Wp (ix2 d c)) ?_
  refine Finset.sum_congr rfl fun j _ => ?_
  rw [reluOf_apply, affine_apply]

end Cert.ReferenceIdeal.RefRun

end
-- ==== Proof.RefValueKeeps.lean ====
/-
  What each stretch of the reference's line of operations leaves alone.

  The program's buffers are numbered in program order: the sixteen arguments first (indices 0 to 15), then one buffer
  per value in the order the values are computed. Each operation writes exactly one buffer, so each of the eleven
  stretches writes a block of consecutive indices, and a buffer whose index is outside a stretch's block holds after
  the stretch what it held before. The blocks: 16-25, 26-47, 48-69, 70-92, 93-115, 116-127, 128-150, 151-173, 174-177,
  178-180, 181-196.
-/
import proofs.«143230_j56916906606893_1_alg».proof.Proof.RefOps
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem

/-- A reference whose index lies outside the range of indices a line's operations write keeps its contents. -/
theorem after_keep_idx (l : List (HloOp τ sig (Elt Ideal))) (lo hi : ℕ)
    (hW : l.Forall fun op => ∀ b ∈ op.writes, ∃ y : Ref sig .tc, b = Proc.devRef .tc y ∧ lo ≤ y.idx.val ∧ y.idx.val < hi)
    (V : Valuation τ sig (Elt Ideal)) (r : Ref sig .tc) (hr : r.idx.val < lo ∨ hi ≤ r.idx.val) :
    StableHlo.after l V (Proc.devRef .tc r) = V (Proc.devRef .tc r) :=
  StableHlo.after_of_forall_not_mem l V fun op hop hb => by
    obtain ⟨y, he, h1, h2⟩ := (List.forall_iff_forall_mem.mp hW) op hop _ hb
    have : r = y := Proc.devRef_injective _ he
    subst this
    omega

/-- The node-level stretch writes the buffers of indices 16 to 25 only. -/
theorem r0_writes : (r0 (F := Ideal)).Forall fun op => ∀ b ∈ op.writes, ∃ y : Ref sig .tc, b = Proc.devRef .tc y ∧ 16 ≤ y.idx.val ∧ y.idx.val < 26 := by
  simp only [List.Forall]
  repeat' apply And.intro
  all_goals exact fun b hb => ⟨_, Finset.mem_singleton.mp hb, by decide, by decide⟩

/-- The first row selection writes the buffers of indices 26 to 47 only. -/
theorem r1_writes : (r1 (F := Ideal)).Forall fun op => ∀ b ∈ op.writes, ∃ y : Ref sig .tc, b = Proc.devRef .tc y ∧ 26 ≤ y.idx.val ∧ y.idx.val < 48 := by
  simp only [List.Forall]
  repeat' apply And.intro
  all_goals exact fun b hb => ⟨_, Finset.mem_singleton.mp hb, by decide, by decide⟩

/-- The second row selection writes the buffers of indices 48 to 69 only. -/
theorem r2_writes : (r2 (F := Ideal)).Forall fun op => ∀ b ∈ op.writes, ∃ y : Ref sig .tc, b = Proc.devRef .tc y ∧ 48 ≤ y.idx.val ∧ y.idx.val < 70 := by
  simp only [List.Forall]
  repeat' apply And.intro
  all_goals exact fun b hb => ⟨_, Finset.mem_singleton.mp hb, by decide, by decide⟩

/-- The third row selection writes the buffers of indices 70 to 92 only. -/
theorem r3_writes : (r3 (F := Ideal)).Forall fun op => ∀ b ∈ op.writes, ∃ y : Ref sig .tc, b = Proc.devRef .tc y ∧ 70 ≤ y.idx.val ∧ y.idx.val < 93 := by
  simp only [List.Forall]
  repeat' apply And.intro
  all_goals exact fun b hb => ⟨_, Finset.mem_singleton.mp hb, by decide, by decide⟩

/-- The fourth row selection writes the buffers of indices 93 to 115 only. -/
theorem r4_writes : (r4 (F := Ideal)).Forall fun op => ∀ b ∈ op.writes, ∃ y : Ref sig .tc, b = Proc.devRef .tc y ∧ 93 ≤ y.idx.val ∧ y.idx.val < 116 := by
  simp only [List.Forall]
  repeat' apply And.intro
  all_goals exact fun b hb => ⟨_, Finset.mem_singleton.mp hb, by decide, by decide⟩

/-- The gate's stretch writes the buffers of indices 116 to 127 only. -/
theorem r5_writes : (r5 (F := Ideal)).Forall fun op => ∀ b ∈ op.writes, ∃ y : Ref sig .tc, b = Proc.devRef .tc y ∧ 116 ≤ y.idx.val ∧ y.idx.val < 128 := by
  simp only [List.Forall]
  repeat' apply And.intro
  all_goals exact fun b hb => ⟨_, Finset.mem_singleton.mp hb, by decide, by decide⟩

/-- The fifth row selection writes the buffers of indices 128 to 150 only. -/
theorem r6_writes : (r6 (F := Ideal)).Forall fun op => ∀ b ∈ op.writes, ∃ y : Ref sig .tc, b = Proc.devRef .tc y ∧ 128 ≤ y.idx.val ∧ y.idx.val < 151 := by
  simp only [List.Forall]
  repeat' apply And.intro
  all_goals exact fun b hb => ⟨_, Finset.mem_singleton.mp hb, by decide, by decide⟩

/-- The sixth row selection writes the buffers of indices 151 to 173 only. -/
theorem r7_writes : (r7 (F := Ideal)).Forall fun op => ∀ b ∈ op.writes, ∃ y : Ref sig .tc, b = Proc.devRef .tc y ∧ 151 ≤ y.idx.val ∧ y.idx.val < 174 := by
  simp only [List.Forall]
  repeat' apply And.intro
  all_goals exact fun b hb => ⟨_, Finset.mem_singleton.mp hb, by decide, by decide⟩

/-- The first affine layer writes the buffers of indices 174 to 177 only. -/
theorem r8_writes : (r8 (F := Ideal)).Forall fun op => ∀ b ∈ op.writes, ∃ y : Ref sig .tc, b = Proc.devRef .tc y ∧ 174 ≤ y.idx.val ∧ y.idx.val < 178 := by
  simp only [List.Forall]
  repeat' apply And.intro
  all_goals exact fun b hb => ⟨_, Finset.mem_singleton.mp hb, by decide, by decide⟩

/-- Relu writes the buffers of indices 178 to 180 only. -/
theorem r9_writes : (r9 (F := Ideal)).Forall fun op => ∀ b ∈ op.writes, ∃ y : Ref sig .tc, b = Proc.devRef .tc y ∧ 178 ≤ y.idx.val ∧ y.idx.val < 181 := by
  simp only [List.Forall]
  repeat' apply And.intro
  all_goals exact fun b hb => ⟨_, Finset.mem_singleton.mp hb, by decide, by decide⟩

/-- The last stretch writes the buffers of indices 181 to 196 only. -/
theorem r10_writes : (r10 (F := Ideal)).Forall fun op => ∀ b ∈ op.writes, ∃ y : Ref sig .tc, b = Proc.devRef .tc y ∧ 181 ≤ y.idx.val ∧ y.idx.val < 197 := by
  simp only [List.Forall]
  repeat' apply And.intro
  all_goals exact fun b hb => ⟨_, Finset.mem_singleton.mp hb, by decide, by decide⟩

variable (V : Valuation τ sig (Elt Ideal)) (r : Ref sig .tc)

/-- A buffer outside 16-25 passes through the node-level stretch. -/
theorem r0_keep (hr : r.idx.val < 16 ∨ 26 ≤ r.idx.val) : StableHlo.after (r0 (F := Ideal)) V (Proc.devRef .tc r) = V (Proc.devRef .tc r) :=
  after_keep_idx _ 16 26 r0_writes V r hr
/-- A buffer outside 26-47 passes through the first row selection. -/
theorem r1_keep (hr : r.idx.val < 26 ∨ 48 ≤ r.idx.val) : StableHlo.after (r1 (F := Ideal)) V (Proc.devRef .tc r) = V (Proc.devRef .tc r) :=
  after_keep_idx _ 26 48 r1_writes V r hr
/-- A buffer outside 48-69 passes through the second row selection. -/
theorem r2_keep (hr : r.idx.val < 48 ∨ 70 ≤ r.idx.val) : StableHlo.after (r2 (F := Ideal)) V (Proc.devRef .tc r) = V (Proc.devRef .tc r) :=
  after_keep_idx _ 48 70 r2_writes V r hr
/-- A buffer outside 70-92 passes through the third row selection. -/
theorem r3_keep (hr : r.idx.val < 70 ∨ 93 ≤ r.idx.val) : StableHlo.after (r3 (F := Ideal)) V (Proc.devRef .tc r) = V (Proc.devRef .tc r) :=
  after_keep_idx _ 70 93 r3_writes V r hr
/-- A buffer outside 93-115 passes through the fourth row selection. -/
theorem r4_keep (hr : r.idx.val < 93 ∨ 116 ≤ r.idx.val) : StableHlo.after (r4 (F := Ideal)) V (Proc.devRef .tc r) = V (Proc.devRef .tc r) :=
  after_keep_idx _ 93 116 r4_writes V r hr
/-- A buffer outside 116-127 passes through the gate's stretch. -/
theorem r5_keep (hr : r.idx.val < 116 ∨ 128 ≤ r.idx.val) : StableHlo.after (r5 (F := Ideal)) V (Proc.devRef .tc r) = V (Proc.devRef .tc r) :=
  after_keep_idx _ 116 128 r5_writes V r hr
/-- A buffer outside 128-150 passes through the fifth row selection. -/
theorem r6_keep (hr : r.idx.val < 128 ∨ 151 ≤ r.idx.val) : StableHlo.after (r6 (F := Ideal)) V (Proc.devRef .tc r) = V (Proc.devRef .tc r) :=
  after_keep_idx _ 128 151 r6_writes V r hr
/-- A buffer outside 151-173 passes through the sixth row selection. -/
theorem r7_keep (hr : r.idx.val < 151 ∨ 174 ≤ r.idx.val) : StableHlo.after (r7 (F := Ideal)) V (Proc.devRef .tc r) = V (Proc.devRef .tc r) :=
  after_keep_idx _ 151 174 r7_writes V r hr
/-- A buffer outside 174-177 passes through the first affine layer. -/
theorem r8_keep (hr : r.idx.val < 174 ∨ 178 ≤ r.idx.val) : StableHlo.after (r8 (F := Ideal)) V (Proc.devRef .tc r) = V (Proc.devRef .tc r) :=
  after_keep_idx _ 174 178 r8_writes V r hr
/-- A buffer outside 178-180 passes through relu. -/
theorem r9_keep (hr : r.idx.val < 178 ∨ 181 ≤ r.idx.val) : StableHlo.after (r9 (F := Ideal)) V (Proc.devRef .tc r) = V (Proc.devRef .tc r) :=
  after_keep_idx _ 178 181 r9_writes V r hr
/-- A buffer outside 181-196 passes through the last stretch. -/
theorem r10_keep (hr : r.idx.val < 181 ∨ 197 ≤ r.idx.val) : StableHlo.after (r10 (F := Ideal)) V (Proc.devRef .tc r) = V (Proc.devRef .tc r) :=
  after_keep_idx _ 181 197 r10_writes V r hr

end Cert.ReferenceIdeal.RefRun

end
-- ==== Proof.RefValueRead.lean ====
/-
  What the four computing stretches of the reference's line of operations leave in their last buffers, as the stage
  functions of the buffers they read: the gate's twelve operations leave the gate column of the two gathered arrays,
  the first affine layer's four the affine map of the gathered features, relu's three the maximum with zero, and the
  last sixteen the projected blend. Each is the fold of that one stretch over any starting contents, every operation's
  result read at its own buffer and every other buffer passed through.
-/
import proofs.«143230_j56916906606893_1_alg».proof.Proof.RefOps
import proofs.«143230_j56916906606893_1_alg».proof.Proof.RefValueStages

noncomputable section

namespace Cert.ReferenceIdeal.RefRun

open Cert.ReferenceIdeal Cert.ReferenceIdeal.Gen Idealize.ShloMosaic Idealize.ShloMosaic.TcCoe Idealize.SL.Sem

variable (V : Valuation τ sig (Elt Ideal))

/-- After the gate's stretch its last buffer holds the gate column of the two gathered arrays as the stretch found them. -/
theorem r5_v22 :
    StableHlo.after (r5 (F := Ideal)) V (Proc.devRef .tc main_v22)
      = gateCol (V (Proc.devRef .tc main_v12)) (V (Proc.devRef .tc main_v13)) := by
  after_results_simp
  rfl

/-- After the first affine layer its last buffer holds the affine map of the gathered features by the first weights. -/
theorem r8_v28 :
    StableHlo.after (r8 (F := Ideal)) V (Proc.devRef .tc main_v28)
      = affine (V (Proc.devRef .tc main_v24)) (V (Proc.devRef .tc main_arg6)) (V (Proc.devRef .tc main_arg7)) := by
  after_results_simp
  rfl

/-- After relu its last buffer holds the maximum of the first layer's output with zero. -/
theorem r9_v29 :
    StableHlo.after (r9 (F := Ideal)) V (Proc.devRef .tc main_v29) = reluOf (V (Proc.devRef .tc main_v28)) := by
  after_results_simp
  rfl

/-- After the last stretch the result buffer holds the projected blend: of the gate column, the centre rows, and the
    second affine layer of the hidden units. -/
theorem r10_v44 :
    StableHlo.after (r10 (F := Ideal)) V (Proc.devRef .tc main_v44)
      = outOf (V (Proc.devRef .tc main_v22)) (V (Proc.devRef .tc main_v23))
          (affine (V (Proc.devRef .tc main_v29)) (V (Proc.devRef .tc main_arg8)) (V (Proc.devRef .tc main_arg9)))
          (V (Proc.devRef .tc main_arg10)) (V (Proc.devRef .tc main_arg11)) := by
  after_results_simp
  rfl

end Cert.ReferenceIdeal.RefRun

end
-- ==== Proof.RefValue.lean ====
/-
  What the reference's result buffer holds after its whole line of operations.

  The line is eleven stretches in a row, so its fold over the launch contents is the eleven folds in turn. Read from
  the end: the last stretch leaves in the result buffer the projected blend of the gate column, the centre rows and
  the second affine layer of the hidden units; relu and the first affine layer before it leave the hidden units as a
  function of the neighbour rows; the gate's stretch leaves the gate column as a function of the two projected-row
  arrays. Every buffer a stage reads is passed back through the stretches that do not write it (each stretch writes a
  block of consecutive buffer indices), down to the four gathered arrays, which are kept as the line leaves them and
  never opened, and to the six weight arguments, which no stretch writes. Composed, the stages are the per-edge
  function row by row.
-/
import proofs.«143230_j56916906606893_1_alg».proof.Proof.RefOps
import proofs.«143230_j56916906606893_1_alg».proof.Proof.EdgeSpec
import proofs.«143230_j56916906606893_1_alg».proof.Proof.RefValueStages
import proofs.«143230_j56916906606893_1_alg».proof.Proof.RefValueKeeps
import proofs.«143230_j56916906606893_1_alg».proof.Proof.RefValueRead
import Idealize.ShloMosaic.Lib.Pipeline.Frame

noncomputable section

open scoped BigOperators

namespace Cert.ReferenceIdeal.RefRun

open Cert.ReferenceIdeal Cert.ReferenceIdeal.Gen Idealize.ShloMosaic Idealize.ShloMosaic.TcCoe Idealize.SL.Sem
open Idealize.ShloMosaic.ValueIdx

/-- The fold over eleven lines in a row is the eleven folds in turn. -/
theorem after_parts (a0 a1 a2 a3 a4 a5 a6 a7 a8 a9 a10 : List (HloOp τ sig (Elt Ideal))) (V : Valuation τ sig (Elt Ideal)) :
    StableHlo.after (List.flatten [a0, a1, a2, a3, a4, a5, a6, a7, a8, a9, a10]) V
      = StableHlo.after a10 (StableHlo.after a9 (StableHlo.after a8 (StableHlo.after a7 (StableHlo.after a6 (StableHlo.after a5
          (StableHlo.after a4 (StableHlo.after a3 (StableHlo.after a2 (StableHlo.after a1 (StableHlo.after a0 V)))))))))) := by
  simp only [List.flatten_cons, List.flatten_nil, List.append_nil, StableHlo.after_append]

/-- The buffers after the first five stretches (the node-level operations and the first four row selections). -/
abbrev headOf (V : Valuation τ sig (Elt Ideal)) : Valuation τ sig (Elt Ideal) :=
  StableHlo.after (r4 (F := Ideal)) (StableHlo.after (r3 (F := Ideal)) (StableHlo.after (r2 (F := Ideal))
    (StableHlo.after (r1 (F := Ideal)) (StableHlo.after (r0 (F := Ideal)) V))))

/-- The buffers after the last six stretches (the gate, two row selections, the first affine layer, relu, and the last
    stretch: the second affine layer, the blend and the projection). -/
abbrev tailOf (V : Valuation τ sig (Elt Ideal)) : Valuation τ sig (Elt Ideal) :=
  StableHlo.after (r10 (F := Ideal)) (StableHlo.after (r9 (F := Ideal)) (StableHlo.after (r8 (F := Ideal))
    (StableHlo.after (r7 (F := Ideal)) (StableHlo.after (r6 (F := Ideal)) (StableHlo.after (r5 (F := Ideal)) V)))))

/-- From any contents V, the last six stretches leave in the result buffer the per-edge function of the four
    gathered arrays as they stand at the end and the six weight arrays as V holds them: the stretches are read from
    the last back to the gate, each stage's result at its own buffer and every buffer it reads passed back through
    the stretches that do not write it; the two gathered arrays written on the way (by the fifth and sixth row
    selections) are never opened. -/
theorem tailOf_eq (V : Valuation τ sig (Elt Ideal)) :
    tailOf V (Proc.devRef .tc main_v44)
      = Cert.EdgeSpec.edgeLogits (tailOf V (Proc.devRef .tc main_v12)) (tailOf V (Proc.devRef .tc main_v13))
          (tailOf V (Proc.devRef .tc main_v23)) (tailOf V (Proc.devRef .tc main_v24))
          (V (Proc.devRef .tc main_arg6)) (V (Proc.devRef .tc main_arg7)) (V (Proc.devRef .tc main_arg8))
          (V (Proc.devRef .tc main_arg9)) (V (Proc.devRef .tc main_arg10)) (V (Proc.devRef .tc main_arg11)) := by
  unfold tailOf
  -- the last stretch
  rw [r10_v44, r10_keep _ main_v12 (.inl (by decide)), r10_keep _ main_v13 (.inl (by decide)),
    r10_keep _ main_v23 (.inl (by decide)), r10_keep _ main_v24 (.inl (by decide))]
  -- relu
  rw [r9_v29, r9_keep _ main_v22 (.inl (by decide)), r9_keep _ main_v23 (.inl (by decide)),
    r9_keep _ main_arg8 (.inl (by decide)), r9_keep _ main_arg9 (.inl (by decide)), r9_keep _ main_arg10 (.inl (by decide)),
    r9_keep _ main_arg11 (.inl (by decide)), r9_keep _ main_v12 (.inl (by decide)), r9_keep _ main_v13 (.inl (by decide)),
    r9_keep _ main_v24 (.inl (by decide))]
  -- the first affine layer
  rw [r8_v28, r8_keep _ main_v22 (.inl (by decide)), r8_keep _ main_v23 (.inl (by decide)),
    r8_keep _ main_arg8 (.inl (by decide)), r8_keep _ main_arg9 (.inl (by decide)), r8_keep _ main_arg10 (.inl (by decide)),
    r8_keep _ main_arg11 (.inl (by decide)), r8_keep _ main_v12 (.inl (by decide)), r8_keep _ main_v13 (.inl (by decide)),
    r8_keep _ main_v24 (.inl (by decide))]
  -- the sixth row selection
  rw [r7_keep _ main_v22 (.inl (by decide)), r7_keep _ main_v23 (.inl (by decide)),
    r7_keep _ main_arg6 (.inl (by decide)), r7_keep _ main_arg7 (.inl (by decide)),
    r7_keep _ main_arg8 (.inl (by decide)), r7_keep _ main_arg9 (.inl (by decide)), r7_keep _ main_arg10 (.inl (by decide)),
    r7_keep _ main_arg11 (.inl (by decide)), r7_keep _ main_v12 (.inl (by decide)), r7_keep _ main_v13 (.inl (by decide))]
  -- the fifth row selection
  rw [r6_keep _ main_v22 (.inl (by decide)),
    r6_keep _ main_arg6 (.inl (by decide)), r6_keep _ main_arg7 (.inl (by decide)),
    r6_keep _ main_arg8 (.inl (by decide)), r6_keep _ main_arg9 (.inl (by decide)), r6_keep _ main_arg10 (.inl (by decide)),
    r6_keep _ main_arg11 (.inl (by decide)), r6_keep _ main_v12 (.inl (by decide)), r6_keep _ main_v13 (.inl (by decide))]
  -- the gate
  rw [r5_v22, r5_keep _ main_arg6 (.inl (by decide)), r5_keep _ main_arg7 (.inl (by decide)),
    r5_keep _ main_arg8 (.inl (by decide)), r5_keep _ main_arg9 (.inl (by decide)), r5_keep _ main_arg10 (.inl (by decide)),
    r5_keep _ main_arg11 (.inl (by decide)), r5_keep _ main_v12 (.inl (by decide)), r5_keep _ main_v13 (.inl (by decide))]
  exact stages_eq _ _ _ _ _ _ _ _ _ _

/-- The first five stretches write no argument: an argument's buffer holds after them what the launch gave it. -/
theorem headOf_arg (m : (ℓ : Loc nD τ sig) → Buf (Elt Ideal) ℓ) (d : Dev nD) (r : Ref sig .tc) (h : r.idx.val < 16) :
    headOf (StableHlo.launchContents m d) (Proc.devRef .tc r) = m ((d.tc : Thread nD τ).loc r) := by
  unfold headOf
  rw [r4_keep _ r (.inl (by omega)), r3_keep _ r (.inl (by omega)), r2_keep _ r (.inl (by omega)),
    r1_keep _ r (.inl (by omega)), r0_keep _ r (.inl (by omega))]

/-- The last six stretches write no argument either. -/
theorem tailOf_arg (V : Valuation τ sig (Elt Ideal)) (r : Ref sig .tc) (h : r.idx.val < 16) :
    tailOf V (Proc.devRef .tc r) = V (Proc.devRef .tc r) := by
  unfold tailOf
  rw [r10_keep _ r (.inl (by omega)), r9_keep _ r (.inl (by omega)), r8_keep _ r (.inl (by omega)),
    r7_keep _ r (.inl (by omega)), r6_keep _ r (.inl (by omega)), r5_keep _ r (.inl (by omega))]

/-- Device d's buffers after the whole line of operations, from the launch memory m. -/
abbrev W (m : (ℓ : Loc nD τ sig) → Buf (Elt Ideal) ℓ) (d : Dev nD) : Valuation τ sig (Elt Ideal) :=
  StableHlo.after (ops (F := Ideal)) (StableHlo.launchContents m d)

/-- The whole line is the first five stretches then the last six. -/
theorem W_eq (m : (ℓ : Loc nD τ sig) → Buf (Elt Ideal) ℓ) (d : Dev nD) :
    W m d = tailOf (headOf (StableHlo.launchContents m d)) :=
  after_parts r0 r1 r2 r3 r4 r5 r6 r7 r8 r9 r10 _

/-- No operation of the line writes an argument (the sixteen buffers of indices below 16): after the whole line an
    argument's buffer holds what the launch gave it. -/
theorem W_arg (m : (ℓ : Loc nD τ sig) → Buf (Elt Ideal) ℓ) (d : Dev nD) (r : Ref sig .tc) (h : r.idx.val < 16) :
    W m d (Proc.devRef .tc r) = m ((d.tc : Thread nD τ).loc r) := by
  rw [W_eq, tailOf_arg _ r h, headOf_arg m d r h]

/-- The result buffer is the per-edge function of the four gathered arrays (as the line leaves them) and the six weight arguments. -/
theorem result_eq (m : (ℓ : Loc nD τ sig) → Buf (Elt Ideal) ℓ) (d : Dev nD) :
    W m d (Proc.devRef .tc main_v44)
      = Cert.EdgeSpec.edgeLogits (W m d (Proc.devRef .tc main_v12)) (W m d (Proc.devRef .tc main_v13))
          (W m d (Proc.devRef .tc main_v23)) (W m d (Proc.devRef .tc main_v24))
          (m ((d.tc : Thread nD τ).loc main_arg6)) (m ((d.tc : Thread nD τ).loc main_arg7))
          (m ((d.tc : Thread nD τ).loc main_arg8)) (m ((d.tc : Thread nD τ).loc main_arg9))
          (m ((d.tc : Thread nD τ).loc main_arg10)) (m ((d.tc : Thread nD τ).loc main_arg11)) := by
  rw [W_eq]
  refine (tailOf_eq _).trans ?_
  rw [headOf_arg m d main_arg6 (by decide), headOf_arg m d main_arg7 (by decide), headOf_arg m d main_arg8 (by decide),
    headOf_arg m d main_arg9 (by decide), headOf_arg m d main_arg10 (by decide), headOf_arg m d main_arg11 (by decide)]

end Cert.ReferenceIdeal.RefRun

end
-- ==== Proof.Gathers.lean ====
import proofs.«143230_j56916906606893_1_alg».proof.Proof.RefOps
import proofs.«143230_j56916906606893_1_alg».proof.Proof.Gen.KernelIdeal.Frame
import Idealize.ShloMosaic.Lib.Pipeline.Frame
import Idealize.ShloMosaic.PureOps.Ideal

/-!
# The four gathered arrays are the same arrays in the two programs

Both programs make, from the same sixteen arguments, four [320000, 256] arrays by row selection:
the rows of q = z Wq + bq at the centre node of every (node, edge) pair, the rows of k = z Wk + bk at
the pair's neighbour node, the rows of the masked embeddings at the pair's masked index, and the rows
of z at the neighbour node. The centre node of a pair is node_ids taken at the masked index, the
neighbour node is the source row of the edge list taken at the edge index. Every selection wraps a
negative index by the length of the axis it selects along, and fills the positions whose wrapped index
is still out of range.

The two programs spell these selections with the same operations in the same order, over buffers that
are numbered differently. So the argument is a walk along the two lines in step: a buffer that a
stretch of operations does not write is the same after it as before it, and a stretch whose operands
agree in the two programs leaves results that agree. Nothing is evaluated: an array is only ever
carried from where it is made to where it is read.
-/

noncomputable section

namespace Cert.Gathers

open Idealize.ShloMosaic Idealize.ShloMosaic.StableHlo Idealize.SL.Sem
open ReferenceIdeal.RefRun (r0 r1 r2 r3 r4 r5 r6 r7 r8 r9 r10)
open KernelIdeal.Gen (hostOps0 hostOps0_1 hostOps0_2 hostOps0_3 hostOps0_4 hostOps0_5 hostOps0_6 hostOps0_7)

variable {F : FTy → Type} [FloatOps F]

/-- Contents for every buffer of the reference program's device, and of the kernel program's. -/
local notation "ℛ" => Valuation ReferenceIdeal.τ ReferenceIdeal.sig (Elt F)
local notation "𝒦" => Valuation KernelIdeal.τ KernelIdeal.sig (Elt F)
/-- A reference of either program as the device buffer it names. -/
local notation:max "ʀ⟦" x "⟧" => (Proc.devRef (τ := ReferenceIdeal.τ) (sig := ReferenceIdeal.sig) Proc.tc x)
local notation:max "ᴋ⟦" x "⟧" => (Proc.devRef (τ := KernelIdeal.τ) (sig := KernelIdeal.sig) Proc.tc x)

/-! ## The stretches, two by two

Each pair of stretches is the same composition of operations over the buffers it reads from outside
itself; with operands that agree, so do the results. -/

/-- The source row of the edge list, as a vector. -/
theorem node_src (WR : ℛ) (WK : 𝒦)
    (h12 : WR ʀ⟦ReferenceIdeal.main_arg12⟧ = WK ᴋ⟦KernelIdeal.main_arg12⟧) :
    after (r0 (F := F)) WR ʀ⟦ReferenceIdeal.main_v1⟧ = after (hostOps0 (F := F)) WK ᴋ⟦KernelIdeal.main_v1⟧ := by
  simp only [r0, hostOps0]
  after_results_simp
  rw [h12]
  rfl

/-- q = z Wq + bq. -/
theorem node_q (WR : ℛ) (WK : 𝒦)
    (h1 : WR ʀ⟦ReferenceIdeal.main_arg1⟧ = WK ᴋ⟦KernelIdeal.main_arg1⟧)
    (h2 : WR ʀ⟦ReferenceIdeal.main_arg2⟧ = WK ᴋ⟦KernelIdeal.main_arg2⟧)
    (h3 : WR ʀ⟦ReferenceIdeal.main_arg3⟧ = WK ᴋ⟦KernelIdeal.main_arg3⟧) :
    after (r0 (F := F)) WR ʀ⟦ReferenceIdeal.main_v5⟧ = after (hostOps0 (F := F)) WK ᴋ⟦KernelIdeal.main_v5⟧ := by
  simp only [r0, hostOps0]
  after_results_simp
  rw [h1, h2, h3]
  rfl

/-- k = z Wk + bk. -/
theorem node_k (WR : ℛ) (WK : 𝒦)
    (h1 : WR ʀ⟦ReferenceIdeal.main_arg1⟧ = WK ᴋ⟦KernelIdeal.main_arg1⟧)
    (h4 : WR ʀ⟦ReferenceIdeal.main_arg4⟧ = WK ᴋ⟦KernelIdeal.main_arg4⟧)
    (h5 : WR ʀ⟦ReferenceIdeal.main_arg5⟧ = WK ᴋ⟦KernelIdeal.main_arg5⟧) :
    after (r0 (F := F)) WR ʀ⟦ReferenceIdeal.main_v9⟧ = after (hostOps0 (F := F)) WK ᴋ⟦KernelIdeal.main_v9⟧ := by
  simp only [r0, hostOps0]
  after_results_simp
  rw [h1, h4, h5]
  rfl

/-- The centre node of every pair: node_ids at the masked index. -/
theorem centre (WR : ℛ) (WK : 𝒦)
    (h13 : WR ʀ⟦ReferenceIdeal.main_arg13⟧ = WK ᴋ⟦KernelIdeal.main_arg13⟧)
    (h14 : WR ʀ⟦ReferenceIdeal.main_arg14⟧ = WK ᴋ⟦KernelIdeal.main_arg14⟧) :
    after (r1 (F := F)) WR ʀ⟦ReferenceIdeal.main_v10⟧ = after (hostOps0_1 (F := F)) WK ᴋ⟦KernelIdeal.main_v10⟧ := by
  simp only [r1, hostOps0_1]
  after_results_simp
  rw [h13, h14]
  rfl

/-- The neighbour node of every pair: the source row at the edge index. -/
theorem neighbour (WR : ℛ) (WK : 𝒦)
    (hs : WR ʀ⟦ReferenceIdeal.main_v1⟧ = WK ᴋ⟦KernelIdeal.main_v1⟧)
    (h15 : WR ʀ⟦ReferenceIdeal.main_arg15⟧ = WK ᴋ⟦KernelIdeal.main_arg15⟧) :
    after (r2 (F := F)) WR ʀ⟦ReferenceIdeal.main_v11⟧ = after (hostOps0_2 (F := F)) WK ᴋ⟦KernelIdeal.main_v11⟧ := by
  simp only [r2, hostOps0_2]
  after_results_simp
  rw [hs, h15]
  rfl

/-- The rows of q at the centre nodes. -/
theorem rows_q (WR : ℛ) (WK : 𝒦)
    (hq : WR ʀ⟦ReferenceIdeal.main_v5⟧ = WK ᴋ⟦KernelIdeal.main_v5⟧)
    (hc : WR ʀ⟦ReferenceIdeal.main_v10⟧ = WK ᴋ⟦KernelIdeal.main_v10⟧) :
    after (r3 (F := F)) WR ʀ⟦ReferenceIdeal.main_v12⟧ = after (hostOps0_3 (F := F)) WK ᴋ⟦KernelIdeal.main_v12⟧ := by
  simp only [r3, hostOps0_3]
  after_results_simp
  rw [hq, hc]
  rfl

/-- The rows of k at the neighbour nodes. -/
theorem rows_k (WR : ℛ) (WK : 𝒦)
    (hk : WR ʀ⟦ReferenceIdeal.main_v9⟧ = WK ᴋ⟦KernelIdeal.main_v9⟧)
    (hn : WR ʀ⟦ReferenceIdeal.main_v11⟧ = WK ᴋ⟦KernelIdeal.main_v11⟧) :
    after (r4 (F := F)) WR ʀ⟦ReferenceIdeal.main_v13⟧ = after (hostOps0_4 (F := F)) WK ᴋ⟦KernelIdeal.main_v13⟧ := by
  simp only [r4, hostOps0_4]
  after_results_simp
  rw [hk, hn]
  rfl

/-- The rows of the masked embeddings at the masked index. -/
theorem rows_h (WR : ℛ) (WK : 𝒦)
    (h0 : WR ʀ⟦ReferenceIdeal.main_arg0⟧ = WK ᴋ⟦KernelIdeal.main_arg0⟧)
    (h14 : WR ʀ⟦ReferenceIdeal.main_arg14⟧ = WK ᴋ⟦KernelIdeal.main_arg14⟧) :
    after (r6 (F := F)) WR ʀ⟦ReferenceIdeal.main_v23⟧ = after (hostOps0_5 (F := F)) WK ᴋ⟦KernelIdeal.main_v14⟧ := by
  simp only [r6, hostOps0_5]
  after_results_simp
  rw [h0, h14]
  rfl

/-- The rows of z at the neighbour nodes. -/
theorem rows_z (WR : ℛ) (WK : 𝒦)
    (h1 : WR ʀ⟦ReferenceIdeal.main_arg1⟧ = WK ᴋ⟦KernelIdeal.main_arg1⟧)
    (hn : WR ʀ⟦ReferenceIdeal.main_v11⟧ = WK ᴋ⟦KernelIdeal.main_v11⟧) :
    after (r7 (F := F)) WR ʀ⟦ReferenceIdeal.main_v24⟧ = after (hostOps0_6 (F := F)) WK ᴋ⟦KernelIdeal.main_v15⟧ := by
  simp only [r7, hostOps0_6]
  after_results_simp
  rw [h1, hn]
  rfl

/-! ## The two lines, stretch by stretch -/

/-- The reference's buffers after its node-level stretch, from contents `V`. -/
def R1 (V : ℛ) : ℛ := after r0 V
/-- … then after the centre nodes' selection, -/
def R2 (V : ℛ) : ℛ := after r1 (R1 V)
/-- … the neighbour nodes' selection, -/
def R3 (V : ℛ) : ℛ := after r2 (R2 V)
/-- … the selection of the rows of q, -/
def R4 (V : ℛ) : ℛ := after r3 (R3 V)
/-- … the selection of the rows of k, -/
def R5 (V : ℛ) : ℛ := after r4 (R4 V)
/-- … the gate, -/
def R6 (V : ℛ) : ℛ := after r5 (R5 V)
/-- … the selection of the rows of the masked embeddings, -/
def R7 (V : ℛ) : ℛ := after r6 (R6 V)
/-- … the selection of the rows of z, -/
def R8 (V : ℛ) : ℛ := after r7 (R7 V)
/-- … the first affine layer, -/
def R9 (V : ℛ) : ℛ := after r8 (R8 V)
/-- … its rectification, -/
def R10 (V : ℛ) : ℛ := after r9 (R9 V)
/-- … and the rest: the reference's buffers at its end. -/
def R11 (V : ℛ) : ℛ := after r10 (R10 V)

/-- The whole reference line is its eleven stretches in turn. -/
theorem R_all (V : ℛ) : after (ReferenceIdeal.RefRun.ops (F := F)) V = R11 V := by
  simp only [R11, R10, R9, R8, R7, R6, R5, R4, R3, R2, R1, ReferenceIdeal.RefRun.ops, ReferenceIdeal.RefRun.parts,
    List.flatten_cons, List.flatten_nil, List.append_nil, StableHlo.after_append]

/-- The kernel program's buffers after its node-level stretch, from contents `V`. -/
def K1 (V : 𝒦) : 𝒦 := after hostOps0 V
/-- … then after the centre nodes' selection, -/
def K2 (V : 𝒦) : 𝒦 := after hostOps0_1 (K1 V)
/-- … the neighbour nodes' selection, -/
def K3 (V : 𝒦) : 𝒦 := after hostOps0_2 (K2 V)
/-- … the selection of the rows of q, -/
def K4 (V : 𝒦) : 𝒦 := after hostOps0_3 (K3 V)
/-- … the selection of the rows of k, -/
def K5 (V : 𝒦) : 𝒦 := after hostOps0_4 (K4 V)
/-- … the selection of the rows of the masked embeddings, -/
def K6 (V : 𝒦) : 𝒦 := after hostOps0_5 (K5 V)
/-- … the selection of the rows of z, -/
def K7 (V : 𝒦) : 𝒦 := after hostOps0_6 (K6 V)
/-- … and the three bias rows: the kernel program's buffers where its region is entered. -/
def K8 (V : 𝒦) : 𝒦 := after hostOps0_7 (K7 V)

/-- The kernel program's line before its region is its eight stretches in turn. -/
theorem K_all (V : 𝒦) :
    after (List.flatten [hostOps0 (F := F), hostOps0_1, hostOps0_2, hostOps0_3, hostOps0_4, hostOps0_5, hostOps0_6, hostOps0_7]) V = K8 V := by
  simp only [K8, K7, K6, K5, K4, K3, K2, K1, List.flatten_cons, List.flatten_nil, List.append_nil, StableHlo.after_append]

/-! ## What is carried: the buffers a stretch leaves alone

A buffer that no operation of some consecutive stretches writes holds after them what it held before:
each operation's one written buffer is told apart from it by its place in the signature. -/

theorem R1_arg13 (V : ℛ) : R1 V ʀ⟦ReferenceIdeal.main_arg13⟧ = V ʀ⟦ReferenceIdeal.main_arg13⟧ := by
  unfold R1
  try simp only [← StableHlo.after_append]
  refine StableHlo.after_of_forall_not_mem _ _ (List.forall_iff_forall_mem.mp ?_)
  simp only [r0, r1, r2, r3, r4, r5, r6, r7, r8, r9, r10, hostOps0, hostOps0_1, hostOps0_2, hostOps0_3, hostOps0_4, hostOps0_5, hostOps0_6, hostOps0_7,
    List.cons_append, List.nil_append, List.append_nil, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)
theorem R1_arg14 (V : ℛ) : R1 V ʀ⟦ReferenceIdeal.main_arg14⟧ = V ʀ⟦ReferenceIdeal.main_arg14⟧ := by
  unfold R1
  try simp only [← StableHlo.after_append]
  refine StableHlo.after_of_forall_not_mem _ _ (List.forall_iff_forall_mem.mp ?_)
  simp only [r0, r1, r2, r3, r4, r5, r6, r7, r8, r9, r10, hostOps0, hostOps0_1, hostOps0_2, hostOps0_3, hostOps0_4, hostOps0_5, hostOps0_6, hostOps0_7,
    List.cons_append, List.nil_append, List.append_nil, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)
theorem R2_v1 (V : ℛ) : R2 V ʀ⟦ReferenceIdeal.main_v1⟧ = R1 V ʀ⟦ReferenceIdeal.main_v1⟧ := by
  unfold R2
  try simp only [← StableHlo.after_append]
  refine StableHlo.after_of_forall_not_mem _ _ (List.forall_iff_forall_mem.mp ?_)
  simp only [r0, r1, r2, r3, r4, r5, r6, r7, r8, r9, r10, hostOps0, hostOps0_1, hostOps0_2, hostOps0_3, hostOps0_4, hostOps0_5, hostOps0_6, hostOps0_7,
    List.cons_append, List.nil_append, List.append_nil, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)
theorem R2_arg15 (V : ℛ) : R2 V ʀ⟦ReferenceIdeal.main_arg15⟧ = V ʀ⟦ReferenceIdeal.main_arg15⟧ := by
  unfold R2 R1
  try simp only [← StableHlo.after_append]
  refine StableHlo.after_of_forall_not_mem _ _ (List.forall_iff_forall_mem.mp ?_)
  simp only [r0, r1, r2, r3, r4, r5, r6, r7, r8, r9, r10, hostOps0, hostOps0_1, hostOps0_2, hostOps0_3, hostOps0_4, hostOps0_5, hostOps0_6, hostOps0_7,
    List.cons_append, List.nil_append, List.append_nil, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)
theorem R3_v5 (V : ℛ) : R3 V ʀ⟦ReferenceIdeal.main_v5⟧ = R1 V ʀ⟦ReferenceIdeal.main_v5⟧ := by
  unfold R3 R2
  try simp only [← StableHlo.after_append]
  refine StableHlo.after_of_forall_not_mem _ _ (List.forall_iff_forall_mem.mp ?_)
  simp only [r0, r1, r2, r3, r4, r5, r6, r7, r8, r9, r10, hostOps0, hostOps0_1, hostOps0_2, hostOps0_3, hostOps0_4, hostOps0_5, hostOps0_6, hostOps0_7,
    List.cons_append, List.nil_append, List.append_nil, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)
theorem R3_v10 (V : ℛ) : R3 V ʀ⟦ReferenceIdeal.main_v10⟧ = R2 V ʀ⟦ReferenceIdeal.main_v10⟧ := by
  unfold R3
  try simp only [← StableHlo.after_append]
  refine StableHlo.after_of_forall_not_mem _ _ (List.forall_iff_forall_mem.mp ?_)
  simp only [r0, r1, r2, r3, r4, r5, r6, r7, r8, r9, r10, hostOps0, hostOps0_1, hostOps0_2, hostOps0_3, hostOps0_4, hostOps0_5, hostOps0_6, hostOps0_7,
    List.cons_append, List.nil_append, List.append_nil, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)
theorem R4_v9 (V : ℛ) : R4 V ʀ⟦ReferenceIdeal.main_v9⟧ = R1 V ʀ⟦ReferenceIdeal.main_v9⟧ := by
  unfold R4 R3 R2
  try simp only [← StableHlo.after_append]
  refine StableHlo.after_of_forall_not_mem _ _ (List.forall_iff_forall_mem.mp ?_)
  simp only [r0, r1, r2, r3, r4, r5, r6, r7, r8, r9, r10, hostOps0, hostOps0_1, hostOps0_2, hostOps0_3, hostOps0_4, hostOps0_5, hostOps0_6, hostOps0_7,
    List.cons_append, List.nil_append, List.append_nil, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)
theorem R4_v11 (V : ℛ) : R4 V ʀ⟦ReferenceIdeal.main_v11⟧ = R3 V ʀ⟦ReferenceIdeal.main_v11⟧ := by
  unfold R4
  try simp only [← StableHlo.after_append]
  refine StableHlo.after_of_forall_not_mem _ _ (List.forall_iff_forall_mem.mp ?_)
  simp only [r0, r1, r2, r3, r4, r5, r6, r7, r8, r9, r10, hostOps0, hostOps0_1, hostOps0_2, hostOps0_3, hostOps0_4, hostOps0_5, hostOps0_6, hostOps0_7,
    List.cons_append, List.nil_append, List.append_nil, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)
theorem R6_arg0 (V : ℛ) : R6 V ʀ⟦ReferenceIdeal.main_arg0⟧ = V ʀ⟦ReferenceIdeal.main_arg0⟧ := by
  unfold R6 R5 R4 R3 R2 R1
  try simp only [← StableHlo.after_append]
  refine StableHlo.after_of_forall_not_mem _ _ (List.forall_iff_forall_mem.mp ?_)
  simp only [r0, r1, r2, r3, r4, r5, r6, r7, r8, r9, r10, hostOps0, hostOps0_1, hostOps0_2, hostOps0_3, hostOps0_4, hostOps0_5, hostOps0_6, hostOps0_7,
    List.cons_append, List.nil_append, List.append_nil, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)
theorem R6_arg14 (V : ℛ) : R6 V ʀ⟦ReferenceIdeal.main_arg14⟧ = V ʀ⟦ReferenceIdeal.main_arg14⟧ := by
  unfold R6 R5 R4 R3 R2 R1
  try simp only [← StableHlo.after_append]
  refine StableHlo.after_of_forall_not_mem _ _ (List.forall_iff_forall_mem.mp ?_)
  simp only [r0, r1, r2, r3, r4, r5, r6, r7, r8, r9, r10, hostOps0, hostOps0_1, hostOps0_2, hostOps0_3, hostOps0_4, hostOps0_5, hostOps0_6, hostOps0_7,
    List.cons_append, List.nil_append, List.append_nil, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)
theorem R7_arg1 (V : ℛ) : R7 V ʀ⟦ReferenceIdeal.main_arg1⟧ = V ʀ⟦ReferenceIdeal.main_arg1⟧ := by
  unfold R7 R6 R5 R4 R3 R2 R1
  try simp only [← StableHlo.after_append]
  refine StableHlo.after_of_forall_not_mem _ _ (List.forall_iff_forall_mem.mp ?_)
  simp only [r0, r1, r2, r3, r4, r5, r6, r7, r8, r9, r10, hostOps0, hostOps0_1, hostOps0_2, hostOps0_3, hostOps0_4, hostOps0_5, hostOps0_6, hostOps0_7,
    List.cons_append, List.nil_append, List.append_nil, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)
theorem R7_v11 (V : ℛ) : R7 V ʀ⟦ReferenceIdeal.main_v11⟧ = R3 V ʀ⟦ReferenceIdeal.main_v11⟧ := by
  unfold R7 R6 R5 R4
  try simp only [← StableHlo.after_append]
  refine StableHlo.after_of_forall_not_mem _ _ (List.forall_iff_forall_mem.mp ?_)
  simp only [r0, r1, r2, r3, r4, r5, r6, r7, r8, r9, r10, hostOps0, hostOps0_1, hostOps0_2, hostOps0_3, hostOps0_4, hostOps0_5, hostOps0_6, hostOps0_7,
    List.cons_append, List.nil_append, List.append_nil, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)
theorem R11_v12 (V : ℛ) : R11 V ʀ⟦ReferenceIdeal.main_v12⟧ = R4 V ʀ⟦ReferenceIdeal.main_v12⟧ := by
  unfold R11 R10 R9 R8 R7 R6 R5
  try simp only [← StableHlo.after_append]
  refine StableHlo.after_of_forall_not_mem _ _ (List.forall_iff_forall_mem.mp ?_)
  simp only [r0, r1, r2, r3, r4, r5, r6, r7, r8, r9, r10, hostOps0, hostOps0_1, hostOps0_2, hostOps0_3, hostOps0_4, hostOps0_5, hostOps0_6, hostOps0_7,
    List.cons_append, List.nil_append, List.append_nil, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)
theorem R11_v13 (V : ℛ) : R11 V ʀ⟦ReferenceIdeal.main_v13⟧ = R5 V ʀ⟦ReferenceIdeal.main_v13⟧ := by
  unfold R11 R10 R9 R8 R7 R6
  try simp only [← StableHlo.after_append]
  refine StableHlo.after_of_forall_not_mem _ _ (List.forall_iff_forall_mem.mp ?_)
  simp only [r0, r1, r2, r3, r4, r5, r6, r7, r8, r9, r10, hostOps0, hostOps0_1, hostOps0_2, hostOps0_3, hostOps0_4, hostOps0_5, hostOps0_6, hostOps0_7,
    List.cons_append, List.nil_append, List.append_nil, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)
theorem R11_v23 (V : ℛ) : R11 V ʀ⟦ReferenceIdeal.main_v23⟧ = R7 V ʀ⟦ReferenceIdeal.main_v23⟧ := by
  unfold R11 R10 R9 R8
  try simp only [← StableHlo.after_append]
  refine StableHlo.after_of_forall_not_mem _ _ (List.forall_iff_forall_mem.mp ?_)
  simp only [r0, r1, r2, r3, r4, r5, r6, r7, r8, r9, r10, hostOps0, hostOps0_1, hostOps0_2, hostOps0_3, hostOps0_4, hostOps0_5, hostOps0_6, hostOps0_7,
    List.cons_append, List.nil_append, List.append_nil, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)
theorem R11_v24 (V : ℛ) : R11 V ʀ⟦ReferenceIdeal.main_v24⟧ = R8 V ʀ⟦ReferenceIdeal.main_v24⟧ := by
  unfold R11 R10 R9
  try simp only [← StableHlo.after_append]
  refine StableHlo.after_of_forall_not_mem _ _ (List.forall_iff_forall_mem.mp ?_)
  simp only [r0, r1, r2, r3, r4, r5, r6, r7, r8, r9, r10, hostOps0, hostOps0_1, hostOps0_2, hostOps0_3, hostOps0_4, hostOps0_5, hostOps0_6, hostOps0_7,
    List.cons_append, List.nil_append, List.append_nil, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)

theorem K1_arg13 (U : 𝒦) : K1 U ᴋ⟦KernelIdeal.main_arg13⟧ = U ᴋ⟦KernelIdeal.main_arg13⟧ := by
  unfold K1
  try simp only [← StableHlo.after_append]
  refine StableHlo.after_of_forall_not_mem _ _ (List.forall_iff_forall_mem.mp ?_)
  simp only [r0, r1, r2, r3, r4, r5, r6, r7, r8, r9, r10, hostOps0, hostOps0_1, hostOps0_2, hostOps0_3, hostOps0_4, hostOps0_5, hostOps0_6, hostOps0_7,
    List.cons_append, List.nil_append, List.append_nil, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)
theorem K1_arg14 (U : 𝒦) : K1 U ᴋ⟦KernelIdeal.main_arg14⟧ = U ᴋ⟦KernelIdeal.main_arg14⟧ := by
  unfold K1
  try simp only [← StableHlo.after_append]
  refine StableHlo.after_of_forall_not_mem _ _ (List.forall_iff_forall_mem.mp ?_)
  simp only [r0, r1, r2, r3, r4, r5, r6, r7, r8, r9, r10, hostOps0, hostOps0_1, hostOps0_2, hostOps0_3, hostOps0_4, hostOps0_5, hostOps0_6, hostOps0_7,
    List.cons_append, List.nil_append, List.append_nil, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)
theorem K2_v1 (U : 𝒦) : K2 U ᴋ⟦KernelIdeal.main_v1⟧ = K1 U ᴋ⟦KernelIdeal.main_v1⟧ := by
  unfold K2
  try simp only [← StableHlo.after_append]
  refine StableHlo.after_of_forall_not_mem _ _ (List.forall_iff_forall_mem.mp ?_)
  simp only [r0, r1, r2, r3, r4, r5, r6, r7, r8, r9, r10, hostOps0, hostOps0_1, hostOps0_2, hostOps0_3, hostOps0_4, hostOps0_5, hostOps0_6, hostOps0_7,
    List.cons_append, List.nil_append, List.append_nil, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)
theorem K2_arg15 (U : 𝒦) : K2 U ᴋ⟦KernelIdeal.main_arg15⟧ = U ᴋ⟦KernelIdeal.main_arg15⟧ := by
  unfold K2 K1
  try simp only [← StableHlo.after_append]
  refine StableHlo.after_of_forall_not_mem _ _ (List.forall_iff_forall_mem.mp ?_)
  simp only [r0, r1, r2, r3, r4, r5, r6, r7, r8, r9, r10, hostOps0, hostOps0_1, hostOps0_2, hostOps0_3, hostOps0_4, hostOps0_5, hostOps0_6, hostOps0_7,
    List.cons_append, List.nil_append, List.append_nil, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)
theorem K3_v5 (U : 𝒦) : K3 U ᴋ⟦KernelIdeal.main_v5⟧ = K1 U ᴋ⟦KernelIdeal.main_v5⟧ := by
  unfold K3 K2
  try simp only [← StableHlo.after_append]
  refine StableHlo.after_of_forall_not_mem _ _ (List.forall_iff_forall_mem.mp ?_)
  simp only [r0, r1, r2, r3, r4, r5, r6, r7, r8, r9, r10, hostOps0, hostOps0_1, hostOps0_2, hostOps0_3, hostOps0_4, hostOps0_5, hostOps0_6, hostOps0_7,
    List.cons_append, List.nil_append, List.append_nil, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)
theorem K3_v10 (U : 𝒦) : K3 U ᴋ⟦KernelIdeal.main_v10⟧ = K2 U ᴋ⟦KernelIdeal.main_v10⟧ := by
  unfold K3
  try simp only [← StableHlo.after_append]
  refine StableHlo.after_of_forall_not_mem _ _ (List.forall_iff_forall_mem.mp ?_)
  simp only [r0, r1, r2, r3, r4, r5, r6, r7, r8, r9, r10, hostOps0, hostOps0_1, hostOps0_2, hostOps0_3, hostOps0_4, hostOps0_5, hostOps0_6, hostOps0_7,
    List.cons_append, List.nil_append, List.append_nil, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)
theorem K4_v9 (U : 𝒦) : K4 U ᴋ⟦KernelIdeal.main_v9⟧ = K1 U ᴋ⟦KernelIdeal.main_v9⟧ := by
  unfold K4 K3 K2
  try simp only [← StableHlo.after_append]
  refine StableHlo.after_of_forall_not_mem _ _ (List.forall_iff_forall_mem.mp ?_)
  simp only [r0, r1, r2, r3, r4, r5, r6, r7, r8, r9, r10, hostOps0, hostOps0_1, hostOps0_2, hostOps0_3, hostOps0_4, hostOps0_5, hostOps0_6, hostOps0_7,
    List.cons_append, List.nil_append, List.append_nil, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)
theorem K4_v11 (U : 𝒦) : K4 U ᴋ⟦KernelIdeal.main_v11⟧ = K3 U ᴋ⟦KernelIdeal.main_v11⟧ := by
  unfold K4
  try simp only [← StableHlo.after_append]
  refine StableHlo.after_of_forall_not_mem _ _ (List.forall_iff_forall_mem.mp ?_)
  simp only [r0, r1, r2, r3, r4, r5, r6, r7, r8, r9, r10, hostOps0, hostOps0_1, hostOps0_2, hostOps0_3, hostOps0_4, hostOps0_5, hostOps0_6, hostOps0_7,
    List.cons_append, List.nil_append, List.append_nil, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)
theorem K5_arg0 (U : 𝒦) : K5 U ᴋ⟦KernelIdeal.main_arg0⟧ = U ᴋ⟦KernelIdeal.main_arg0⟧ := by
  unfold K5 K4 K3 K2 K1
  try simp only [← StableHlo.after_append]
  refine StableHlo.after_of_forall_not_mem _ _ (List.forall_iff_forall_mem.mp ?_)
  simp only [r0, r1, r2, r3, r4, r5, r6, r7, r8, r9, r10, hostOps0, hostOps0_1, hostOps0_2, hostOps0_3, hostOps0_4, hostOps0_5, hostOps0_6, hostOps0_7,
    List.cons_append, List.nil_append, List.append_nil, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)
theorem K5_arg14 (U : 𝒦) : K5 U ᴋ⟦KernelIdeal.main_arg14⟧ = U ᴋ⟦KernelIdeal.main_arg14⟧ := by
  unfold K5 K4 K3 K2 K1
  try simp only [← StableHlo.after_append]
  refine StableHlo.after_of_forall_not_mem _ _ (List.forall_iff_forall_mem.mp ?_)
  simp only [r0, r1, r2, r3, r4, r5, r6, r7, r8, r9, r10, hostOps0, hostOps0_1, hostOps0_2, hostOps0_3, hostOps0_4, hostOps0_5, hostOps0_6, hostOps0_7,
    List.cons_append, List.nil_append, List.append_nil, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)
theorem K6_arg1 (U : 𝒦) : K6 U ᴋ⟦KernelIdeal.main_arg1⟧ = U ᴋ⟦KernelIdeal.main_arg1⟧ := by
  unfold K6 K5 K4 K3 K2 K1
  try simp only [← StableHlo.after_append]
  refine StableHlo.after_of_forall_not_mem _ _ (List.forall_iff_forall_mem.mp ?_)
  simp only [r0, r1, r2, r3, r4, r5, r6, r7, r8, r9, r10, hostOps0, hostOps0_1, hostOps0_2, hostOps0_3, hostOps0_4, hostOps0_5, hostOps0_6, hostOps0_7,
    List.cons_append, List.nil_append, List.append_nil, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)
theorem K6_v11 (U : 𝒦) : K6 U ᴋ⟦KernelIdeal.main_v11⟧ = K3 U ᴋ⟦KernelIdeal.main_v11⟧ := by
  unfold K6 K5 K4
  try simp only [← StableHlo.after_append]
  refine StableHlo.after_of_forall_not_mem _ _ (List.forall_iff_forall_mem.mp ?_)
  simp only [r0, r1, r2, r3, r4, r5, r6, r7, r8, r9, r10, hostOps0, hostOps0_1, hostOps0_2, hostOps0_3, hostOps0_4, hostOps0_5, hostOps0_6, hostOps0_7,
    List.cons_append, List.nil_append, List.append_nil, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)
theorem K8_v12 (U : 𝒦) : K8 U ᴋ⟦KernelIdeal.main_v12⟧ = K4 U ᴋ⟦KernelIdeal.main_v12⟧ := by
  unfold K8 K7 K6 K5
  try simp only [← StableHlo.after_append]
  refine StableHlo.after_of_forall_not_mem _ _ (List.forall_iff_forall_mem.mp ?_)
  simp only [r0, r1, r2, r3, r4, r5, r6, r7, r8, r9, r10, hostOps0, hostOps0_1, hostOps0_2, hostOps0_3, hostOps0_4, hostOps0_5, hostOps0_6, hostOps0_7,
    List.cons_append, List.nil_append, List.append_nil, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)
theorem K8_v13 (U : 𝒦) : K8 U ᴋ⟦KernelIdeal.main_v13⟧ = K5 U ᴋ⟦KernelIdeal.main_v13⟧ := by
  unfold K8 K7 K6
  try simp only [← StableHlo.after_append]
  refine StableHlo.after_of_forall_not_mem _ _ (List.forall_iff_forall_mem.mp ?_)
  simp only [r0, r1, r2, r3, r4, r5, r6, r7, r8, r9, r10, hostOps0, hostOps0_1, hostOps0_2, hostOps0_3, hostOps0_4, hostOps0_5, hostOps0_6, hostOps0_7,
    List.cons_append, List.nil_append, List.append_nil, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)
theorem K8_v14 (U : 𝒦) : K8 U ᴋ⟦KernelIdeal.main_v14⟧ = K6 U ᴋ⟦KernelIdeal.main_v14⟧ := by
  unfold K8 K7
  try simp only [← StableHlo.after_append]
  refine StableHlo.after_of_forall_not_mem _ _ (List.forall_iff_forall_mem.mp ?_)
  simp only [r0, r1, r2, r3, r4, r5, r6, r7, r8, r9, r10, hostOps0, hostOps0_1, hostOps0_2, hostOps0_3, hostOps0_4, hostOps0_5, hostOps0_6, hostOps0_7,
    List.cons_append, List.nil_append, List.append_nil, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)
theorem K8_v15 (U : 𝒦) : K8 U ᴋ⟦KernelIdeal.main_v15⟧ = K7 U ᴋ⟦KernelIdeal.main_v15⟧ := by
  unfold K8
  try simp only [← StableHlo.after_append]
  refine StableHlo.after_of_forall_not_mem _ _ (List.forall_iff_forall_mem.mp ?_)
  simp only [r0, r1, r2, r3, r4, r5, r6, r7, r8, r9, r10, hostOps0, hostOps0_1, hostOps0_2, hostOps0_3, hostOps0_4, hostOps0_5, hostOps0_6, hostOps0_7,
    List.cons_append, List.nil_append, List.append_nil, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)

/-! ## The walk

From launch contents `VR`, `VK` that agree on the arguments read, the two lines are walked in step. -/

/-- The source row of the edge list. -/
theorem same_src (VR : ℛ) (VK : 𝒦)
    (h12 : VR ʀ⟦ReferenceIdeal.main_arg12⟧ = VK ᴋ⟦KernelIdeal.main_arg12⟧) :
    R1 VR ʀ⟦ReferenceIdeal.main_v1⟧ = K1 VK ᴋ⟦KernelIdeal.main_v1⟧ :=
  node_src VR VK h12

/-- q. -/
theorem same_q (VR : ℛ) (VK : 𝒦)
    (h1 : VR ʀ⟦ReferenceIdeal.main_arg1⟧ = VK ᴋ⟦KernelIdeal.main_arg1⟧)
    (h2 : VR ʀ⟦ReferenceIdeal.main_arg2⟧ = VK ᴋ⟦KernelIdeal.main_arg2⟧)
    (h3 : VR ʀ⟦ReferenceIdeal.main_arg3⟧ = VK ᴋ⟦KernelIdeal.main_arg3⟧) :
    R1 VR ʀ⟦ReferenceIdeal.main_v5⟧ = K1 VK ᴋ⟦KernelIdeal.main_v5⟧ :=
  node_q VR VK h1 h2 h3

/-- k. -/
theorem same_k (VR : ℛ) (VK : 𝒦)
    (h1 : VR ʀ⟦ReferenceIdeal.main_arg1⟧ = VK ᴋ⟦KernelIdeal.main_arg1⟧)
    (h4 : VR ʀ⟦ReferenceIdeal.main_arg4⟧ = VK ᴋ⟦KernelIdeal.main_arg4⟧)
    (h5 : VR ʀ⟦ReferenceIdeal.main_arg5⟧ = VK ᴋ⟦KernelIdeal.main_arg5⟧) :
    R1 VR ʀ⟦ReferenceIdeal.main_v9⟧ = K1 VK ᴋ⟦KernelIdeal.main_v9⟧ :=
  node_k VR VK h1 h4 h5

/-- The centre nodes: node_ids and the masked index are still as launched when they are read. -/
theorem same_centre (VR : ℛ) (VK : 𝒦)
    (h13 : VR ʀ⟦ReferenceIdeal.main_arg13⟧ = VK ᴋ⟦KernelIdeal.main_arg13⟧)
    (h14 : VR ʀ⟦ReferenceIdeal.main_arg14⟧ = VK ᴋ⟦KernelIdeal.main_arg14⟧) :
    R2 VR ʀ⟦ReferenceIdeal.main_v10⟧ = K2 VK ᴋ⟦KernelIdeal.main_v10⟧ :=
  centre (R1 VR) (K1 VK)
    ((R1_arg13 VR).trans (h13.trans (K1_arg13 VK).symm))
    ((R1_arg14 VR).trans (h14.trans (K1_arg14 VK).symm))

/-- The neighbour nodes: the source row is carried over the centre nodes' selection, the edge index is as launched. -/
theorem same_nbr (VR : ℛ) (VK : 𝒦)
    (h12 : VR ʀ⟦ReferenceIdeal.main_arg12⟧ = VK ᴋ⟦KernelIdeal.main_arg12⟧)
    (h15 : VR ʀ⟦ReferenceIdeal.main_arg15⟧ = VK ᴋ⟦KernelIdeal.main_arg15⟧) :
    R3 VR ʀ⟦ReferenceIdeal.main_v11⟧ = K3 VK ᴋ⟦KernelIdeal.main_v11⟧ :=
  neighbour (R2 VR) (K2 VK)
    ((R2_v1 VR).trans ((same_src VR VK h12).trans (K2_v1 VK).symm))
    ((R2_arg15 VR).trans (h15.trans (K2_arg15 VK).symm))

/-- The rows of q at the centre nodes: q is carried over the two index selections, the centre nodes over one. -/
theorem same_rows_q (VR : ℛ) (VK : 𝒦)
    (h1 : VR ʀ⟦ReferenceIdeal.main_arg1⟧ = VK ᴋ⟦KernelIdeal.main_arg1⟧)
    (h2 : VR ʀ⟦ReferenceIdeal.main_arg2⟧ = VK ᴋ⟦KernelIdeal.main_arg2⟧)
    (h3 : VR ʀ⟦ReferenceIdeal.main_arg3⟧ = VK ᴋ⟦KernelIdeal.main_arg3⟧)
    (h13 : VR ʀ⟦ReferenceIdeal.main_arg13⟧ = VK ᴋ⟦KernelIdeal.main_arg13⟧)
    (h14 : VR ʀ⟦ReferenceIdeal.main_arg14⟧ = VK ᴋ⟦KernelIdeal.main_arg14⟧) :
    R4 VR ʀ⟦ReferenceIdeal.main_v12⟧ = K4 VK ᴋ⟦KernelIdeal.main_v12⟧ :=
  rows_q (R3 VR) (K3 VK)
    ((R3_v5 VR).trans ((same_q VR VK h1 h2 h3).trans (K3_v5 VK).symm))
    ((R3_v10 VR).trans ((same_centre VR VK h13 h14).trans (K3_v10 VK).symm))

/-- The rows of k at the neighbour nodes. -/
theorem same_rows_k (VR : ℛ) (VK : 𝒦)
    (h1 : VR ʀ⟦ReferenceIdeal.main_arg1⟧ = VK ᴋ⟦KernelIdeal.main_arg1⟧)
    (h4 : VR ʀ⟦ReferenceIdeal.main_arg4⟧ = VK ᴋ⟦KernelIdeal.main_arg4⟧)
    (h5 : VR ʀ⟦ReferenceIdeal.main_arg5⟧ = VK ᴋ⟦KernelIdeal.main_arg5⟧)
    (h12 : VR ʀ⟦ReferenceIdeal.main_arg12⟧ = VK ᴋ⟦KernelIdeal.main_arg12⟧)
    (h15 : VR ʀ⟦ReferenceIdeal.main_arg15⟧ = VK ᴋ⟦KernelIdeal.main_arg15⟧) :
    R5 VR ʀ⟦ReferenceIdeal.main_v13⟧ = K5 VK ᴋ⟦KernelIdeal.main_v13⟧ :=
  rows_k (R4 VR) (K4 VK)
    ((R4_v9 VR).trans ((same_k VR VK h1 h4 h5).trans (K4_v9 VK).symm))
    ((R4_v11 VR).trans ((same_nbr VR VK h12 h15).trans (K4_v11 VK).symm))

/-- The rows of the masked embeddings at the masked index: both operands are still as launched, in the reference
    over six stretches (the gate among them), in the kernel program over five. -/
theorem same_rows_h (VR : ℛ) (VK : 𝒦)
    (h0 : VR ʀ⟦ReferenceIdeal.main_arg0⟧ = VK ᴋ⟦KernelIdeal.main_arg0⟧)
    (h14 : VR ʀ⟦ReferenceIdeal.main_arg14⟧ = VK ᴋ⟦KernelIdeal.main_arg14⟧) :
    R7 VR ʀ⟦ReferenceIdeal.main_v23⟧ = K6 VK ᴋ⟦KernelIdeal.main_v14⟧ :=
  rows_h (R6 VR) (K5 VK)
    ((R6_arg0 VR).trans (h0.trans (K5_arg0 VK).symm))
    ((R6_arg14 VR).trans (h14.trans (K5_arg14 VK).symm))

/-- The rows of z at the neighbour nodes: z is as launched, the neighbour nodes are carried from their selection. -/
theorem same_rows_z (VR : ℛ) (VK : 𝒦)
    (h1 : VR ʀ⟦ReferenceIdeal.main_arg1⟧ = VK ᴋ⟦KernelIdeal.main_arg1⟧)
    (h12 : VR ʀ⟦ReferenceIdeal.main_arg12⟧ = VK ᴋ⟦KernelIdeal.main_arg12⟧)
    (h15 : VR ʀ⟦ReferenceIdeal.main_arg15⟧ = VK ᴋ⟦KernelIdeal.main_arg15⟧) :
    R8 VR ʀ⟦ReferenceIdeal.main_v24⟧ = K7 VK ᴋ⟦KernelIdeal.main_v15⟧ :=
  rows_z (R7 VR) (K6 VK)
    ((R7_arg1 VR).trans (h1.trans (K6_arg1 VK).symm))
    ((R7_v11 VR).trans ((same_nbr VR VK h12 h15).trans (K6_v11 VK).symm))

/-! ## The four arrays -/

/-- At any float values: from launch memories that agree on the ten arguments the selections read — the masked
    embeddings, z, Wq, bq, Wk, bk, the edge list, node_ids, the masked index and the edge index —, the reference's
    four gathered arrays at its end are the kernel program's four where its region is entered. -/
theorem gathered_at
    (m : (ℓ : Loc KernelIdeal.nD KernelIdeal.τ KernelIdeal.sig) → Buf (Elt F) ℓ)
    (m' : (ℓ : Loc ReferenceIdeal.nD ReferenceIdeal.τ ReferenceIdeal.sig) → Buf (Elt F) ℓ) (c : Dev KernelIdeal.nD)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3))
    (h4 : m' ((c.tc : Thread ReferenceIdeal.nD ReferenceIdeal.τ).loc ReferenceIdeal.main_arg4) = m ((c.tc : Thread KernelIdeal.nD KernelIdeal.τ).loc KernelIdeal.main_arg4))
    (h5 : m' ((c.tc : Thread ReferenceIdeal.nD ReferenceIdeal.τ).loc ReferenceIdeal.main_arg5) = m ((c.tc : Thread KernelIdeal.nD KernelIdeal.τ).loc KernelIdeal.main_arg5))
    (h12 : m' ((c.tc : Thread ReferenceIdeal.nD ReferenceIdeal.τ).loc ReferenceIdeal.main_arg12) = m ((c.tc : Thread KernelIdeal.nD KernelIdeal.τ).loc KernelIdeal.main_arg12))
    (h13 : m' ((c.tc : Thread ReferenceIdeal.nD ReferenceIdeal.τ).loc ReferenceIdeal.main_arg13) = m ((c.tc : Thread KernelIdeal.nD KernelIdeal.τ).loc KernelIdeal.main_arg13))
    (h14 : m' ((c.tc : Thread ReferenceIdeal.nD ReferenceIdeal.τ).loc ReferenceIdeal.main_arg14) = m ((c.tc : Thread KernelIdeal.nD KernelIdeal.τ).loc KernelIdeal.main_arg14))
    (h15 : m' ((c.tc : Thread ReferenceIdeal.nD ReferenceIdeal.τ).loc ReferenceIdeal.main_arg15) = m ((c.tc : Thread KernelIdeal.nD KernelIdeal.τ).loc KernelIdeal.main_arg15)) :
    after (ReferenceIdeal.RefRun.ops (F := F)) (launchContents m' c) ʀ⟦ReferenceIdeal.main_v12⟧ = KernelIdeal.Gen.V m c KernelIdeal.main_v12
      ∧ after (ReferenceIdeal.RefRun.ops (F := F)) (launchContents m' c) ʀ⟦ReferenceIdeal.main_v13⟧ = KernelIdeal.Gen.V m c KernelIdeal.main_v13
      ∧ after (ReferenceIdeal.RefRun.ops (F := F)) (launchContents m' c) ʀ⟦ReferenceIdeal.main_v23⟧ = KernelIdeal.Gen.V m c KernelIdeal.main_v14
      ∧ after (ReferenceIdeal.RefRun.ops (F := F)) (launchContents m' c) ʀ⟦ReferenceIdeal.main_v24⟧ = KernelIdeal.Gen.V m c KernelIdeal.main_v15 := by
  have hR := R_all (F := F) (launchContents m' c)
  have hK := K_all (F := F) (launchContents m c)
  refine ⟨?_, ?_, ?_, ?_⟩
  · exact (congrFun hR _).trans ((R11_v12 _).trans ((same_rows_q (launchContents m' c) (launchContents m c) h1 h2 h3 h13 h14).trans
      ((K8_v12 _).symm.trans (congrFun hK _).symm)))
  · exact (congrFun hR _).trans ((R11_v13 _).trans ((same_rows_k (launchContents m' c) (launchContents m c) h1 h4 h5 h12 h15).trans
      ((K8_v13 _).symm.trans (congrFun hK _).symm)))
  · exact (congrFun hR _).trans ((R11_v23 _).trans ((same_rows_h (launchContents m' c) (launchContents m c) h0 h14).trans
      ((K8_v14 _).symm.trans (congrFun hK _).symm)))
  · exact (congrFun hR _).trans ((R11_v24 _).trans ((same_rows_z (launchContents m' c) (launchContents m c) h1 h12 h15).trans
      ((K8_v15 _).symm.trans (congrFun hK _).symm)))

/-- The same at the ideal values, where the certificate reads it. -/
theorem gathered
    (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3))
    (h4 : m' ((c.tc : Thread ReferenceIdeal.nD ReferenceIdeal.τ).loc ReferenceIdeal.main_arg4) = m ((c.tc : Thread KernelIdeal.nD KernelIdeal.τ).loc KernelIdeal.main_arg4))
    (h5 : m' ((c.tc : Thread ReferenceIdeal.nD ReferenceIdeal.τ).loc ReferenceIdeal.main_arg5) = m ((c.tc : Thread KernelIdeal.nD KernelIdeal.τ).loc KernelIdeal.main_arg5))
    (h12 : m' ((c.tc : Thread ReferenceIdeal.nD ReferenceIdeal.τ).loc ReferenceIdeal.main_arg12) = m ((c.tc : Thread KernelIdeal.nD KernelIdeal.τ).loc KernelIdeal.main_arg12))
    (h13 : m' ((c.tc : Thread ReferenceIdeal.nD ReferenceIdeal.τ).loc ReferenceIdeal.main_arg13) = m ((c.tc : Thread KernelIdeal.nD KernelIdeal.τ).loc KernelIdeal.main_arg13))
    (h14 : m' ((c.tc : Thread ReferenceIdeal.nD ReferenceIdeal.τ).loc ReferenceIdeal.main_arg14) = m ((c.tc : Thread KernelIdeal.nD KernelIdeal.τ).loc KernelIdeal.main_arg14))
    (h15 : m' ((c.tc : Thread ReferenceIdeal.nD ReferenceIdeal.τ).loc ReferenceIdeal.main_arg15) = m ((c.tc : Thread KernelIdeal.nD KernelIdeal.τ).loc KernelIdeal.main_arg15)) :
    after (ReferenceIdeal.RefRun.ops (F := Ideal)) (launchContents m' c) ʀ⟦ReferenceIdeal.main_v12⟧ = KernelIdeal.Gen.V m c KernelIdeal.main_v12
      ∧ after (ReferenceIdeal.RefRun.ops (F := Ideal)) (launchContents m' c) ʀ⟦ReferenceIdeal.main_v13⟧ = KernelIdeal.Gen.V m c KernelIdeal.main_v13
      ∧ after (ReferenceIdeal.RefRun.ops (F := Ideal)) (launchContents m' c) ʀ⟦ReferenceIdeal.main_v23⟧ = KernelIdeal.Gen.V m c KernelIdeal.main_v14
      ∧ after (ReferenceIdeal.RefRun.ops (F := Ideal)) (launchContents m' c) ʀ⟦ReferenceIdeal.main_v24⟧ = KernelIdeal.Gen.V m c KernelIdeal.main_v15 :=
  gathered_at m m' c h0 h1 h2 h3 h4 h5 h12 h13 h14 h15

end Cert.Gathers

end
-- ==== Proof.lean ====
/-
  The proof of `Cert.Claim`: an edge-level message-passing kernel against its plain reference.

  Both programs compute, for each of 320000 (node, edge) pairs, from four rows gathered out of node-level arrays —
  q and k (two attention projections z Wq + bq, z Wk + bk at the pair's centre and neighbour node), h (the centre
  node's masked embedding) and z (the neighbour's features) — the logits
      o_c = sum_d (a h_d + (1 - a) g2_d) Wp(d, c) + bp_c,   a = logistic (sum_i q_i k_i),
      g2_d = sum_j max (sum_i z_i W1(i, j) + b1_j, 0) W2(j, d) + b2_d .
  The kernel does the gathers on the host and the rest in a pipelined region of 250 grid points of 1280 edges each;
  the reference does everything on the host over whole arrays.

  At the ideal values the two are one function, with no law of the extended reals beyond 0 + x = x:
    • a change of float format is the identity, so the kernel's roundings to bf16 in front of its three matrix
      products disappear;
    • a matrix product into a zero accumulator, and the host's general dot product, are the same sum over the
      contracted feature; a lane sum and the host's sum from the word of zero differ by that 0 + x;
    • the kernel's logistic is 1 / (1 + exp (-s)), which the reference spells out with the word of one;
    • every output row depends on its own edge's four rows only, so the grid's blocks are rows of one whole-array
      function (EdgeSpec.edgeLogits), and they cover the output;
    • the four gathered arrays are produced by the same host operations on the same arguments in both programs, and
      are carried through unopened.
  Finiteness of the inputs is never used.

  The kernel's two frames are the generated frame certificates; the reference's frame is its run with the result
  dropped; the idealization rewrote nothing, so its soundness conjunct is trivial.
-/
import proofs.«143230_j56916906606893_1_alg».proof.Proof.Assembly
import proofs.«143230_j56916906606893_1_alg».proof.Proof.KernelArray
import proofs.«143230_j56916906606893_1_alg».proof.Proof.RefValue
import proofs.«143230_j56916906606893_1_alg».proof.Proof.Gathers

noncomputable section

namespace Cert.Proof

open Idealize.ShloMosaic Idealize.SL.Sem

/-- The kernel's output array after its run is the per-edge function of the gathered arrays the region finds. -/
theorem kernelValue : Cert.Proof.Assembly.KernelValue :=
  fun m c => Cert.KernelIdeal.EdgeValue.final10 m c

/-- The reference's result buffer after its line of operations is the same function of its own gathered arrays. -/
theorem referenceValue : Cert.Proof.Assembly.ReferenceValue :=
  fun m' d => Cert.ReferenceIdeal.RefRun.result_eq m' d

/-- On arguments that agree, the two programs' gathered arrays are the same arrays. -/
theorem gatheredAgree : Cert.Proof.Assembly.GatheredAgree :=
  fun m m' c h0 h1 h2 h3 h4 h5 h12 h13 h14 h15 => Cert.Gathers.gathered m m' c h0 h1 h2 h3 h4 h5 h12 h13 h14 h15

theorem claim : Cert.Claim := Cert.Proof.Assembly.claim_of kernelValue referenceValue gatheredAgree

end Cert.Proof

end
